-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048 : Shape := ⟨2, ![16, 2048]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel

variable [Facts]

def fn {F : FTy → Type} [FloatOps F] (main_arg0 : FVec F S16x2048x1024 .f32) (main_arg1 : IVec S16x2048 1) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  main_v3
-- ==== Kernel.lean ====
abbrev S16x2048x1024 : Shape := ⟨3, ![16, 2048, 1024]⟩
abbrev S16x2048 : Shape := ⟨2, ![16, 2048]⟩
abbrev S16x1024 : Shape := ⟨2, ![16, 1024]⟩
abbrev S16x1024x1 : Shape := ⟨3, ![16, 1024, 1]⟩
abbrev S16x1024x1024 : Shape := ⟨3, ![16, 1024, 1024]⟩
abbrev S1x256x1024 : Shape := ⟨3, ![1, 256, 1024]⟩
abbrev S1x256x1 : Shape := ⟨3, ![1, 256, 1]⟩
abbrev S256x1 : Shape := ⟨2, ![256, 1]⟩
abbrev S256x1024 : Shape := ⟨2, ![256, 1024]⟩
abbrev S1024x16 : Shape := ⟨2, ![1024, 16]⟩
abbrev S16384 : Shape := ⟨1, ![16384]⟩
abbrev S16 : Shape := ⟨1, ![16]⟩
abbrev S_ : Shape := ⟨0, ![]⟩

abbrev nBuf : Table → Nat
  | .hbm => 10
  | .local .tc .vmem => 6
  | .local .scVector .vmem => 2
  | _ => 0

abbrev bufTy : (tb : Table) → Fin (nBuf tb) → BufTy
  | .hbm, ⟨0, _⟩ => ⟨S16x2048x1024, .f32⟩
  | .hbm, ⟨1, _⟩ => ⟨S16x2048, .i1⟩
  | .hbm, ⟨2, _⟩ => ⟨S16x1024, .i1⟩
  | .hbm, ⟨3, _⟩ => ⟨S16x1024x1, .i1⟩
  | .hbm, ⟨4, _⟩ => ⟨S16x1024x1, .i32⟩
  | .hbm, ⟨5, _⟩ => ⟨S16x1024x1024, .f32⟩
  | .hbm, ⟨6, _⟩ => ⟨S16x1024, .i32⟩
  | .hbm, ⟨7, _⟩ => ⟨S1024x16, .i32⟩
  | .hbm, ⟨8, _⟩ => ⟨S16384, .i32⟩
  | .hbm, ⟨9, _⟩ => ⟨S16, .i32⟩
  | .local .tc .vmem, ⟨0, _⟩ => ⟨S1x256x1024, .f32⟩
  | .local .tc .vmem, ⟨1, _⟩ => ⟨S1x256x1024, .f32⟩
  | .local .tc .vmem, ⟨2, _⟩ => ⟨S1x256x1, .i32⟩
  | .local .tc .vmem, ⟨3, _⟩ => ⟨S1x256x1, .i32⟩
  | .local .tc .vmem, ⟨4, _⟩ => ⟨S1x256x1024, .f32⟩
  | .local .tc .vmem, ⟨5, _⟩ => ⟨S1x256x1024, .f32⟩
  | .local .scVector .vmem, ⟨0, _⟩ => ⟨S16384, .i32⟩
  | .local .scVector .vmem, ⟨1, _⟩ => ⟨S16, .i32⟩
  | _, _ => ⟨S16x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v6_scv : Ref sig .scVector := ⟨.hbm, 8, rfl⟩
abbrev main_v7_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k1_t1_loop : Scf.Loop 32 :=
  let c0_i32_3 : BitVec 32 := 0#32
  let c1024_i32 : BitVec 32 := 1024#32
  let v6 : BitVec 32 := Scalar.addi c0_i32_3 c1024_i32
  let c1_i32 : BitVec 32 := 1#32
  ⟨c0_i32_3, v6, c1_i32⟩
def k1_off1 (k1_t1 : Fin k1_t1_loop.trips) : Fin 1 → Nat :=
  let c0_i32_3 : BitVec 32 := 0#32
  let c1_i32 : BitVec 32 := 1#32
  let arg6 : BitVec 32 := Scf.iv c0_i32_3 c1_i32 k1_t1
  let c16_i32 : BitVec 32 := 16#32
  let v13 : BitVec 32 := Scalar.muli arg6 c16_i32
  let v14 : Index := Scalar.indexCast v13
  ![v14.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S16x2048_S16x1024_0_0 : S16x2048.Slices ![0, 0] S16x1024
  bcast_S16x1024_S16x1024x1_0_1 : S16x1024.BroadcastsInDim S16x1024x1 (![0, 1] : Fin 2 → Fin S16x1024x1.rank)
  natLt_1_32 : 1 < 32
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1_S256x1 : S256x1.ShapeCasts S256x1
  broadcasts_S256x1_S256x1024 : S256x1.Broadcasts S256x1024
  shapeCasts_S256x1024_S1x256x1024 : S256x1024.ShapeCasts S1x256x1024
  shapeCasts_S16x1024x1_S16x1024 : S16x1024x1.ShapeCasts S16x1024
  transposes_S16x1024_S1024x16_1_0 : S16x1024.Transposes [1, 0] S1024x16
  shapeCasts_S1024x16_S16384 : S1024x16.ShapeCasts S16384
  h_S16 : 0 < S16.numel
  shapeCasts_S16_S16 : S16.ShapeCasts S16
  inb_S16_S16_0 : ∀ a, (![0] : Fin 1 → Nat) a + S16.size a ≤ S16.size a
  hcc1_scoped0 : 6 + S_.numel ≤ 8
  hcc1_scoped1 : 7 + S_.numel ≤ 8
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S16x1024x1.size a
  hwx0_1 : ∀ i : grid0.Coords, EltTy.bits .i32 = 32 ∨ (Rect.block (s := S16x1024x1) S1x256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S16x1024x1024.size a
  hwx0_2 : ∀ i : grid0.Coords, EltTy.bits .f32 = 32 ∨ (Rect.block (s := S16x1024x1024) S1x256x1024.size (cc0_transform_2 i) (hinb0_2 i)).WholeWords (EltTy.packing .f32)
  hcore1 : grid1.bound 0 ≤ τ.nSC
  hsub1 : grid1.bound 1 ≤ τ.nSub
  k1_t1_ok : ∀ i : grid1.Coords, ∀ (k1_h1 : k1_cond1 i = 1#1), k1_t1_loop.OK
  k1_off1_inb : ∀ (i : grid1.Coords) (k1_t1 : Fin k1_t1_loop.trips), ∀ (k1_h1 : k1_cond1 i = 1#1), ∀ a, (k1_off1 k1_t1) a + S16.size a ≤ S16384.size a

variable [Facts₀]

abbrev cc1_scoped0 : DmaSems sig S_ := SemArray.consecutive 6 S_ hcc1_scoped0
abbrev cc1_scoped1 : DmaSems sig S_ := SemArray.consecutive 7 S_ hcc1_scoped1

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x2048 : Shape := ⟨2, ![16, 2048]⟩
abbrev S16x1024x1024 : Shape := ⟨3, ![16, 1024, 1024]⟩
abbrev S16x1024 : Shape := ⟨2, ![16, 1024]⟩
abbrev S16x1024x1 : Shape := ⟨3, ![16, 1024, 1]⟩
abbrev S_ : Shape := ⟨0, ![]⟩
abbrev S16 : Shape := ⟨1, ![16]⟩

abbrev nBuf : Space → Nat
  | .hbm => 13
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i1⟩
  | .hbm, ⟨2, _⟩ => ⟨S16x1024x1024, .f32⟩
  | .hbm, ⟨3, _⟩ => ⟨S16x1024, .i1⟩
  | .hbm, ⟨4, _⟩ => ⟨S16x1024x1, .i1⟩
  | .hbm, ⟨5, _⟩ => ⟨S_, .f32⟩
  | .hbm, ⟨6, _⟩ => ⟨S16x1024x1024, .i1⟩
  | .hbm, ⟨7, _⟩ => ⟨S16x1024x1024, .f32⟩
  | .hbm, ⟨8, _⟩ => ⟨S16x1024x1024, .f32⟩
  | .hbm, ⟨9, _⟩ => ⟨S16x1024, .i1⟩
  | .hbm, ⟨10, _⟩ => ⟨S16x1024, .i32⟩
  | .hbm, ⟨11, _⟩ => ⟨S_, .i32⟩
  | .hbm, ⟨12, _⟩ => ⟨S16, .i32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  slices_S16x2048x1024_S16x1024x1024_0_0_0 : S16x2048x1024.Slices ![0, 0, 0] S16x1024x1024
  slices_S16x2048_S16x1024_0_0 : S16x2048.Slices ![0, 0] S16x1024
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S_S16x1024x1024 : S_.BroadcastsInDim S16x1024x1024 (![] : Fin 0 → Fin S16x1024x1024.rank)
  natLt_1_32 : 1 < 32
  reducesTo_S16x1024_S16_d1 : S16x1024.ReducesTo [1] S16
  h_S_ : 0 < S_.numel

variable [Facts₀]

class Facts : Prop extends Facts₀ where

variable [Facts]
-- ==== Proof.Spec.lean ====
/-
  The two results of the program that are not plain copies, as functions of the arrays they are computed from.

  * `trimmed tok col`: the token array cut to its first 1024 positions, an entry replaced by zero where the mask
    column is non-zero at its (batch, position): entry (b, s, d) is `tok (b, s, d)` if `col (b, s, 0) = 0`, else `0`.
  * `maskCut`, `maskCol`, `maskFlat`: the boolean mask cut to 1024 positions, widened to words as a column, and
    re-laid position-major and flat.
  * `lengths flat`: for the mask laid out position-major, `flat (16 * s + b)` the mask word of batch `b` at position
    `s`, entry `b` is `1024 - Σ_{s < 1024} flat (16 * s + b)`, in 32-bit words.
-/
import Idealize.ShloMosaic.PureOps
import Idealize.ShloMosaic.Lib.ValueIdx
import Mathlib.Algebra.BigOperators.Group.Finset.Basic
import Mathlib.Data.BitVec

noncomputable section

namespace Cert.Spec

open Idealize.ShloMosaic

abbrev S16x2048x1024 : Shape := ⟨3, ![16, 2048, 1024]⟩
abbrev S16x1024x1024 : Shape := ⟨3, ![16, 1024, 1024]⟩
abbrev S16x1024x1 : Shape := ⟨3, ![16, 1024, 1]⟩
abbrev S16384 : Shape := ⟨1, ![16384]⟩
abbrev S16 : Shape := ⟨1, ![16]⟩

/-- The mask column's entry (b, s, 0) that decides entry (b, s, d) of the result. -/
def colIdx (i : S16x1024x1024.Idx) : S16x1024x1.Idx :=
  ValueIdx.ix3 (i 0 : Fin 16) (i 1 : Fin 1024) (0 : Fin 1)

/-- Entry (b, s, d) of the tokens before trimming (s < 1024 is a position of the 2048). -/
def tokIdx (i : S16x1024x1024.Idx) : S16x2048x1024.Idx :=
  ValueIdx.ix3 (i 0 : Fin 16) (Fin.castLE (by decide : 1024 ≤ 2048) (i 1 : Fin 1024)) (i 2 : Fin 1024)

/-- The trimmed tokens with the masked positions zeroed. -/
def trimmed {F : FTy → Type} [FloatOps F] (tok : FVec F S16x2048x1024 .f32) (col : IVec S16x1024x1 32) :
    FVec F S16x1024x1024 .f32 :=
  fun i => if col (colIdx i) = 0#32 then tok (tokIdx i) else Scalar.ofBits .f32 0x00000000#32

/-- Position `16 * s + b` of the position-major flat mask (reduced mod its length, so that it is total in `s`). -/
def flatIdx (s : ℕ) (j : S16.Idx) : S16384.Idx :=
  ValueIdx.ix1 (⟨(16 * s + (j 0).val) % 16384, Nat.mod_lt _ (by decide)⟩ : Fin 16384)

/-- The number of unmasked positions of each batch row among the first 1024, as a 32-bit word. -/
def lengths (flat : IVec S16384 32) : IVec S16 32 :=
  fun j => 1024#32 - ∑ s ∈ Finset.range 1024, flat (flatIdx s j)

abbrev S16x2048 : Shape := ⟨2, ![16, 2048]⟩
abbrev S16x1024 : Shape := ⟨2, ![16, 1024]⟩
abbrev S1024x16 : Shape := ⟨2, ![1024, 16]⟩

/-- The mask cut to its first 1024 positions. -/
def maskCut (msk : IVec S16x2048 1) : IVec S16x1024 1 :=
  extractStridedSlice S16x1024 ![0, 0] msk (by decide)

/-- The cut mask as a column [16, 1024, 1] of 32-bit words (0 or 1). -/
def maskCol (msk : IVec S16x2048 1) : IVec S16x1024x1 32 :=
  extui 32 (broadcastInDim S16x1024x1 ![0, 1] (by decide) (maskCut msk)) (by decide)

/-- The same words laid out position-major and flat: word `16 * s + b` is batch `b`'s at position `s`. -/
def maskFlat (msk : IVec S16x2048 1) : IVec S16384 32 :=
  shapeCast S16384 (transpose S1024x16 [1, 0] (shapeCast S16x1024 (maskCol msk) (by decide)) (by decide)) (by decide)

end Cert.Spec

end
-- ==== Proof.RefBridge.lean ====
/-
  The reference program's three results, as the specification's functions of its two arguments.

  * The trimmed tokens: entry (b, s, d) of the reference's select is the token at (b, s, d) or zero, decided by the one
    mask bit at (b, s); the specification decides by the same bit widened to a word being zero. Both index functions
    name the same entries, and the two choices agree on each of the two values of the bit.
  * The cut mask: the same slice on both sides.
  * The lengths: the reference adds up, over the 1024 positions s of batch row b, the complement of the mask bit
    widened to a word, starting from zero. The specification subtracts from 1024 the sum of the widened bits, read
    from the position-major flat array at 16 s + b. Word 16 s + b of the flat array is the bit at (b, s) widened (row s,
    column b of the transposed array), the complement of a bit widened is one minus the bit widened, and
    the sum of (1 - x_s) over 1024 positions is 1024 minus the sum of the x_s, in the ring of 32-bit words.
-/
import proofs.«212586_g28561532518402_cont_9to1_840_6_alg».proof.Proof.Gen.ReferenceIdeal.Read
import proofs.«212586_g28561532518402_cont_9to1_840_6_alg».proof.Proof.Spec
import Idealize.ShloMosaic.Lib.ValueIdx
import Idealize.ShloMosaic.Lib.Pipeline.Value
import Idealize.ShloMosaic.PureOps.Reduce
import Mathlib.Data.BitVec
import Mathlib.Algebra.BigOperators.Group.Finset.Basic

noncomputable section

namespace Cert.RefBridge

open Idealize.ShloMosaic Cert.ReferenceIdeal

variable {F : FTy → Type} [FloatOps F]

/-- The reference's cut mask is the specification's, by definition. -/
theorem mask_eq (x1 : IVec S16x2048 1) :
    Cert.ReferenceIdeal.Read.val_main_v1 (F := F) x1 = Cert.Spec.maskCut x1 := rfl

/-- The cut mask at (b, s) is the mask at (b, s), for a position s below 1024. -/
theorem maskCut_apply (x1 : IVec S16x2048 1) (j : S16x1024.Idx) (k : S16x2048.Idx)
    (h0 : (k 0).val = (j 0).val) (h1 : (k 1).val = (j 1).val) :
    Cert.Spec.maskCut x1 j = x1 k := by
  unfold Cert.Spec.maskCut
  exact extractStridedSlice_apply ![0, 0] x1 _ j k (fun a => match a with
    | ⟨0, _⟩ => by show (k 0).val = 0 + (j 0).val; omega
    | ⟨1, _⟩ => by show (k 1).val = 0 + (j 1).val; omega)

/-- The mask column at (b, s, 0) is the mask bit at (b, s) widened to a word. -/
theorem maskCol_apply (x1 : IVec S16x2048 1) (j : S16x1024x1.Idx) (k : S16x2048.Idx)
    (h0 : (k 0).val = (j 0).val) (h1 : (k 1).val = (j 1).val) :
    Cert.Spec.maskCol x1 j = (x1 k).setWidth 32 := by
  unfold Cert.Spec.maskCol
  show (broadcastInDim Cert.Spec.S16x1024x1 ![0, 1] _ (Cert.Spec.maskCut x1) j).setWidth 32 = _
  refine congrArg (fun b : BitVec 1 => b.setWidth 32) ?_
  refine (broadcastInDim_apply _ _ (Cert.Spec.maskCut x1) j
    (fun a => match a with | ⟨0, _⟩ => ⟨(j 0).val, (j 0).isLt⟩ | ⟨1, _⟩ => ⟨(j 1).val, (j 1).isLt⟩)
    (fun a => match a with
      | ⟨0, _⟩ => by show (j 0).val = if (16 : Nat) = 1 then 0 else (j 0).val; rw [if_neg (by decide)]
      | ⟨1, _⟩ => by show (j 1).val = if (1024 : Nat) = 1 then 0 else (j 1).val; rw [if_neg (by decide)])).trans ?_
  exact maskCut_apply x1 _ k h0 h1

/-- The reference's trimmed tokens are the specification's: both choose, entry by entry, between the token and zero
    on the one mask bit at (b, s). -/
theorem trimmed_eq (x0 : FVec F S16x2048x1024 .f32) (x1 : IVec S16x2048 1) :
    Cert.ReferenceIdeal.Read.val_main_v3 (F := F) x0 x1 = Cert.Spec.trimmed x0 (Cert.Spec.maskCol x1) := by
  funext i
  rw [Read.val_main_v3_apply, Read.val_main_call0_v0_apply, Read.val_main_v2_apply, Read.val_main_v1_apply,
    Read.val_main_call0_v1_apply, Read.val_main_cst_apply, Read.val_main_v0_apply]
  unfold Cert.Spec.trimmed
  rw [maskCol_apply x1 (Cert.Spec.colIdx i)
    (Read.idx_main_v1 (Read.idx_main_v2 (Read.idx_main_call0_v0 i))) rfl rfl]
  have ht : Read.idx_main_v0 i = Cert.Spec.tokIdx i := by
    funext a
    match a with
    | ⟨0, _⟩ => rfl
    | ⟨1, _⟩ => rfl
    | ⟨2, _⟩ => rfl
  rw [ht]
  generalize x1 (Read.idx_main_v1 (Read.idx_main_v2 (Read.idx_main_call0_v0 i))) = b
  unfold Scalar.select
  rcases BitVec.eq_zero_or_eq_one b with rfl | rfl
  · rw [if_neg (by decide), if_pos (by decide)]
  · rw [if_pos (by decide), if_neg (by decide)]

/-- A fold by word addition from an initial word is that word plus the sum. -/
theorem fold_addi_eq_sum {ι : Type} {w : ℕ} (S : Finset ι) (init : BitVec w) (f : ι → BitVec w) :
    S.fold IntOp.addi init f = init + ∑ k ∈ S, f k := by
  induction S using Finset.cons_induction with
  | empty => simp
  | cons a S ha ih =>
    rw [Finset.fold_cons, Finset.sum_cons, ih]
    show f a + (init + ∑ k ∈ S, f k) = init + (f a + ∑ k ∈ S, f k)
    rw [add_left_comm]

/-- Word 16 s + b of the position-major flat mask is the mask bit of batch b at position s, widened: the flat position
    is row s, column b of the [1024, 16] array, the transpose of the [16, 1024] array of the column's words. -/
theorem maskFlat_apply (x1 : IVec S16x2048 1) (s : Fin 1024) (j : S16.Idx) (k : S16x2048.Idx)
    (h0 : (k 0).val = (j 0).val) (h1 : (k 1).val = s.val) :
    Cert.Spec.maskFlat x1 (Cert.Spec.flatIdx s.val j) = (x1 k).setWidth 32 := by
  have hj : (j 0).val < 16 := (j 0).isLt
  have hs : s.val < 1024 := s.isLt
  unfold Cert.Spec.maskFlat
  -- flat position 16 s + b is row s, column b of the [1024, 16] array
  refine (shapeCast_apply _ _ (Cert.Spec.flatIdx s.val j)
    (fun a => match a with | ⟨0, _⟩ => ⟨s.val, hs⟩ | ⟨1, _⟩ => ⟨(j 0).val, hj⟩)
    (by rw [Shape.rowMajor_val_two, Shape.rowMajor_val_one]
        show s.val * 16 + (j 0).val = (16 * s.val + (j 0).val) % 16384
        omega)).trans ?_
  -- the transpose: (s, b) reads the [16, 1024] array at (b, s)
  refine (transpose_apply _ _ _ _ (fun a => match a with | ⟨0, _⟩ => ⟨(j 0).val, hj⟩ | ⟨1, _⟩ => ⟨s.val, hs⟩)
    (fun b => match b with | ⟨0, _⟩ => rfl | ⟨1, _⟩ => rfl)).trans ?_
  -- the unit axis restored: (b, s) reads the column at (b, s, 0)
  refine (shapeCast_apply _ _ _
    (fun a => match a with | ⟨0, _⟩ => ⟨(j 0).val, hj⟩ | ⟨1, _⟩ => ⟨s.val, hs⟩ | ⟨2, _⟩ => ⟨0, Nat.one_pos⟩)
    (by rw [Shape.rowMajor_val_three, Shape.rowMajor_val_two]
        show ((j 0).val * 1024 + s.val) * 1 + 0 = (j 0).val * 1024 + s.val
        omega)).trans ?_
  exact maskCol_apply x1 _ k h0 h1

/-- The reduction over the positions of a [16, 1024] array, as the library's one-axis reduction fact. -/
theorem reduces_rows : S16x1024.Reduces [1] S16 := by decide

/-- The complement of a bit, widened, is one minus the bit, widened. -/
theorem not_setWidth_eq (b : BitVec 1) : (~~~b).setWidth 32 = 1#32 - b.setWidth 32 := by
  rcases BitVec.eq_zero_or_eq_one b with rfl | rfl <;> decide

/-- The reference's lengths are the specification's: the number of zero mask bits among a batch row's first 1024
    positions is 1024 minus the number of ones. -/
theorem lengths_eq (x1 : IVec S16x2048 1) :
    Cert.ReferenceIdeal.Read.val_main_v6 (F := F) x1 = Cert.Spec.lengths (Cert.Spec.maskFlat x1) := by
  funext j
  unfold Read.val_main_v6 Cert.Spec.lengths
  rw [Host.reduce_eq_fold_single IntOp.addi _ _ Gen.reducesTo_S16x1024_S16_d1 reduces_rows Gen.h_S_ j,
    fold_addi_eq_sum, Finset.sum_range]
  have hterm : ∀ s : Fin 1024, (Read.val_main_v5 (F := F) x1 ∘ reduces_rows.lift j) s
      = 1#32 - Cert.Spec.maskFlat x1 (Cert.Spec.flatIdx s.val j) := by
    intro s
    show Read.val_main_v5 (F := F) x1 (reduces_rows.lift j s) = _
    rw [Read.val_main_v5_apply, Read.val_main_v4_apply, Read.val_main_v1_apply,
      maskFlat_apply x1 s j (Read.idx_main_v1 (reduces_rows.lift j s)) rfl rfl]
    exact not_setWidth_eq _
  show Read.val_main_c (F := F) _ + ∑ s : Fin 1024, (Read.val_main_v5 (F := F) x1 ∘ reduces_rows.lift j) s = _
  rw [Fintype.sum_congr _ _ hterm, Read.val_main_c_apply, Finset.sum_sub_distrib, Finset.sum_const, Finset.card_univ,
    Fintype.card_fin, BitVec.zero_add]
  have h1024 : (1024 : ℕ) • (1#32 : BitVec 32) = 1024#32 := by simp
  rw [h1024]

end Cert.RefBridge

end
-- ==== Proof.Ideal.Common.lean ====
/-
  What every module about the idealized kernel program shares: the program as the SparseCore launch theorem sees
  it (its labels, its call table, its body table, its variants), the resource algebra — the handshakes' rounds, the
  TensorCore pipeline's rounds, and the counters of local copies side by side — and the three embeddings.
-/
import proofs.«212586_g28561532518402_cont_9to1_840_6_alg».proof.Proof.Gen.KernelIdeal
import proofs.«212586_g28561532518402_cont_9to1_840_6_alg».proof.Proof.Gen.KernelIdeal.Launch
import proofs.«212586_g28561532518402_cont_9to1_840_6_alg».proof.Proof.Gen.KernelIdeal.Points
import proofs.«212586_g28561532518402_cont_9to1_840_6_alg».proof.Proof.Gen.KernelIdeal.Skeleton
import proofs.«212586_g28561532518402_cont_9to1_840_6_alg».proof.Proof.Spec
import Idealize.ShloMosaic.Lib.SparseCore.Launch
import Idealize.ShloMosaic.Lib.Pipeline.Kit
import Idealize.ShloMosaic.Lib.Pipeline.Regions
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The pipeline's admissible tables: it prefetches none. -/
abbrev adm : (p : Fin 1) → (pcfgs (F := F) p).Adm := fun p => (cfgs p).toPCfg_adm

/-! ## The resource algebra -/

/-- The handshakes' rounds (duties named by numbers). -/
abbrev UH : Type := URounds (GSem nD τ sig) ℕ
/-- The TensorCore pipeline's rounds (its staging cells). -/
abbrev UP : Type := UR sig nD τ
/-- Both, beside the counters of the transfers a subcore makes and waits for by itself. -/
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

end Cert.Proof.KI

end
-- ==== Proof.Ideal.TileMath.lean ====
/-
  The arithmetic of the SparseCore task: the 1024 chunks of 16 words of the flat mask, added lane by lane.
-/
import proofs.«212586_g28561532518402_cont_9to1_840_6_alg».proof.Proof.Ideal.Common
import Idealize.ShloMosaic.Lib.Pipeline.Value

noncomputable section

namespace Cert.Proof.KI

open Cert.KernelIdeal Cert.KernelIdeal.Gen
open Idealize.ShloMosaic

variable {F : FTy → Type}

/-- Chunk `s` of the flat mask: its 16 words `16 * s + b`. -/
def chunk (flat : IVec S16384 32) (s : ℕ) : IVec S16 32 := fun j => flat (Cert.Spec.flatIdx s j)

/-- The lane sums of the chunks before `s`. -/
def partialSum (flat : IVec S16384 32) : ℕ → IVec S16 32
  | 0 => fun _ => 0#32
  | s + 1 => fun j => partialSum flat s j + chunk flat s j

/-- The loop makes 1024 trips. -/
theorem trips_eq : Scf.trips k1_t1_loop.lb k1_t1_loop.ub k1_t1_loop.st = 1024 := by
  decide

/-- The lane sums of the chunks before s, as sums of the flat mask's words. -/
theorem partialSum_eq_sum (flat : IVec S16384 32) (n : ℕ) (j : S16.Idx) :
    partialSum flat n j = ∑ s ∈ Finset.range n, flat (Cert.Spec.flatIdx s j) := by
  induction n with
  | zero => rw [Finset.sum_range_zero]; rfl
  | succ n ih => rw [Finset.sum_range_succ, ← ih]; rfl

variable [FloatOps F]

/-- One trip: the carried sums and the chunk loaded from the scratch copy of the flat mask give the next sums. -/
theorem step_eq (flat : IVec S16384 32) (k : Fin (Scf.trips k1_t1_loop.lb k1_t1_loop.ub k1_t1_loop.st))
    (inb : ∀ a, (k1_off1 k) a + S16.size a ≤ S16384.size a) :
    k1_pay2 (F := F) (partialSum flat k.val)
        (View.readAt (Elt F) (Memref.whole cc1_scratch0 : Memref sig .scVector .vmem S16384 .i32).view (Rect.unit (s := S16384) (k1_off1 k) S16.size inb).toLoadRect flat)
      = partialSum flat (k.val + 1) := by
  have hk : k.val < 1024 := lt_of_lt_of_eq k.isLt trips_eq
  funext j
  have hj : (j 0).val < 16 := (j 0).isLt
  -- word x of the 16 read at offset 16 k is word 16 k + x of the flat mask
  have hidx : (Rect.unit (s := S16384) (k1_off1 k) S16.size inb).toLoadRect.idx j = Cert.Spec.flatIdx k.val j := by
    funext a
    apply Fin.ext
    obtain rfl : a = 0 := Subsingleton.elim _ _
    rw [LoadRect.idx_apply]
    show k1_off1 k 0 + 1 * (j 0).val = (16 * k.val + (j 0).val) % 16384
    rw [Gen.k1_off1_eq]
    show 16 * k.val + 1 * (j 0).val = (16 * k.val + (j 0).val) % 16384
    omega
  unfold k1_pay2
  rw [shapeCast_self]
  show partialSum flat k.val j + _ = partialSum flat k.val j + chunk flat k.val j
  congr 1
  simp only [View.readAt_apply, Memref.view_whole, View.read_whole]
  exact congrArg flat hidx

omit [FloatOps F] in
/-- After the last trip: `1024 - sums` is the lengths. -/
theorem lengths_of_sum (flat : IVec S16384 32) : k1_pay3 (partialSum flat 1024) = Cert.Spec.lengths flat := by
  funext j
  unfold k1_pay3 Cert.Spec.lengths
  rw [shapeCast_self]
  show 1024#32 - partialSum flat 1024 j = _
  rw [partialSum_eq_sum]

end Cert.Proof.KI

end
-- ==== Proof.Ideal.Tile.lean ====
/-
  The SparseCore kernel as one vector subcore's task.

  Only subcore 0 of SparseCore 0 works: it copies the flat mask (16384 words, position-major) into its first scratch
  buffer, adds the 1024 chunks of 16 words lane by lane starting from zero, stores `1024 - sum` into its second scratch
  buffer and copies that out to the result. Lane `b` of the sum is `Σ_{s < 1024} flat (16 * s + b)`, so the result
  is `Spec.lengths flat`. Every other subcore takes the empty branch.
-/
import proofs.«212586_g28561532518402_cont_9to1_840_6_alg».proof.Proof.Ideal.TileMath
import Idealize.ShloMosaic.Lib.Pipeline.FrameBody
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "v6W" => (Memref.whole Cert.KernelIdeal.main_v6_scv : Memref Cert.KernelIdeal.sig Kind.scVector Space.hbm Cert.KernelIdeal.S16384 EltTy.i32)
local notation "v7W" => (Memref.whole Cert.KernelIdeal.main_v7_scv : Memref Cert.KernelIdeal.sig Kind.scVector Space.hbm Cert.KernelIdeal.S16 EltTy.i32)
local notation "s0W" => (Memref.whole Cert.KernelIdeal.cc1_scratch0 : Memref Cert.KernelIdeal.sig Kind.scVector Space.vmem Cert.KernelIdeal.S16384 EltTy.i32)
local notation "s1W" => (Memref.whole Cert.KernelIdeal.cc1_scratch1 : Memref Cert.KernelIdeal.sig Kind.scVector Space.vmem Cert.KernelIdeal.S16 EltTy.i32)

/-- The flat mask and the result, as locations of device `d`. -/
abbrev v6Loc (d : Dev nD) : Loc nD τ sig := (SparseCore.T d).loc main_v6
abbrev v7Loc (d : Dev nD) : Loc nD τ sig := (SparseCore.T d).loc main_v7

/-- The flat mask whole at `f`, the result whole at `f` (the TensorCore's view of the arrays). -/
abbrev v6Pts (d : Dev nD) (f : Buf (Elt F) (v6Loc d)) : sProp 𝕄 := v6Loc d ↦{fullShare} f
abbrev v7Pts (d : Dev nD) (f : Buf (Elt F) (v7Loc d)) : sProp 𝕄 := v7Loc d ↦{fullShare} f

variable [FloatOps F]

section Tile

variable (d : Dev nD) (L : grid1.Coords)

abbrev cV (L : grid1.Coords) : Fin τ.nSC := (L 0).castLE hcore1
abbrev jV (L : grid1.Coords) : Fin τ.nSub := (L 1).castLE hsub1

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
theorem pts_v6 (f : Buf (Elt F) (v6Loc d)) :
    ((v6W).view.loc (V d (cV L) (jV L)) ↦{fullShare} f : sProp 𝕄) = v6Loc d ↦{fullShare} f := by
  simp only [Memref.view_whole, View.set_whole]
omit [FloatOps F] in
theorem pts_v7 (f : Buf (Elt F) (v7Loc d)) :
    ((v7W).view.loc (V d (cV L) (jV L)) ↦{fullShare} f : sProp 𝕄) = v7Loc d ↦{fullShare} f := by
  simp only [Memref.view_whole, View.set_whole]
omit [FloatOps F] in
theorem pts_s0 (f : Buf (Elt F) ((V d (cV L) (jV L)).loc cc1_scratch0)) :
    ((s0W).view.loc (V d (cV L) (jV L)) ↦{fullShare} f : sProp 𝕄) = (V d (cV L) (jV L)).loc cc1_scratch0 ↦{fullShare} f := rfl
omit [FloatOps F] in
theorem pts_s1 (f : Buf (Elt F) ((V d (cV L) (jV L)).loc cc1_scratch1)) :
    ((s1W).view.loc (V d (cV L) (jV L)) ↦{fullShare} f : sProp 𝕄) = (V d (cV L) (jV L)).loc cc1_scratch1 ↦{fullShare} f := rfl

omit [FloatOps F] in
/-- What the copy-out leaves in the result: the one whole-row store into the second scratch buffer. -/
theorem out_value [∀ e, Nonempty (Elt F e)] (fs1 : Buf (Elt F) ((V d (cV L) (jV L)).loc cc1_scratch1)) (f7 : Buf (Elt F) (v7Loc d)) (w : IVec S16 32) :
    View.write (Elt F) (v7W).view f7
        (ReadAs.same.apply (View.read (Elt F) (s1W).view ((s1W).view.writes (Elt F) fs1 [⟨Rect.unit (s := S16) ![0] S16.size inb_S16_S16_0, w⟩])))
        Finset.univ = w := by
  have hz : (![0] : Fin S16.rank → Nat) = fun _ => 0 := by funext a; fin_cases a; rfl
  have hcov : ∀ y : S16.Idx, ∃ p ∈ ([⟨Rect.unit (s := S16) ![0] S16.size inb_S16_S16_0, w⟩] : List (View.Piece (Elt F) S16 .i32)), y ∈ p.1.set :=
    fun y => ⟨_, List.mem_singleton_self _, View.mem_set_unit_zero (S := S16) hz inb_S16_S16_0 y⟩
  rw [ReadAs.apply_same, View.read_writes_eq_canon _ _ _ hcov, View.canon_unit_zero (Val := Elt F) (S := S16) (e := .i32) hz inb_S16_S16_0 w]
  simp only [Memref.view_whole, View.write_whole_univ]

/-- The loop's invariant: the first scratch buffer holds the flat mask, the carried vector the sums so far. -/
def inv (flat : IVec S16384 32) (k : Nat) (acc : IVec S16 32) : sProp 𝕄 :=
  iprop(⌜acc = partialSum flat k⌝ ∗ ((s0W).view.loc (V d (cV L) (jV L)) ↦{fullShare} flat))

/-- The working subcore's task. -/
theorem tile_work (hF : (K (F := F)).Facts) (hL : k1_cond1 L = 1#1) (flat : IVec S16384 32)
    (O : CellTallies nD τ sig (HIx 1)) (W : Waits sig (HIx 1)) (hO : ∀ g, O g none = 0) :
    iprop(levAts (K (F := F)).L (K (F := F)).lev ∗ (v6Pts d flat ∗ ∃ f, v7Pts d f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L v6W (Memref.isWhole_whole _) v7W (Memref.isWhole_whole _) s0W (Memref.isWhole_whole _) s1W (Memref.isWhole_whole _) cc1_scoped0 cc1_scoped1)
          fun _ => iprop((v6Pts d flat ∗ v7Pts d (Cert.Spec.lengths flat)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, ⟨H6, %f7, H7⟩, ⟨⟨%fs0, Hs0⟩, ⟨%fs1, Hs1⟩, Hbufs⟩, ⟨HsemA, HsemB, Hsems⟩, HO⟩
  ihave Hmw := ((K (F := F)).mayWaits_none (thr := V d (cV L) (jV L)) hO) $$ Hlv
  ihave H6' := (Entails.of_eq (pts_v6 (F := F) d L _).symm) $$ H6
  ihave H7' := (Entails.of_eq (pts_v7 (F := F) d L _).symm) $$ H7
  ihave Hs0' := (Entails.of_eq (pts_s0 (F := F) d L _).symm) $$ Hs0
  ihave Hs1' := (Entails.of_eq (pts_s1 (F := F) d L _).symm) $$ Hs1
  sl_exec
  have hg : View.write (Elt F) (s0W).view fs0 (tile_work.sl.dma0 (F := F) flat) Finset.univ = flat := by
    rw [View.write_whole_univ]; unfold tile_work.sl.dma0; exact View.read_whole _ _
  rw [hg]
  sl_for (inv (F := F) d L flat) $$ [Hs0']
  case region =>
    intro k acc
    unfold inv
    iintro ⟨%hacc, Hs0⟩
    sl_exec
    sl_step
    isplitr
    · ipureintro; rw [hacc]; exact step_eq flat k _
    · iexact Hs0
  · unfold inv
    isplitr
    · ipureintro; rfl
    · iexact Hs0'
  iintro %acc HI
  unfold inv
  icases HI with ⟨%hacc, Hs0⟩
  sl_exec
  sl_step
  have h7 : View.write (Elt F) (v7W).view f7 (tile_work.sl.dma2 (F := F) d L fs1 acc) Finset.univ = Cert.Spec.lengths flat := by
    rw [hacc, trips_eq]
    unfold tile_work.sl.dma2 tile_work.sl.Hs1'_1
    exact (out_value (F := F) d L fs1 f7 _).trans (lengths_of_sum flat)
  rw [h7]
  isplitl [H6' H7']
  · isplitl [H6']
    · iapply (Entails.of_eq (pts_v6 (F := F) d L _)); iexact H6'
    · iapply (Entails.of_eq (pts_v7 (F := F) d L _)); iexact H7'
  isplitl [Hs0 Hs1' Hbufs]
  · isplitl [Hs0]; · iexists _; iexact Hs0
    isplitl [Hs1']; · iexists _; iexact Hs1'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with rfl | hp
  · exact .inr rfl
  rcases Finset.mem_insert.mp hp with rfl | hp
  · exact .inr rfl
  · exact .inl hp

end Tile

end Cert.Proof.KI

end
-- ==== Proof.Ideal.Pay.lean ====
/-
  What the SparseCore call's handshakes carry, and the launch theorem's obligations for the kernel.

  The one call hands SparseCore 0 the flat mask (at the contents the host operations computed from the mask argument)
  and the result array, SparseCore 1 nothing; SparseCore 0's sequencer hands both to its subcore 0 and nothing to the
  others; they come back the same way, the result at `Spec.lengths` of the flat mask.
-/
import proofs.«212586_g28561532518402_cont_9to1_840_6_alg».proof.Proof.Ideal.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v6W" => (Memref.whole Cert.KernelIdeal.main_v6_scv : Memref Cert.KernelIdeal.sig Kind.scVector Space.hbm Cert.KernelIdeal.S16384 EltTy.i32)
local notation "v7W" => (Memref.whole Cert.KernelIdeal.main_v7_scv : Memref Cert.KernelIdeal.sig Kind.scVector Space.hbm Cert.KernelIdeal.S16 EltTy.i32)
local notation "s0W" => (Memref.whole Cert.KernelIdeal.cc1_scratch0 : Memref Cert.KernelIdeal.sig Kind.scVector Space.vmem Cert.KernelIdeal.S16384 EltTy.i32)
local notation "s1W" => (Memref.whole Cert.KernelIdeal.cc1_scratch1 : Memref Cert.KernelIdeal.sig Kind.scVector Space.vmem Cert.KernelIdeal.S16 EltTy.i32)

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1

/-- The flat position-major mask the host operations compute from the mask argument. -/
def flatOf (d : Dev nD) : IVec S16384 32 := Cert.Spec.maskFlat (m (a1Loc d))

/-- What the call hands SparseCore number `c`: the flat mask and the result array for SparseCore 0, nothing for 1. -/
def forCore (d : Dev nD) (c : ℕ) : sProp 𝕄 := if c = 0 then iprop(v6Pts d (flatOf m d) ∗ ∃ f, v7Pts d f) else iprop(emp)
/-- What it takes back: the result at the lengths. -/
def fromCore (d : Dev nD) (c : ℕ) : sProp 𝕄 :=
  if c = 0 then iprop(v6Pts d (flatOf m d) ∗ v7Pts d (Cert.Spec.lengths (flatOf m d))) else iprop(emp)
/-- The same for subcore `i` of SparseCore `c`: only subcore 0 of SparseCore 0 is handed anything. -/
def forTile (d : Dev nD) (c i : ℕ) : sProp 𝕄 := if c = 0 ∧ i = 0 then iprop(v6Pts d (flatOf m d) ∗ ∃ f, v7Pts d f) else iprop(emp)
def fromTile (d : Dev nD) (c i : ℕ) : sProp 𝕄 :=
  if c = 0 ∧ i = 0 then iprop(v6Pts d (flatOf m d) ∗ v7Pts d (Cert.Spec.lengths (flatOf m d))) else iprop(emp)

instance forCore_storable (d : Dev nD) (c : ℕ) : BI.Storable (upEmb : UEmb _ 𝕄) (forCore m d c) := by
  unfold forCore; split <;> infer_instance
instance fromCore_storable (d : Dev nD) (c : ℕ) : BI.Storable (upEmb : UEmb _ 𝕄) (fromCore m d c) := by
  unfold fromCore; split <;> infer_instance
instance forTile_storable (d : Dev nD) (c i : ℕ) : BI.Storable (upEmb : UEmb _ 𝕄) (forTile m d c i) := by
  unfold forTile; split <;> infer_instance
instance fromTile_storable (d : Dev nD) (c i : ℕ) : BI.Storable (upEmb : UEmb _ 𝕄) (fromTile m d c i) := by
  unfold fromTile; split <;> infer_instance

/-- The call's payloads; the kernel's proof consumes nothing of the launch's. -/
def P : (K (F := F)).Pay (nD := nD) (Val := Elt F) (Name := ℕ) (U := UU) where
  st := fun _ d c => forCore m d c.val
  dn := fun _ d c => fromCore m d c.val
  go := fun _ d c i => forTile m d c.val i.val
  td := fun _ d c i => fromTile m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

variable [FloatOps F]

/-! ## The task on every subcore -/

def coordsV (c : Fin (grid1.bound 0)) (s : Fin (grid1.bound 1)) : grid1.Coords :=
  fun | 0 => c | 1 => s | ⟨_ + 2, h⟩ => absurd h (Nat.not_lt.2 (Nat.le_add_left _ _))

omit [FloatOps F] in
/-- The kernel's branch is taken on subcore 0 of SparseCore 0 and nowhere else. -/
theorem cond_iff : ∀ (c : Fin (grid1.bound 0)) (s : Fin (grid1.bound 1)), k1_cond1 (coordsV c s) = 1#1 ↔ (c.val = 0 ∧ s.val = 0) := by
  decide

/-- An idle subcore's task: the empty branch. -/
theorem tile_idle (d : Dev nD) (L : grid1.Coords) (hL : ¬ k1_cond1 L = 1#1)
    (O : CellTallies nD τ sig (HIx 1)) (W : Waits sig (HIx 1)) :
    iprop(levAts (K (F := F)).L (K (F := F)).lev ∗ (emp : sProp 𝕄)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L v6W (Memref.isWhole_whole _) v7W (Memref.isWhole_whole _) s0W (Memref.isWhole_whole _) s1W (Memref.isWhole_whole _) cc1_scoped0 cc1_scoped1)
          fun _ => iprop((emp : sProp 𝕄) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  iintro ⟨-, -, Hsb, Hss, HO⟩
  sl_exec
  sl_step
  isplitr; · iempintro
  isplitl [Hsb]; · iexact Hsb
  isplitl [Hss]; · iexact Hss
  iexists W; isplitr
  · ipureintro; exact fun p hp => .inl hp
  · iexact HO

theorem defs₀_vector (c : Fin τ.nSC) (s : Fin τ.nSub) :
    defs₀ (F := F) (.scVector c s) 1 ()
      = SparseCore.onTile hcore1 hsub1 (fun c s => cc1_k (coordsV c s)
          v6W (Memref.isWhole_whole _) v7W (Memref.isWhole_whole _) s0W (Memref.isWhole_whole _) s1W (Memref.isWhole_whole _) cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] m in
theorem drop_second {A B C : sProp 𝕄} : iprop(A ∗ B ∗ C) ⊢ iprop(A ∗ C) := by
  iintro ⟨HA, -, HC⟩
  isplitl [HA]; · iexact HA
  iexact HC

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ _ ∗ forTile m d c.val i.val ∗ _) ⊢ wp _ _ _ _ (fun _ => iprop(fromTile m d c.val i.val ∗ _))
  by_cases h : c.val = 0 ∧ i.val = 0
  · have hL : k1_cond1 (coordsV ⟨_, hc.1⟩ ⟨_, hc.2⟩) = 1#1 := (cond_iff _ _).mpr h
    unfold forTile fromTile; rw [if_pos h, if_pos h]
    exact drop_second.trans ((tile_work d (coordsV ⟨_, hc.1⟩ ⟨_, hc.2⟩) hF hL (flatOf m d) O W hO).trans (wp_mono frame _ _ fun _ => obl_post))
  · have hL : ¬ k1_cond1 (coordsV ⟨_, hc.1⟩ ⟨_, hc.2⟩) = 1#1 := fun e => h ((cond_iff _ _).mp e)
    unfold forTile fromTile; rw [if_neg h, if_neg h]
    exact drop_second.trans ((tile_idle d (coordsV ⟨_, hc.1⟩ ⟨_, hc.2⟩) hL O W).trans (wp_mono frame _ _ fun _ => obl_post))

/-! ## How SparseCore 0's share goes to its subcore 0 and comes back -/

omit [FloatOps F] in
theorem nSub_zero : (K (F := F)).nSub 0 = 16 := rfl

omit [FloatOps F] in
/-- A family over the sixteen subcores that is `X` on subcore 0 of SparseCore 0 and `emp` elsewhere is, on SparseCore
    `c`, `X` if `c = 0` and `emp` otherwise. -/
theorem tiles_eq (c : ℕ) (X : sProp 𝕄) :
    (bigSep Finset.univ fun i : Fin ((K (F := F)).nSub 0) => if c = 0 ∧ i.val = 0 then X else iprop(emp))
      = iprop((if c = 0 then X else iprop(emp)) ∗ emp) := by
  rw [SparseCore.bigSep_erase' (Finset.mem_univ (Fin.cast (nSub_zero (F := F)).symm (0 : Fin 16)))]
  congr 1
  · by_cases hc : c = 0 <;> simp [hc]
  · rw [bigSep_congr (fun i hi => if_neg (fun h => (Finset.mem_erase.mp hi).1 (Fin.ext h.2)))]
    exact bigSep_emp_const _

theorem vecSplit : (K (F := F)).VecSplit' (P m) 0 := by
  intro d c
  show forCore m d c.val ⊢ |={Set.univ}=> iprop(
      (bigSep Finset.univ fun i : Fin ((K (F := F)).nSub 0) => forTile m d c.val i.val)
      ∗ ((bigSep Finset.univ fun i : Fin ((K (F := F)).nSub 0) => fromTile m d c.val i.val) -∗ fromCore m d c.val))
  unfold forTile fromTile
  rw [tiles_eq, tiles_eq]
  unfold forCore fromCore
  iintro H; imodintro
  isplitl [H]
  · isplitl [H]; · iexact H
    iempintro
  · iintro ⟨H, -⟩; iexact H

end Cert.Proof.KI

end
-- ==== Proof.Ideal.RegionBody.lean ====
/-
  The kernel body of the TensorCore region, run once: on whole staging memrefs — the tokens' block, the mask column's
  block and the output's block at anything — it leaves the two inputs as they were and the output's buffer at the
  select of the zero constant and the tokens by the mask column (its one store, over the payload of the two loads).
-/
import proofs.«212586_g28561532518402_cont_9to1_840_6_alg».proof.Proof.Ideal.Common
import Idealize.ShloMosaic.Lib.Pipeline.FrameBody
import Idealize.ShloMosaic.Lib.Tactic

set_option maxRecDepth 16384

noncomputable section

namespace Cert.Proof.KI.Rgn

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses -/

/-- The whole tokens block (and the whole output block: the same shape). -/
abbrev rTok : Rect S1x256x1024 := Rect.unit (s := S1x256x1024) ![0, 0, 0] S1x256x1024.size inb_S1x256x1024_S1x256x1024_0_0_0
/-- The whole mask-column block. -/
abbrev rCol : Rect S1x256x1 := Rect.unit (s := S1x256x1) ![0, 0, 0] S1x256x1.size inb_S1x256x1_S1x256x1_0_0_0

/-! ## What the body leaves in the output window's buffer -/

/-- The output's staging buffer after the body, from the tokens' block and the mask column's block: its one
    store, of the payload of the two loads. -/
def outBlk (x0 : Vec F S1x256x1024 .f32) (x1 : Vec F S1x256x1 .i32) : Vec F S1x256x1024 .f32 :=
  View.canon [⟨rTok, k0_pay1 (View.ld x1 rCol) (View.ld x0 rTok)⟩]

/-- The store fills the buffer. -/
theorem outCover (p0 : Vec F S1x256x1024 .f32) (y : S1x256x1024.Idx) :
    ∃ pc ∈ ([⟨rTok, p0⟩] : List (View.Piece (Elt F) S1x256x1024 .f32)), y ∈ pc.1.set :=
  View.cover_of_tiled [⟨rTok, p0⟩] S1x256x1024.size (by rfl) y

/-! ## The body's triple -/

set_option maxHeartbeats 1000000 in
/-- The kernel body on whole staging memrefs, the inputs' at read contents and the output's at anything, runs to the
    continuation holding the inputs' as they were and the output's at the block above of the inputs'. -/
theorem sound_kernel (c : Dev nD) (E : Set ℕ) (i : grid0.Coords)
    (arg2 : Memref sig .tc .vmem S1x256x1024 .f32) (harg2 : arg2.IsWhole) (arg3 : Memref sig .tc .vmem S1x256x1 .i32) (harg3 : arg3.IsWhole)
    (arg4 : Memref sig .tc .vmem S1x256x1024 .f32) (harg4 : arg4.IsWhole)
    (x0 : Vec F S1x256x1024 .f32) (x1 : Vec F S1x256x1 .i32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__fill_body i arg2 harg2 arg3 harg3 arg4 harg4) K := by
  simp only [cc0__fill_body_eq_skeleton]; unfold cc0__fill_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.Proof.KI.Rgn

end
-- ==== Proof.Ideal.RegionData.lean ====
/-
  The proof data of the TensorCore region's pipeline on each core, from the contents the region finds in the core's
  unscoped buffers and the tallies the core owes throughout (its start signals to the SparseCore call that follows):
  the windows' arrays as found; after the body at a point each input's buffer at its block and the output's at the
  select of the two blocks; no invariant of the body's own; the tallies constant, the recorded pairs at the kernel's own
  index. And the body obligation at every point.
-/
import proofs.«212586_g28561532518402_cont_9to1_840_6_alg».proof.Proof.Ideal.RegionBody

set_option maxRecDepth 16384

noncomputable section

namespace Cert.Proof.KI.Rgn

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vs : (c : Dev nD) → (b : Ref sig .tc) → Buf (Elt F) ((c : Thread nD τ).loc b)) (O : CellTallies nD τ sig (HIx 1))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vs c (Pipeline.arrRef spec0 w))

/-- An input window's current staging buffer holds its block at every point, for any proof data whose array is the
    region-entry contents and whose body leaves the block in place. -/
theorem before0_0_of {c : Dev nD} (dat : Dat τ (Elt F) (HIx 1) ℕ UU ℕ cfg0 c) (hA : dat.A 0 = Vs c (Pipeline.arrRef spec0 0))
    (hafter : ∀ t, dat.after 0 t = iblk Vs c 0 t) (t : Fin cfg0.N) (d) : dat.before 0 t d = iblk Vs c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 1) ℕ UU ℕ cfg0 c) (hA : dat.A 1 = Vs c (Pipeline.arrRef spec0 1))
    (hafter : ∀ t, dat.after 1 t = iblk Vs c 1 t) (t : Fin cfg0.N) (d) : dat.before 1 t d = iblk Vs c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The pairs the core's waits may have recorded around the region: those at the kernel's own index. -/
abbrev recd : Set (SemLoc sig × HIx 1) := {p | p.2 = none}

/-- The proof data of the one pipeline on core c. -/
def dats (_ : Fin 1) (c : Dev nD) : Dat τ (Elt F) (HIx 1) ℕ UU ℕ cfg0 c where
  A w := Vs c (Pipeline.arrRef spec0 w)
  after w t := match w with
    | ⟨0, _⟩ => iblk Vs c 0 t
    | ⟨1, _⟩ => iblk Vs c 1 t
    | ⟨2, _⟩ => outBlk (iblk Vs c 0 t) (iblk Vs c 1 t)
  Φ _ := iprop(emp)
  q _ := fullShare
  owed _ := O
  recorded _ := recd

theorem A_eq (c : Dev nD) (w : Fin cfg0.W) : (dats Vs O 0 c).A w = Vs c (Pipeline.arrRef spec0 w) := by
  dsimp only [dats]

theorem after0_0 (c : Dev nD) (t : Fin cfg0.N) : (dats Vs O 0 c).after 0 t = iblk Vs c 0 t := by dsimp only [dats]
theorem after0_1 (c : Dev nD) (t : Fin cfg0.N) : (dats Vs O 0 c).after 1 t = iblk Vs c 1 t := by dsimp only [dats]
theorem after0_2 (c : Dev nD) (t : Fin cfg0.N) : (dats Vs O 0 c).after 2 t = outBlk (iblk Vs c 0 t) (iblk Vs c 1 t) := by dsimp only [dats]

theorem before0_0 (c : Dev nD) (t : Fin cfg0.N) (d) : (dats Vs O 0 c).before 0 t d = iblk Vs c 0 t :=
  before0_0_of Vs (dats Vs O 0 c) (A_eq Vs O c 0) (after0_0 Vs O c) t d
theorem before0_1 (c : Dev nD) (t : Fin cfg0.N) (d) : (dats Vs O 0 c).before 1 t d = iblk Vs c 1 t :=
  before0_1_of Vs (dats Vs O 0 c) (A_eq Vs O c 1) (after0_1 Vs O c) t d

/-! ## The body obligation, at a generic point -/

/-- What the body is called with at point t, the windows one by one, -/
def bodyPre (c : Dev nD) (t : Fin cfg0.N) : sProp 𝕄 :=
  iprop((dats Vs O 0 c).Φ t.castSucc ∗ (dats Vs O 0 c).owesAt none t.castSucc
    ∗ (∃ d, owns (c : Thread nD τ) (st0_0 t) fullShare ((dats Vs O 0 c).before 0 t d))
    ∗ (∃ d, owns (c : Thread nD τ) (st0_1 t) fullShare ((dats Vs O 0 c).before 1 t d))
    ∗ (∃ d, owns (c : Thread nD τ) (st0_2 t) fullShare ((dats Vs O 0 c).before 2 t d)))

/-- and what it returns. -/
def bodyPost (c : Dev nD) (t : Fin cfg0.N) : sProp 𝕄 :=
  iprop((dats Vs O 0 c).Φ t.succ ∗ (dats Vs O 0 c).owesAt none t.succ
    ∗ owns (c : Thread nD τ) (st0_0 t) fullShare ((dats Vs O 0 c).after 0 t)
    ∗ owns (c : Thread nD τ) (st0_1 t) fullShare ((dats Vs O 0 c).after 1 t)
    ∗ owns (c : Thread nD τ) (st0_2 t) fullShare ((dats Vs O 0 c).after 2 t))

/-- The body at any point: the inputs' memrefs hold their blocks, so the body's triple applies; what the core owes
    passes through unread. -/
theorem sound_body (c : Dev nD) (t : Fin cfg0.N) :
    bodyPre Vs O c t ⊢ wp frame (wpE (defs₀ (F := F)) Variants.none c none) Set.univ (bodyAt0 t) (fun _ => bodyPost Vs O c t) := by
  unfold bodyPre bodyPost bodyAt0
  simp only [before0_0, before0_1]
  rw [show (dats Vs O 0 c).Φ t.succ = (dats Vs O 0 c).Φ t.castSucc from rfl,
    show (dats Vs O 0 c).owesAt none t.succ = (dats Vs O 0 c).owesAt none t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk Vs c 0 t) (iblk Vs c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) Vs O 0 c) (defs₀ (F := F)) Variants.none none Set.univ := fun t => by
  rw [bigSep_W0, bigSep_W0]
  exact sound_body Vs O c t

end Cert.Proof.KI.Rgn

end
-- ==== Proof.Ideal.RegionSeg.lean ====
/-
  The TensorCore region as a segment of the main program: the pipeline's decided layout, no semaphore of the kernel's
  own, the body obligation, the evidence that the staging cells' waits sit below the start signals the core owes the
  SparseCore call that follows, and the region's protocol — entered from the core's unscoped buffers at the contents
  found and the core owing those signals, left with the output array at its final contents and the rest untouched.
  Then the region's rule under the SparseCore program's body table.
-/
import proofs.«212586_g28561532518402_cont_9to1_840_6_alg».proof.Proof.Ideal.RegionData
import Idealize.ShloMosaic.Lib.Pipeline.RegionsLoop

set_option maxRecDepth 16384

noncomputable section

namespace Cert.Proof.KI.Rgn

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vs : (c : Dev nD) → (b : Ref sig .tc) → Buf (Elt F) ((c : Thread nD τ).loc b)) (O : CellTallies nD τ sig (HIx 1))
variable (Vout : (c : Dev nD) → Buf (Elt F) ((c : Thread nD τ).loc main_v3))

/-- What the core owes around the region: the constant tallies, its recorded pairs at the kernel's own index. -/
abbrev owesR (c : Dev nD) : sProp 𝕄 := iprop(∃ W, ⌜∀ p ∈ W, p.2 = (none : HIx 1)⌝ ∗ owes (c : Thread nD τ) O W)

/-- The core's unscoped buffers after the region: the output array at its final contents. -/
abbrev VsOut (c : Dev nD) : (b : Ref sig .tc) → Buf (Elt F) ((c : Thread nD τ).loc b) := Function.update (Vs c) main_v3 (Vout c)

/-- The arrays at the end of the region are the updated contents at the windows' arrays. -/
theorem arrAt_final (hfin : ∀ c, (dats Vs O 0 c).arrAt 2 cfg0.N = Vout c) (c : Dev nD) :
    ∀ w : Fin cfg0.W, (dats Vs O 0 c).arrAt w cfg0.N = VsOut Vs Vout c (Pipeline.arrRef spec0 w)
  | ⟨0, _⟩ => ((dats Vs O 0 c).arrAt_in 0 rfl _).trans ((A_eq Vs O c 0).trans (Function.update_of_ne (by decide) _ _).symm)
  | ⟨1, _⟩ => ((dats Vs O 0 c).arrAt_in 1 rfl _).trans ((A_eq Vs O c 1).trans (Function.update_of_ne (by decide) _ _).symm)
  | ⟨2, _⟩ => (hfin c).trans (by show Vout c = Function.update (Vs c) main_v3 (Vout c) main_v3; rw [Function.update_self])

/-- The staging cells' waits, at the kernel's own index, sit below everything the core owes. -/
theorem hwaits (hO : ∀ g, O g none = 0) (c : Dev nD) :
    (levAts (K (F := F)).L (K (F := F)).lev : sProp 𝕄) ⊢ Pipeline.cellsWaits (Pipeline.pin (pcfgs (F := F)) adm) (dats Vs O) (none : HIx 1) 0 c :=
  Pipeline.cellsWaits_intro (Pipeline.pin (pcfgs (F := F)) adm) (dats Vs O) (none : HIx 1) 0 c fun w s t =>
    SparseCore.Cfg.mayWait_none (K := K (F := F)) _ hO

set_option backward.isDefEq.respectTransparency.types false in
/-- THE REGION. -/
def reg (hO : ∀ g, O g none = 0) (hfin : ∀ c, (dats Vs O 0 c).arrAt 2 cfg0.N = Vout c) :
    Pipeline.RegionSeg (pcfgs (F := F)) adm (dats Vs O) (none : HIx 1) defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation Vs O c).loose
  hwaits c := hwaits Vs O hO c
  pre c := iprop(unscopedBufs c (Vs c) ∗ owesR O c)
  post c := iprop(unscopedBufs c (VsOut Vs Vout c) ∗ owesR O c)
  X _ := iprop(emp)
  Y _ := iprop(emp)
  Z c := Pipeline.unscopedRest spec0 c (Vs c)
  hentry c := by
    have hsplit := Pipeline.arrays_of_unscopedBufs (pcfgs (F := F)) adm (dats Vs O) launch0.win launch0.arr_whole c
      ((dats Vs O 0 c).share_full fun _ => rfl) (Vs c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr; · iempintro
    iexact Hr
  hin c := by
    rw [show (dats Vs O 0 c).Φ 0 = iprop(emp) from rfl]
    iintro -; iempintro
  hout c := by
    rw [Pipeline.ownSems0_none, scopedRest0_eq]
    iintro -
    isplitr; · iempintro
    isplitr <;> iempintro
  hexit c := by
    have hback := Pipeline.unscopedBufs_of_arrays (pcfgs (F := F)) adm launch0.win launch0.arr_whole c (dats Vs O)
      ((dats Vs O 0 c).share_full fun _ => rfl) (Vs c) (VsOut Vs Vout c) (fun w => (dats Vs O 0 c).arrAt w cfg0.N)
      (arrAt_final Vs O Vout hfin c)
      (fun b hb => Function.update_of_ne (fun e => hb (Finset.mem_image.mpr ⟨2, Finset.mem_univ _, e.symm⟩)) _ _)
    iintro ⟨Ha, HO, -, HZ⟩
    imodintro
    isplitl [Ha HZ]
    · iapply hback; isplitl [Ha] <;> iassumption
    · unfold Pipeline.Dat.owesAt Pipeline.owesWithin
      icases HO with ⟨%W, %hW, HO⟩; iexists W; isplitr
      · ipureintro
        intro p hp
        rcases hW (Finset.mem_coe.mpr hp) with h | ⟨w, s, rfl⟩
        · exact h
        · rfl
      iexact HO

end Cert.Proof.KI.Rgn

end
-- ==== Proof.Ideal.RegionRule.lean ====
/-
  The TensorCore region's rule inside the SparseCore program's body table: the region's launch is the pipeline's
  entry label lifted to the extended labels, and a proof about the entry under the pipeline's own table is a proof
  about the lifted launch.
-/
import proofs.«212586_g28561532518402_cont_9to1_840_6_alg».proof.Proof.Ideal.RegionSeg

set_option maxRecDepth 16384

noncomputable section

namespace Cert.Proof.KI.Rgn

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vs : (c : Dev nD) → (b : Ref sig .tc) → Buf (Elt F) ((c : Thread nD τ).loc b)) (O : CellTallies nD τ sig (HIx 1))
variable (Vout : (c : Dev nD) → Buf (Elt F) ((c : Thread nD τ).loc main_v3))

set_option backward.isDefEq.respectTransparency.types false in
/-- The region on core c, for contents found on every core: from the boundary, the unscoped buffers as found, the
    core owing its constant tallies, the level facts and the pipeline's ghost state, the region's launch runs to the
    continuation from the boundary, the unscoped buffers with the output array at its final contents, and the core
    owing the same. -/
theorem region_wp_fam (hO : ∀ g, O g none = 0) (hfin : ∀ c, (dats Vs O 0 c).arrAt 2 cfg0.N = Vout c) (c : Dev nD)
    {α : Type} (k : PUnit → Prog (TpuEff nD τ sig (Elt F) (SparseCore.Sig (ΛP (F := F)) 1) .tc) α) (Q : α → sProp 𝕄) :
    iprop(boundary (c : Thread nD τ) ∗ unscopedBufs c (Vs c) ∗ owesR O c
          ∗ levAts (K (F := F)).L (K (F := F)).lev
          ∗ Pipeline.cellsGhost (Pipeline.pin (pcfgs (F := F)) adm) EP 0 c ∗ Pipeline.toksInit (Pipeline.pin (pcfgs (F := F)) adm) EP 0 c
          ∗ (iprop(boundary (c : Thread nD τ) ∗ unscopedBufs c (VsOut Vs Vout c) ∗ owesR O c)
              -∗ wp frame (wpE ((K (F := F)).defs (D (F := F))) 𝒱 (c : Thread nD τ) none) Set.univ (k ⟨⟩) Q))
        ⊢ wp frame (wpE ((K (F := F)).defs (D (F := F))) 𝒱 (c : Thread nD τ) none) Set.univ
            (.op (.customCall (SparseCore.inner (Pipeline.entry 0)) ()) k) Q := by
  have hwp := (reg Vs O Vout hO hfin).wp (pcfgs (F := F)) adm (dats Vs O) (none : HIx 1) cellOf_inj EP defs₀ 𝒱₀ (K (F := F)).L (K (F := F)).lev c none
    (fun _ h => (Option.not_mem_none _ h).elim) (fun u => .ret u)
    (fun x => wp frame (wpE ((K (F := F)).defs (D (F := F))) 𝒱 (c : Thread nD τ) none) Set.univ (k x) Q)
  have hlift := (K (F := F)).wp_liftProg (D (F := F)) 𝒱 (c : Thread nD τ) Set.univ none
    (.op (.customCall (Pipeline.entry 0) ()) Prog.ret) (fun x => wp frame (wpE ((K (F := F)).defs (D (F := F))) 𝒱 (c : Thread nD τ) none) Set.univ (k x) Q)
  rw [show (Prog.op (.customCall (SparseCore.inner (Pipeline.entry 0)) ()) k : Prog (TpuEff nD τ sig (Elt F) (SparseCore.Sig (ΛP (F := F)) 1) .tc) α)
      = (SparseCore.liftProg (.op (.customCall (Pipeline.entry 0) ()) Prog.ret)) >>= k from rfl, wp_bind]
  rw [show (reg Vs O Vout hO hfin).post c = iprop(unscopedBufs c (VsOut Vs Vout c) ∗ owesR O c) from rfl,
    show (reg Vs O Vout hO hfin).pre c = iprop(unscopedBufs c (Vs c) ∗ owesR O c) from rfl] at hwp
  refine BIBase.Entails.trans ?_ hlift
  refine BIBase.Entails.trans ?_ hwp
  iintro ⟨Hbd, Hub, HO, Hla, Hg, Ht, Hk⟩
  isplitl [Hk]
  · iintro ⟨Hb, Hu, Ho⟩; rw [wp_ret]; imodintro; iapply Hk
    isplitl [Hb]; · iexact Hb
    isplitl [Hu] <;> iassumption
  isplitl [Hbd]; · iexact Hbd
  isplitl [Hub HO]; · isplitl [Hub] <;> iassumption
  isplitl [Hla]; · iexact Hla
  isplitl [Hg] <;> iassumption

end Cert.Proof.KI.Rgn

end
-- ==== Proof.Ideal.RegionValue.lean ====
/-
  The value the TensorCore region leaves in its output array: the tokens cut to the first 1024 positions, an entry
  zeroed where the mask column is non-zero at its (batch, position). The body's payload at an index is that select of
  its two blocks; the block point t writes back is block t of the whole-array function (the three windows move
  together: block (b, s) of each sits at batch b and positions 256 s … 256 s + 255); the output's blocks tile its
  array (the point of batch b and position p is the one at (b, p / 256)); so the array ends as the whole-array function.
-/
import proofs.«212586_g28561532518402_cont_9to1_840_6_alg».proof.Proof.Ideal.RegionData
import Idealize.ShloMosaic.Lib.Pipeline.Value
import Idealize.ShloMosaic.Lib.ValueIdx

set_option maxRecDepth 16384

noncomputable section

namespace Cert.Proof.KI.Rgn

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (Vs : (c : Dev nD) → (b : Ref sig .tc) → Buf (Elt F) ((c : Thread nD τ).loc b)) (O : CellTallies nD τ sig (HIx 1))

/-! ## The body's payload at an index -/

/-- At (0, r, q) the payload is the tokens' block there if the mask column's block is zero at (0, r, 0), else zero. -/
theorem pay_ix (x1 : Vec F S1x256x1 .i32) (x0 : Vec F S1x256x1024 .f32) (r : Fin 256) (q : Fin 1024) :
    k0_pay1 x1 x0 (ix3 (0 : Fin 1) r q)
      = if x1 (ix3 (0 : Fin 1) r (0 : Fin 1)) = 0#32 then x0 (ix3 (0 : Fin 1) r q) else Scalar.ofBits .f32 0x00000000#32 := by
  unfold k0_pay1
  refine (shapeCast_apply _ _ (ix3 (0 : Fin 1) r q) (ix2 r q) ?_).trans ?_
  · rw [Shape.rowMajor_val_two, Shape.rowMajor_val_three]
    show r.val * 1024 + q.val = ((0 : Fin 1).val * 256 + r.val) * 1024 + q.val
    simp
  rw [select_apply, broadcast_apply]
  rw [broadcastTo_apply _ _ (ix2 r q) (ix2 r (0 : Fin 1)) (fun a => by match a with | ⟨0, _⟩ => rfl | ⟨1, _⟩ => rfl)]
  rw [shapeCast_self]
  have e1 : shapeCast S256x1 x1 shapeCasts_S1x256x1_S256x1 (ix2 r (0 : Fin 1)) = x1 (ix3 (0 : Fin 1) r (0 : Fin 1)) :=
    shapeCast_apply x1 _ (ix2 r (0 : Fin 1)) (ix3 (0 : Fin 1) r (0 : Fin 1)) (by
      rw [Shape.rowMajor_val_two, Shape.rowMajor_val_three]
      show ((0 : Fin 1).val * 256 + r.val) * 1 + (0 : Fin 1).val = r.val * 1 + (0 : Fin 1).val
      simp)
  have e0 : shapeCast S256x1024 x0 shapeCasts_S1x256x1024_S256x1024 (ix2 r q) = x0 (ix3 (0 : Fin 1) r q) :=
    shapeCast_apply x0 _ (ix2 r q) (ix3 (0 : Fin 1) r q) (by
      rw [Shape.rowMajor_val_two, Shape.rowMajor_val_three]
      show ((0 : Fin 1).val * 256 + r.val) * 1024 + q.val = r.val * 1024 + q.val
      simp)
  show Scalar.select (IntOp.cmpi .ne (shapeCast S256x1 x1 shapeCasts_S1x256x1_S256x1 (ix2 r (0 : Fin 1))) 0#32) _ _ = _
  rw [e1, e0]
  unfold Scalar.select IntOp.cmpi
  by_cases h : x1 (ix3 (0 : Fin 1) r (0 : Fin 1)) = 0#32
  · rw [if_pos h]; simp [h]
  · have hb : (x1 (ix3 (0 : Fin 1) r (0 : Fin 1)) != 0#32) = true := bne_iff_ne.mpr h
    rw [if_neg h]; simp [hb]

/-- The same at any index of the block. -/
theorem pay_apply (x1 : Vec F S1x256x1 .i32) (x0 : Vec F S1x256x1024 .f32) (j : S1x256x1024.Idx) :
    k0_pay1 x1 x0 j
      = if x1 (ix3 (0 : Fin 1) (j 1 : Fin 256) (0 : Fin 1)) = 0#32 then x0 j else Scalar.ofBits .f32 0x00000000#32 := by
  obtain ⟨p, r, q, rfl⟩ : ∃ (p : Fin 1) (r : Fin 256) (q : Fin 1024), j = ix3 p r q := ⟨j 0, j 1, j 2, eq_ix3 j⟩
  obtain rfl : p = 0 := Subsingleton.elim _ _
  exact pay_ix x1 x0 r q

/-! ## From blocks to the array -/

theorem hz3 : (![0, 0, 0] : Fin 3 → Nat) = fun _ => 0 := funext fun a => by fin_cases a <;> rfl

/-- The output array after the region, as one function of the arrays the region finds. -/
def Vtrim (c : Dev nD) : Buf (Elt F) ((c : Thread nD τ).loc main_v3) := Cert.Spec.trimmed (Vs c main_arg0) (Vs c main_v2)

/-- The printed index maps, decided over the grid: the three windows move together on the batch and position axes, the
    mask column's last block index is zero, and the output's block indices stay in their ranges. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = win0_2.index t (2 : Fin 3)
    ∧ win0_1.index t (0 : Fin 3) = win0_2.index t (0 : Fin 3) ∧ win0_1.index t (1 : Fin 3) = win0_2.index t (1 : Fin 3)
    ∧ win0_1.index t (2 : Fin 3) = 0
    ∧ win0_2.index t (0 : Fin 3) ≤ 15 ∧ win0_2.index t (1 : Fin 3) ≤ 3 ∧ win0_2.index t (2 : Fin 3) = 0 :=
  (by decide +kernel : ∀ t : Fin grid0.N, _)

/-- Every block of the output array is some point's. -/
theorem idx_onto : ∀ (q0 : Fin 16) (q1 : Fin 4), ∃ t : Fin cfg0.N, win0_2.index t = ![q0.val, q1.val, 0] :=
  (by decide +kernel : ∀ (q0 : Fin 16) (q1 : Fin 4), ∃ t : Fin grid0.N, win0_2.index t = ![q0.val, q1.val, 0])

/-- What point t writes back is block t of the whole-array function. -/
theorem flushed_eq (c : Dev nD) (t : Fin cfg0.N) :
    (dats Vs O 0 c).flushed 2 t = ((cfg0.win 2).blk t).view.read (Elt F) (Vtrim Vs c) := by
  show (cfg0.win 2).cut (grid0.coords t) ((dats Vs O 0 c).after 2 t) = _
  rw [after0_2]
  unfold outBlk
  rw [View.canon_unit_zero hz3]
  simp only [View.ld_unit_zero (S := S1x256x1024) hz3, View.ld_unit_zero (S := S1x256x1) hz3]
  obtain ⟨e0, e1, e2, e3, e4, e5, b0, b1, b2⟩ := idx_facts t
  funext j
  show k0_pay1 (iblk Vs c 1 t) (iblk Vs c 0 t) j = Cert.Spec.trimmed (Vs c main_arg0) (Vs c main_v2) (((cfg0.win 2).blk t).view.emb j)
  refine (pay_apply _ _ _).trans ?_
  unfold Cert.Spec.trimmed
  have hj0 : (j 0).val < 1 := (j 0).isLt
  have hj1 : (j 1).val < 256 := (j 1).isLt
  have hj2 : (j 2).val < 1024 := (j 2).isLt
  have h1 : ((cfg0.win 1).blk t).view.emb (ix3 (0 : Fin 1) (j 1 : Fin 256) (0 : Fin 1)) = Cert.Spec.colIdx (((cfg0.win 2).blk t).view.emb j) := by
    funext a; apply Fin.ext
    match a with
    | ⟨0, _⟩ => show win0_1.index t (0 : Fin 3) * 1 + 1 * (0 : Fin 1).val = win0_2.index t (0 : Fin 3) * 1 + 1 * (j 0).val; simp only [Fin.val_zero]; omega
    | ⟨1, _⟩ => show win0_1.index t (1 : Fin 3) * 256 + 1 * (j 1).val = win0_2.index t (1 : Fin 3) * 256 + 1 * (j 1).val; omega
    | ⟨2, _⟩ => show win0_1.index t (2 : Fin 3) * 1 + 1 * (0 : Fin 1).val = (0 : Fin 1).val; simp only [Fin.val_zero]; omega
  have h0 : ((cfg0.win 0).blk t).view.emb j = Cert.Spec.tokIdx (((cfg0.win 2).blk t).view.emb j) := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 1024 + 1 * (j 2).val = win0_2.index t (2 : Fin 3) * 1024 + 1 * (j 2).val; omega
  have hcol : iblk Vs c 1 t (ix3 (0 : Fin 1) (j 1 : Fin 256) (0 : Fin 1)) = Vs c main_v2 (Cert.Spec.colIdx (((cfg0.win 2).blk t).view.emb j)) := by
    show Vs c main_v2 (((cfg0.win 1).blk t).view.emb (ix3 (0 : Fin 1) (j 1 : Fin 256) (0 : Fin 1))) = _
    rw [h1]
  have htok : iblk Vs c 0 t j = Vs c main_arg0 (Cert.Spec.tokIdx (((cfg0.win 2).blk t).view.emb j)) := by
    show Vs c main_arg0 (((cfg0.win 0).blk t).view.emb j) = _
    rw [h0]
  exact if_congr (Eq.congr hcol rfl) htok rfl

/-- An index of the array is in point t's block iff each coordinate is in the block's range on its axis. -/
theorem mem_blk (t : Fin cfg0.N) (i : S16x1024x1024.Idx) :
    i ∈ ((cfg0.win 2).blk t).view.set ↔ ∀ a : Fin 3, win0_2.index t a * S1x256x1024.size a ≤ (i a).val ∧ (i a).val < win0_2.index t a * S1x256x1024.size a + S1x256x1024.size a := by
  show i ∈ ((View.whole main_v3).slice (win0_2.rect t)).set ↔ _
  rw [View.set_slice_whole, Rect.mem_set_unit]
  exact Iff.rfl

/-- The output's blocks cover its array. -/
theorem cover (i : S16x1024x1024.Idx) : ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- THE ARRAY after the region: the trimmed tokens of the arrays the region finds. -/
theorem final2 (c : Dev nD) : (dats Vs O 0 c).arrAt 2 cfg0.N = Vtrim Vs c :=
  (dats Vs O 0 c).arrAt_eq_of_cover 2 (Vtrim Vs c) (fun t _ => flushed_eq Vs O c t) cover

end Cert.Proof.KI.Rgn

end
-- ==== Proof.Ideal.Region.lean ====
/-
  The TensorCore region's rule, with the output's value named: on the device's TensorCore, from the boundary, the
  unscoped buffers at the contents found, the core owing its constant tallies (none at the kernel's own index), the
  level facts and the pipeline's ghost state, the region's launch runs to the continuation from the boundary, the
  unscoped buffers with the output array at the trimmed tokens — an entry zeroed where the mask column is non-zero at
  its (batch, position) —, and the core owing the same.
-/
import proofs.«212586_g28561532518402_cont_9to1_840_6_alg».proof.Proof.Ideal.RegionRule
import proofs.«212586_g28561532518402_cont_9to1_840_6_alg».proof.Proof.Ideal.RegionValue

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Rgn

/-- The contents found on the one device, as a family over the devices (there is one). -/
abbrev famOf (d : Dev nD) (V : (b : Ref sig .tc) → Buf (Elt F) ((SparseCore.T d : Thread nD τ).loc b)) :
    (c : Dev nD) → (b : Ref sig .tc) → Buf (Elt F) ((c : Thread nD τ).loc b) :=
  fun c => (Subsingleton.elim d c) ▸ V

theorem region_wp (d : Dev nD) (V : (b : Ref sig .tc) → Buf (Elt F) ((SparseCore.T d : Thread nD τ).loc b))
    (O : CellTallies nD τ sig (HIx 1)) (hO : ∀ g, O g none = 0)
    {α : Type} (k : PUnit → Prog (TpuEff nD τ sig (Elt F) (SparseCore.Sig (ΛP (F := F)) 1) .tc) α) (Q : α → sProp 𝕄) :
    iprop(boundary (SparseCore.T d : Thread nD τ) ∗ unscopedBufs d V
          ∗ (∃ W, ⌜∀ p ∈ W, p.2 = none⌝ ∗ owes (SparseCore.T d) O W)
          ∗ levAts (K (F := F)).L (K (F := F)).lev
          ∗ Pipeline.cellsGhost (Pipeline.pin (pcfgs (F := F)) adm) EP 0 d ∗ Pipeline.toksInit (Pipeline.pin (pcfgs (F := F)) adm) EP 0 d
          ∗ (iprop(boundary (SparseCore.T d : Thread nD τ)
                ∗ unscopedBufs d (Function.update V main_v3 (Cert.Spec.trimmed (V main_arg0) (V main_v2)))
                ∗ (∃ W, ⌜∀ p ∈ W, p.2 = none⌝ ∗ owes (SparseCore.T d) O W))
              -∗ wp frame (wpE ((K (F := F)).defs (D (F := F))) 𝒱 (SparseCore.T d) none) Set.univ (k ⟨⟩) Q))
        ⊢ wp frame (wpE ((K (F := F)).defs (D (F := F))) 𝒱 (SparseCore.T d) none) Set.univ
            (.op (.customCall (SparseCore.inner (Pipeline.entry 0)) ()) k) Q :=
  region_wp_fam (famOf d V) O (Vtrim (famOf d V)) hO (fun c => final2 (famOf d V) O c) d k Q

/-- info: 'Cert.Proof.KI.region_wp' depends on axioms: [propext, Classical.choice, Quot.sound] -/
#guard_msgs in #print axioms region_wp

end Cert.Proof.KI

end
-- ==== Proof.Ideal.HostOps.lean ====
/-
  @main's host operations as two lists — the three before the pallas_call region (cut the mask, make it a column,
  widen it to words) and the three after it (drop the unit axis, transpose to position-major, flatten) — and @main as
  the first list, the region, the second list, the SparseCore call.
-/
import proofs.«212586_g28561532518402_cont_9to1_840_6_alg».proof.Proof.Ideal.Common

noncomputable section

namespace Cert.Proof.KI

open Cert.KernelIdeal Cert.KernelIdeal.Gen
open Idealize.ShloMosaic Idealize.SL.Sem

variable {F : FTy → Type} [FloatOps F]

abbrev opA1 : HloOp τ sig (Elt F) :=
  StableHlo.unary main_arg1 main_v0 ((extractStridedSlice S16x1024 ![0, 0] · Facts₀.slices_S16x2048_S16x1024_0_0) : (⟨S16x2048, .i1⟩ : BufTy).Contents (Elt F) → (⟨S16x1024, .i1⟩ : BufTy).Contents (Elt F))
abbrev opA2 : HloOp τ sig (Elt F) :=
  StableHlo.unary main_v0 main_v1 (broadcastInDim S16x1024x1 ![0, 1] Facts₀.bcast_S16x1024_S16x1024x1_0_1 : (⟨S16x1024, .i1⟩ : BufTy).Contents (Elt F) → (⟨S16x1024x1, .i1⟩ : BufTy).Contents (Elt F))
abbrev opA3 : HloOp τ sig (Elt F) :=
  StableHlo.unary main_v1 main_v2 ((extui 32 · Facts₀.natLt_1_32) : (⟨S16x1024x1, .i1⟩ : BufTy).Contents (Elt F) → (⟨S16x1024x1, .i32⟩ : BufTy).Contents (Elt F))
abbrev opB1 : HloOp τ sig (Elt F) :=
  StableHlo.reshape main_v2 main_v4 rfl Facts₀.shapeCasts_S16x1024x1_S16x1024
abbrev opB2 : HloOp τ sig (Elt F) :=
  StableHlo.unary main_v4 main_v5 ((transpose S1024x16 [1, 0] · Facts₀.transposes_S16x1024_S1024x16_1_0) : (⟨S16x1024, .i32⟩ : BufTy).Contents (Elt F) → (⟨S1024x16, .i32⟩ : BufTy).Contents (Elt F))
abbrev opB3 : HloOp τ sig (Elt F) :=
  StableHlo.reshape main_v5 main_v6 rfl Facts₀.shapeCasts_S1024x16_S16384

/-- The host operations before the region, and after it. -/
abbrev opsA : List (HloOp τ sig (Elt F)) := [opA1, opA2, opA3]
abbrev opsB : List (HloOp τ sig (Elt F)) := [opB1, opB2, opB3]

/-- @main, cut at the region and at the SparseCore call. -/
theorem main_eq (d : Dev nD) :
    main (F := F) d
      = (StableHlo.seq opsA >>= fun _ =>
          (Prog.op (.customCall (SparseCore.inner (Pipeline.entry 0)) ()) fun _ =>
            (StableHlo.seq opsB >>= fun _ => (sc.run d 0 >>= fun _ => pure ⟨⟩)))) := by
  simp only [main, StableHlo.seq, bind_assoc, pure_bind]
  rfl

end Cert.Proof.KI

end
-- ==== Proof.Ideal.HostVals.lean ====
/-
  What @main's arrays hold along the way, as valuations of the device's buffers: at launch, before the pallas_call
  region (after the first three host operations), after the region (the trimmed tokens written), and before the
  SparseCore call (after the last three host operations); and each array the proof reads, at those moments, as a
  function of the two arguments.
-/
import proofs.«212586_g28561532518402_cont_9to1_840_6_alg».proof.Proof.Ideal.HostOps
import Idealize.ShloMosaic.Lib.Pipeline.Frame

noncomputable section

namespace Cert.Proof.KI

open Cert.KernelIdeal Cert.KernelIdeal.Gen
open Idealize.ShloMosaic Idealize.SL.Sem

variable {F : FTy → Type} [FloatOps F]
variable (m : (ℓ : Loc nD τ sig) → Buf (Elt F) ℓ) (d : Dev nD)

/-- The device's buffers at launch. -/
abbrev V0 : Valuation τ sig (Elt F) := fun b => m (d, b)
/-- Before the region. -/
abbrev VA : Valuation τ sig (Elt F) := StableHlo.after opsA (V0 m d)
/-- After the region, which leaves `X` in the trimmed-tokens array. -/
def VR (X : (⟨S16x1024x1024, .f32⟩ : BufTy).Contents (Elt F)) : Valuation τ sig (Elt F) :=
  Function.update (VA m d) (Proc.devRef .tc (main_v3 : Ref sig .tc)) X
/-- Before the SparseCore call. -/
abbrev VB (X : (⟨S16x1024x1024, .f32⟩ : BufTy).Contents (Elt F)) : Valuation τ sig (Elt F) := StableHlo.after opsB (VR m d X)

/-- The two arguments, as the specification's functions take them. -/
abbrev tokOf : FVec F S16x2048x1024 .f32 := m (d, Proc.devRef .tc (main_arg0 : Ref sig .tc))
abbrev mskOf : IVec S16x2048 1 := m (d, Proc.devRef .tc (main_arg1 : Ref sig .tc))

theorem VA_arg0 : VA m d (Proc.devRef .tc (main_arg0 : Ref sig .tc)) = tokOf m d := by
  show StableHlo.after opsA (V0 m d) (Proc.devRef .tc (main_arg0 : Ref sig .tc)) = _
  after_results
theorem VA_arg1 : VA m d (Proc.devRef .tc (main_arg1 : Ref sig .tc)) = mskOf m d := by
  show StableHlo.after opsA (V0 m d) (Proc.devRef .tc (main_arg1 : Ref sig .tc)) = _
  after_results
theorem VA_v0 : VA m d (Proc.devRef .tc (main_v0 : Ref sig .tc)) = Cert.Spec.maskCut (mskOf m d) := by
  show StableHlo.after opsA (V0 m d) (Proc.devRef .tc (main_v0 : Ref sig .tc)) = _
  after_results
  rfl
theorem VA_v2 : VA m d (Proc.devRef .tc (main_v2 : Ref sig .tc)) = Cert.Spec.maskCol (mskOf m d) := by
  show StableHlo.after opsA (V0 m d) (Proc.devRef .tc (main_v2 : Ref sig .tc)) = _
  after_results
  rfl

variable (X : (⟨S16x1024x1024, .f32⟩ : BufTy).Contents (Elt F))

/-- The region writes the trimmed-tokens array only: every other array is as before it. -/
theorem VR_of_ne {r : Ref sig .tc} (h : r ≠ main_v3) : VR m d X (Proc.devRef .tc r) = VA m d (Proc.devRef .tc r) := by
  unfold VR
  exact Function.update_of_ne (StableHlo.devRef_ne_of_ne h) _ _

/-- The trimmed-tokens array after the region. -/
theorem VR_v3 : VR m d X (Proc.devRef .tc (main_v3 : Ref sig .tc)) = X := by
  unfold VR
  exact Function.update_self _ _ _

theorem VB_arg0 : VB m d X (Proc.devRef .tc (main_arg0 : Ref sig .tc)) = tokOf m d := by
  show StableHlo.after opsB (VR m d X) (Proc.devRef .tc (main_arg0 : Ref sig .tc)) = _
  after_results
  rw [VR_of_ne m d X (by decide), VA_arg0]
theorem VB_arg1 : VB m d X (Proc.devRef .tc (main_arg1 : Ref sig .tc)) = mskOf m d := by
  show StableHlo.after opsB (VR m d X) (Proc.devRef .tc (main_arg1 : Ref sig .tc)) = _
  after_results
  rw [VR_of_ne m d X (by decide), VA_arg1]
theorem VB_v0 : VB m d X (Proc.devRef .tc (main_v0 : Ref sig .tc)) = Cert.Spec.maskCut (mskOf m d) := by
  show StableHlo.after opsB (VR m d X) (Proc.devRef .tc (main_v0 : Ref sig .tc)) = _
  after_results
  rw [VR_of_ne m d X (by decide), VA_v0]
theorem VB_v3 : VB m d X (Proc.devRef .tc (main_v3 : Ref sig .tc)) = X := by
  show StableHlo.after opsB (VR m d X) (Proc.devRef .tc (main_v3 : Ref sig .tc)) = _
  after_results
  rw [VR_v3]
theorem VB_v6 : VB m d X (Proc.devRef .tc (main_v6 : Ref sig .tc)) = Cert.Spec.maskFlat (mskOf m d) := by
  show StableHlo.after opsB (VR m d X) (Proc.devRef .tc (main_v6 : Ref sig .tc)) = _
  after_results
  rw [VR_of_ne m d X (by decide), VA_v2]
  rfl

/-- Every operation of the two lists names TensorCore buffers only, and allocates nothing. -/
theorem opsA_sub : ∀ op ∈ (opsA : List (HloOp τ sig (Elt F))), op.bufs ⊆ Pipeline.ucRefs τ sig := by
  have hs : (opsA : List (HloOp τ sig (Elt F))).Forall fun op => op.bufs ⊆ StableHlo.tcRefs τ sig :=
    ⟨StableHlo.unary_bufs_sub .., StableHlo.unary_bufs_sub .., StableHlo.unary_bufs_sub ..⟩
  exact fun op h => Pipeline.sub_ucRefs op ((List.forall_iff_forall_mem.mp hs) op h)
theorem opsB_sub : ∀ op ∈ (opsB : List (HloOp τ sig (Elt F))), op.bufs ⊆ Pipeline.ucRefs τ sig := by
  have hs : (opsB : List (HloOp τ sig (Elt F))).Forall fun op => op.bufs ⊆ StableHlo.tcRefs τ sig :=
    ⟨StableHlo.reshape_bufs_sub .., StableHlo.unary_bufs_sub .., StableHlo.reshape_bufs_sub ..⟩
  exact fun op h => Pipeline.sub_ucRefs op ((List.forall_iff_forall_mem.mp hs) op h)
theorem opsA_fresh : ∀ op ∈ (opsA : List (HloOp τ sig (Elt F))), op.fresh = ∅ := by
  intro _ h
  (repeat (cases h with | head => rfl | tail _ h => ?_))
  exact nomatch h
theorem opsB_fresh : ∀ op ∈ (opsB : List (HloOp τ sig (Elt F))), op.fresh = ∅ := by
  intro _ h
  (repeat (cases h with | head => rfl | tail _ h => ?_))
  exact nomatch h

end Cert.Proof.KI

end
-- ==== Proof.Ideal.Final.lean ====
/-
  What the five arrays the claim speaks of hold at the end, read off the final physical state: a full points-to for
  each of the two arguments, the trimmed tokens, the cut mask and the lengths, beside the state interpretation, pins the
  memory's contents at each of the five locations.
-/
import proofs.«212586_g28561532518402_cont_9to1_840_6_alg».proof.Proof.Ideal.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Each full points-to agrees with the state interpretation on every element, so the five arrays are the memory's. -/
theorem read_five (d : Dev nD) (s' : Phys nD τ sig (Elt F))
    (f0 : Buf (Elt F) ((SparseCore.T d).loc main_arg0)) (f1 : Buf (Elt F) ((SparseCore.T d).loc main_arg1))
    (g3 : Buf (Elt F) ((SparseCore.T d).loc main_v3)) (g0 : Buf (Elt F) ((SparseCore.T d).loc main_v0))
    (g7 : Buf (Elt F) ((SparseCore.T d).loc main_v7)) :
    iprop((((SparseCore.T d).loc main_arg0) ↦{fullShare} f0) ∗ (((SparseCore.T d).loc main_arg1) ↦{fullShare} f1)
        ∗ (((SparseCore.T d).loc main_v3) ↦{fullShare} g3) ∗ (((SparseCore.T d).loc main_v0) ↦{fullShare} g0)
        ∗ (((SparseCore.T d).loc main_v7) ↦{fullShare} g7) ∗ SI s')
      ⊢ (⌜s'.mem.mem ((SparseCore.T d).loc main_arg0) = f0 ∧ s'.mem.mem ((SparseCore.T d).loc main_arg1) = f1
          ∧ s'.mem.mem ((SparseCore.T d).loc main_v3) = g3 ∧ s'.mem.mem ((SparseCore.T d).loc main_v0) = g0
          ∧ s'.mem.mem ((SparseCore.T d).loc main_v7) = g7⌝ : sProp 𝕄) := by
  iintro ⟨H0, H1, H3, Hv0, H7, HSI⟩
  ihave H := (persistent_entails_right (SI_pointsTo_agree (st := s') (ℓ := (SparseCore.T d).loc main_arg0) (I := Finset.univ) (q := fullShare) (f := f0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := f1))) $$ [HSI H1]
  · isplitl [HSI] <;> iassumption
  icases H with ⟨%h1, HSI, -⟩
  ihave H := (persistent_entails_right (SI_pointsTo_agree (st := s') (ℓ := (SparseCore.T d).loc main_v3) (I := Finset.univ) (q := fullShare) (f := g3))) $$ [HSI H3]
  · isplitl [HSI] <;> iassumption
  icases H with ⟨%h3, HSI, -⟩
  ihave H := (persistent_entails_right (SI_pointsTo_agree (st := s') (ℓ := (SparseCore.T d).loc main_v0) (I := Finset.univ) (q := fullShare) (f := g0))) $$ [HSI Hv0]
  · isplitl [HSI] <;> iassumption
  icases H with ⟨%h4, HSI, -⟩
  ihave H := (SI_pointsTo_agree (st := s') (ℓ := (SparseCore.T d).loc main_v7) (I := Finset.univ) (q := fullShare) (f := g7)) $$ [HSI H7]
  · isplitl [HSI] <;> iassumption
  icases H with %h7
  ipureintro
  exact ⟨funext fun i => h0 i (Finset.mem_univ i), funext fun i => h1 i (Finset.mem_univ i),
    funext fun i => h3 i (Finset.mem_univ i), funext fun i => h4 i (Finset.mem_univ i),
    funext fun i => h7 i (Finset.mem_univ i)⟩

end Cert.Proof.KI

end
-- ==== Proof.Ideal.Launch.lean ====
/-
  The launch: the element of the ghost state the program starts from, @main on the TensorCore, how the final
  assertions read the results, and the program's run with every result named.

  @main: the mask argument is cut, made a column and widened (three host operations); the pallas_call region zeroes
  the masked token positions; the column is re-laid position-major and flat (three host operations); the SparseCore call
  counts the unmasked positions of each batch row.
-/
import proofs.«212586_g28561532518402_cont_9to1_840_6_alg».proof.Proof.Ideal.Pay
import proofs.«212586_g28561532518402_cont_9to1_840_6_alg».proof.Proof.Ideal.Region
import proofs.«212586_g28561532518402_cont_9to1_840_6_alg».proof.Proof.Ideal.HostVals
import proofs.«212586_g28561532518402_cont_9to1_840_6_alg».proof.Proof.Ideal.Final

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element -/

/-- The handshakes' rounds at their cells and tokens, the pipeline's at its staging cells and transfers, no counter yet. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What @main's proof starts from beside the launch's deal: the pipeline's ghost state. -/
def G (d : Dev nD) : sProp 𝕄 :=
  iprop(Pipeline.cellsGhost (Pipeline.pin (pcfgs (F := F)) adm) EP 0 d ∗ Pipeline.toksInit (Pipeline.pin (pcfgs (F := F)) adm) EP 0 d)

omit m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HP⟩
  ihave HP' := (Entails.of_eq (show (BI.own ((embR : Emb (UP × Counters) (MT nD τ sig (HIx 1) (Elt F) ℕ UU ℕ))
      (initOf (Pipeline.cells (Pipeline.pin (pcfgs (F := F)) adm) cellOf_inj) (Pipeline.launchToks (Pipeline.pin (pcfgs (F := F)) adm) cellOf_inj), 1)) : sProp 𝕄)
      = BI.own ((EP (F := F)) (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) (EP (F := F)) cellOf_inj) $$ HP' with ⟨Hg, Ht⟩
  imodintro
  isplitl [HH]; · iexact HH
  isplitl [Hg Ht]
  · unfold G
    rw [bigSep_sep']
    have e1 : (bigSep Finset.univ fun c : Dev nD => bigSep Finset.univ fun p : Fin 1 => Pipeline.cellsGhost (Pipeline.pin (pcfgs (F := F)) adm) (EP (F := F)) p c : sProp 𝕄)
        = bigSep Finset.univ fun c : Dev nD => Pipeline.cellsGhost (Pipeline.pin (pcfgs (F := F)) adm) (EP (F := F)) 0 c :=
      bigSep_congr fun c _ => bigSep_univ_of_subsingleton (0 : Fin 1)
    have e2 : (bigSep Finset.univ fun c : Dev nD => bigSep Finset.univ fun p : Fin 1 => Pipeline.toksInit (Pipeline.pin (pcfgs (F := F)) adm) (EP (F := F)) p c : sProp 𝕄)
        = bigSep Finset.univ fun c : Dev nD => Pipeline.toksInit (Pipeline.pin (pcfgs (F := F)) adm) (EP (F := F)) 0 c :=
      bigSep_congr fun c _ => bigSep_univ_of_subsingleton (0 : Fin 1)
    ihave Hg' := (Entails.of_eq e1) $$ Hg
    ihave Ht' := (Entails.of_eq e2) $$ Ht
    isplitl [Hg']
    · iexact Hg'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r3' : DevRef τ sig := Proc.devRef .tc (main_v3 : Ref sig .tc)
abbrev r6' : DevRef τ sig := Proc.devRef .tc (main_v6 : Ref sig .tc)
abbrev r7' : DevRef τ sig := Proc.devRef .tc (main_v7 : Ref sig .tc)

/-- The arrays the end of @main speaks of. -/
abbrev S6 : Finset (DevRef τ sig) := {a0', a1', r0', r3', r6', r7'}

omit m ρ in
theorem S6_sub : S6 ⊆ Pipeline.ucRefs τ sig := by decide

omit m ρ in
theorem held_S6 (d : Dev nD) (W : Valuation τ sig (Elt F)) :
    (held (T d) S6 W : sProp 𝕄)
      = iprop((a0Loc d ↦{fullShare} W a0') ∗ (a1Loc d ↦{fullShare} W a1') ∗ (((SparseCore.T d).loc main_v0) ↦{fullShare} W r0')
          ∗ (((SparseCore.T d).loc main_v3) ↦{fullShare} W r3') ∗ (v6Loc d ↦{fullShare} W r6') ∗ (v7Loc d ↦{fullShare} W r7')) := by
  unfold held S6
  rw [SparseCore.bigSep_insert' (by decide), SparseCore.bigSep_insert' (by decide), SparseCore.bigSep_insert' (by decide),
    SparseCore.bigSep_insert' (by decide), SparseCore.bigSep_insert' (by decide), bigSep_singleton]

variable [FloatOps F]

/-- The trimmed tokens, as the region leaves them. -/
abbrev trimOf (d : Dev nD) : FVec F S16x1024x1024 .f32 := Cert.Spec.trimmed (tokOf m d) (Cert.Spec.maskCol (mskOf m d))

/-- The region writes the trimmed-tokens array and nothing else. -/
theorem update_val (d : Dev nD) (X : (⟨S16x1024x1024, .f32⟩ : BufTy).Contents (Elt F)) :
    (Function.update (fun b : Ref sig .tc => VA m d (Proc.devRef .tc b)) main_v3 X) = fun b : Ref sig .tc => VR m d X (Proc.devRef .tc b) := by
  funext b; unfold VR
  by_cases h : b = main_v3
  · subst h; rw [Function.update_self, Function.update_self]
  · rw [Function.update_of_ne h, Function.update_of_ne (StableHlo.devRef_ne_of_ne h)]

/-- What the call takes for the two SparseCores, and what it hands back. -/
theorem st0_eq (d : Dev nD) : (bigSep Finset.univ fun c : Fin ((K (F := F)).nCore 0) => (P m).st 0 d c)
    = iprop((v6Pts d (flatOf m d) ∗ ∃ f, v7Pts d f) ∗ emp) := by
  show (bigSep (Finset.univ : Finset (Fin 2)) fun c => forCore m d c.val) = _
  rw [show (Finset.univ : Finset (Fin 2)) = {0, 1} by decide, SparseCore.bigSep_insert' (by decide), bigSep_singleton]
  show iprop(forCore m d 0 ∗ forCore m d 1) = _
  unfold forCore; rw [if_pos rfl, if_neg Nat.one_ne_zero]
theorem dn0_eq (d : Dev nD) : (bigSep Finset.univ fun c : Fin ((K (F := F)).nCore 0) => (P m).dn 0 d c)
    = iprop((v6Pts d (flatOf m d) ∗ v7Pts d (Cert.Spec.lengths (flatOf m d))) ∗ emp) := by
  show (bigSep (Finset.univ : Finset (Fin 2)) fun c => fromCore m d c.val) = _
  rw [show (Finset.univ : Finset (Fin 2)) = {0, 1} by decide, SparseCore.bigSep_insert' (by decide), bigSep_singleton]
  show iprop(fromCore m d 0 ∗ fromCore m d 1) = _
  unfold fromCore; rw [if_pos rfl, if_neg Nat.one_ne_zero]

/-- What @main leaves the claim: the two arguments as launched and the three results at their values. -/
abbrev FIN (d : Dev nD) : sProp 𝕄 :=
  iprop((a0Loc d ↦{fullShare} tokOf m d) ∗ (a1Loc d ↦{fullShare} mskOf m d) ∗ (((SparseCore.T d).loc main_v3) ↦{fullShare} trimOf m d)
    ∗ (((SparseCore.T d).loc main_v0) ↦{fullShare} Cert.Spec.maskCut (mskOf m d)) ∗ (v7Loc d ↦{fullShare} Cert.Spec.lengths (flatOf m d)))

omit m ρ [FloatOps F] in
/-- The TensorCore owes nothing at the kernels' own index. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [main_eq, show (unscopedBufs d fun b => m ((SparseCore.T d).loc b)) = held (T d) (Pipeline.ucRefs τ sig) (V0 m d) from Pipeline.unscopedBufs_held d (V0 m d)]
  iintro ⟨#Hctx, Hst, ⟨Hb, Hheld, -, -⟩, ⟨Hcg, Hti⟩⟩
  -- the three host operations before the region
  iapply (StableHlo.wp_seq 𝒱 none Set.univ d (Pipeline.ucRefs τ sig) _ opsA opsA_sub opsA_fresh (V0 m d)) $$ [Hb Hheld]
  · isplitl [Hb] <;> iassumption
  iintro ⟨Hb, Hheld⟩
  -- the region: the TensorCore's debt and ghost state handed in, the trimmed tokens written
  unfold SparseCore.Cfg.tcSt
  icases Hst with ⟨⟨%W, %hW, HO⟩, Hat, Hrd, Hrs, Htoks⟩
  ihave Hlv := (SparseCore.Cfg.ctx_levAts κ) $$ Hctx
  have hWn : ∀ p ∈ W, p.2 = none := fun p hp => by
    have h := hW p hp
    rcases hq : p.2 with _ | q
    · rfl
    · rw [hq] at h; have := (K (F := F)).lev_some_pos ((SparseCore.T d : Thread nD τ), p.1) q; omega
  ihave Hub := (Entails.of_eq (Pipeline.unscopedBufs_held d (VA m d)).symm) $$ Hheld
  iapply (region_wp (F := F) d (fun b => VA m d (Proc.devRef .tc b)) ((K (F := F)).Otc d 0) (Otc_none (F := F) d) _ _) $$ [Hb Hub HO Hlv Hcg Hti Hat Hrd Hrs Htoks]
  isplitl [Hb]; · iexact Hb
  isplitl [Hub]; · iexact Hub
  isplitl [HO]
  · iexists W; isplitr; · ipureintro; exact hWn
    iexact HO
  isplitl [Hlv]; · iexact Hlv
  isplitl [Hcg]; · iexact Hcg
  isplitl [Hti]; · iexact Hti
  iintro ⟨Hb, Hub, ⟨%W1, %hW1, HO⟩⟩
  have hval : (Function.update (fun b : Ref sig .tc => VA m d (Proc.devRef .tc b)) main_v3
        (Cert.Spec.trimmed (VA m d a0') (VA m d (Proc.devRef .tc (main_v2 : Ref sig .tc)))))
      = fun b : Ref sig .tc => VR m d (trimOf m d) (Proc.devRef .tc b) := by
    rw [show VA m d a0' = tokOf m d from VA_arg0 m d,
      show VA m d (Proc.devRef .tc (main_v2 : Ref sig .tc)) = Cert.Spec.maskCol (mskOf m d) from VA_v2 m d]
    exact update_val m d (trimOf m d)
  ihave Hheld := (Entails.of_eq ((congrArg (unscopedBufs d) hval).trans (Pipeline.unscopedBufs_held d (VR m d (trimOf m d))))) $$ Hub
  -- the three host operations after the region
  iapply (StableHlo.wp_seq 𝒱 none Set.univ d (Pipeline.ucRefs τ sig) _ opsB opsB_sub opsB_fresh (VR m d (trimOf m d))) $$ [Hb Hheld]
  · isplitl [Hb] <;> iassumption
  iintro ⟨Hb, Hheld⟩
  -- the arrays the rest of @main speaks of, out of all the unscoped ones
  ihave Hh := (Entails.of_eq ((StableHlo.held_sub_split (T d) S6_sub (VB m d (trimOf m d))).trans
    (congrArg (fun X => iprop(X ∗ held (T d) (Pipeline.ucRefs τ sig \ S6) (VB m d (trimOf m d)))) (held_S6 (F := F) d (VB m d (trimOf m d)))))) $$ Hheld
  icases Hh with ⟨⟨Ha0, Ha1, Hr0, Hr3, Hr6, Hr7⟩, -⟩
  ihave Ha0 := (Entails.of_eq (congrArg (fun f => (a0Loc d ↦{fullShare} f : sProp 𝕄)) (VB_arg0 m d (trimOf m d)))) $$ Ha0
  ihave Ha1 := (Entails.of_eq (congrArg (fun f => (a1Loc d ↦{fullShare} f : sProp 𝕄)) (VB_arg1 m d (trimOf m d)))) $$ Ha1
  ihave Hr0 := (Entails.of_eq (congrArg (fun f => (((SparseCore.T d).loc main_v0) ↦{fullShare} f : sProp 𝕄)) (VB_v0 m d (trimOf m d)))) $$ Hr0
  ihave Hr3 := (Entails.of_eq (congrArg (fun f => (((SparseCore.T d).loc main_v3) ↦{fullShare} f : sProp 𝕄)) (VB_v3 m d (trimOf m d)))) $$ Hr3
  ihave Hr6 := (Entails.of_eq (congrArg (fun f => (v6Loc d ↦{fullShare} f : sProp 𝕄)) (VB_v6 m d (trimOf m d)))) $$ Hr6
  -- the SparseCore call: the flat mask and the result array to SparseCore 0 and back
  rw [wp_bind]
  iapply ((K (F := F)).wp_run (D (F := F)) 𝒱 (EH := EH) (P := P m) κ d 0) $$ [HO Hat Hrd Hrs Htoks Hr6 Hr7 Ha0 Ha1 Hr0 Hr3]
  isplitr; · iexact Hctx
  isplitl [HO Hat Hrd Hrs Htoks]
  · unfold SparseCore.Cfg.tcSt
    isplitl [HO]
    · iexists W1; isplitr
      · ipureintro; intro p hp; show (K (F := F)).lev (SparseCore.T d, p.1) p.2 ≤ 8 * 0
        rw [hW1 p hp]; exact Nat.zero_le _
      · iexact HO
    isplitl [Hat]; · iexact Hat
    isplitl [Hrd]; · iexact Hrd
    isplitl [Hrs]; · iexact Hrs
    iexact Htoks
  isplitl [Hr6 Hr7]
  · rw [st0_eq]
    isplitl [Hr6 Hr7]
    · isplitl [Hr6]; · iexact Hr6
      iexists _; iexact Hr7
    · iempintro
  iintro ⟨Hst, Hdn⟩
  unfold SparseCore.Cfg.tcSt
  ihave Hdn' := (Entails.of_eq (dn0_eq m d)) $$ Hdn
  icases Hdn' with ⟨⟨-, H7⟩, -⟩
  rw [wp_pure]; imodintro
  isplitl [Hst]; · iexact Hst
  isplitl [Ha0]; · iexact Ha0
  isplitl [Ha1]; · iexact Ha1
  isplitl [Hr3]; · iexact Hr3
  isplitl [Hr0]; · iexact Hr0
  iexact H7

/-! ## The final assertions read the claim -/

def fq (d : Dev nD) (s' : Phys nD τ sig (Elt F)) : Prop :=
  s'.mem.mem ((SparseCore.T d).loc main_arg0) = tokOf m d ∧ s'.mem.mem ((SparseCore.T d).loc main_arg1) = mskOf m d
    ∧ s'.mem.mem ((SparseCore.T d).loc main_v3) = trimOf m d ∧ s'.mem.mem ((SparseCore.T d).loc main_v0) = Cert.Spec.maskCut (mskOf m d)
    ∧ s'.mem.mem ((SparseCore.T d).loc main_v7) = Cert.Spec.lengths (flatOf m d)

theorem hfin (d : Dev nD) (s' : Phys nD τ sig (Elt F)) : iprop(FIN m d ∗ SI s') ⊢ (⌜fq m d s'⌝ : sProp 𝕄) := by
  iintro ⟨⟨H0, H1, H3, Hv0, H7⟩, HSI⟩
  iapply (read_five (F := F) d s' (tokOf m d) (mskOf m d) (trimOf m d) (Cert.Spec.maskCut (mskOf m d)) (Cert.Spec.lengths (flatOf m d)))
  isplitl [H0]; · iexact H0
  isplitl [H1]; · iexact H1
  isplitl [H3]; · iexact H3
  isplitl [Hv0]; · iexact Hv0
  isplitl [H7]; · iexact H7
  iexact HSI

/-! ## The program's run -/

/-- Every result at its value, the arguments as launched. -/
def QC : PUnit × MemSt nD τ sig (Elt F) → Prop := fun r => ∀ c : Dev nD,
    r.2.mem ((SparseCore.T c).loc main_v3) = trimOf m c ∧ r.2.mem ((SparseCore.T c).loc main_v0) = Cert.Spec.maskCut (mskOf m c)
    ∧ r.2.mem ((SparseCore.T c).loc main_v7) = Cert.Spec.lengths (flatOf m c)
    ∧ r.2.mem ((SparseCore.T c).loc main_arg0) = m ((SparseCore.T c).loc main_arg0) ∧ r.2.mem ((SparseCore.T c).loc main_arg1) = m ((SparseCore.T c).loc main_arg1)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun _ h c => ⟨(h c).2.2.1, (h c).2.2.2.1, (h c).2.2.2.2, (h c).1, (h c).2.1⟩)

end Cert.Proof.KI

end
-- ==== Proof.Bits.Common.lean ====
/-
  What every module about the kernel program shares: the program as the SparseCore launch theorem sees
  it (its labels, its call table, its body table, its variants), the resource algebra — the handshakes' rounds, the
  TensorCore pipeline's rounds, and the counters of local copies side by side — and the three embeddings.
-/
import proofs.«212586_g28561532518402_cont_9to1_840_6_alg».proof.Proof.Gen.Kernel
import proofs.«212586_g28561532518402_cont_9to1_840_6_alg».proof.Proof.Gen.Kernel.Launch
import proofs.«212586_g28561532518402_cont_9to1_840_6_alg».proof.Proof.Gen.Kernel.Points
import proofs.«212586_g28561532518402_cont_9to1_840_6_alg».proof.Proof.Gen.Kernel.Skeleton
import proofs.«212586_g28561532518402_cont_9to1_840_6_alg».proof.Proof.Spec
import Idealize.ShloMosaic.Lib.SparseCore.Launch
import Idealize.ShloMosaic.Lib.Pipeline.Kit
import Idealize.ShloMosaic.Lib.Pipeline.Regions
import Idealize.ShloMosaic.Lib.StableHlo.Run
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The pipeline's admissible tables: it prefetches none. -/
abbrev adm : (p : Fin 1) → (pcfgs (F := F) p).Adm := fun p => (cfgs p).toPCfg_adm

/-! ## The resource algebra -/

/-- The handshakes' rounds (duties named by numbers). -/
abbrev UH : Type := URounds (GSem nD τ sig) ℕ
/-- The TensorCore pipeline's rounds (its staging cells). -/
abbrev UP : Type := UR sig nD τ
/-- Both, beside the counters of the transfers a subcore makes and waits for by itself. -/
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

end Cert.Proof.KB

end
-- ==== Proof.Bits.TileMath.lean ====
/-
  The arithmetic of the SparseCore task: the 1024 chunks of 16 words of the flat mask, added lane by lane.
-/
import proofs.«212586_g28561532518402_cont_9to1_840_6_alg».proof.Proof.Bits.Common
import Idealize.ShloMosaic.Lib.Pipeline.Value

noncomputable section

namespace Cert.Proof.KB

open Cert.Kernel Cert.Kernel.Gen
open Idealize.ShloMosaic

variable {F : FTy → Type}

/-- Chunk `s` of the flat mask: its 16 words `16 * s + b`. -/
def chunk (flat : IVec S16384 32) (s : ℕ) : IVec S16 32 := fun j => flat (Cert.Spec.flatIdx s j)

/-- The lane sums of the chunks before `s`. -/
def partialSum (flat : IVec S16384 32) : ℕ → IVec S16 32
  | 0 => fun _ => 0#32
  | s + 1 => fun j => partialSum flat s j + chunk flat s j

/-- The loop makes 1024 trips. -/
theorem trips_eq : Scf.trips k1_t1_loop.lb k1_t1_loop.ub k1_t1_loop.st = 1024 := by
  decide

/-- The lane sums of the chunks before s, as sums of the flat mask's words. -/
theorem partialSum_eq_sum (flat : IVec S16384 32) (n : ℕ) (j : S16.Idx) :
    partialSum flat n j = ∑ s ∈ Finset.range n, flat (Cert.Spec.flatIdx s j) := by
  induction n with
  | zero => rw [Finset.sum_range_zero]; rfl
  | succ n ih => rw [Finset.sum_range_succ, ← ih]; rfl

variable [FloatOps F]

/-- One trip: the carried sums and the chunk loaded from the scratch copy of the flat mask give the next sums. -/
theorem step_eq (flat : IVec S16384 32) (k : Fin (Scf.trips k1_t1_loop.lb k1_t1_loop.ub k1_t1_loop.st))
    (inb : ∀ a, (k1_off1 k) a + S16.size a ≤ S16384.size a) :
    k1_pay2 (F := F) (partialSum flat k.val)
        (View.readAt (Elt F) (Memref.whole cc1_scratch0 : Memref sig .scVector .vmem S16384 .i32).view (Rect.unit (s := S16384) (k1_off1 k) S16.size inb).toLoadRect flat)
      = partialSum flat (k.val + 1) := by
  have hk : k.val < 1024 := lt_of_lt_of_eq k.isLt trips_eq
  funext j
  have hj : (j 0).val < 16 := (j 0).isLt
  -- word x of the 16 read at offset 16 k is word 16 k + x of the flat mask
  have hidx : (Rect.unit (s := S16384) (k1_off1 k) S16.size inb).toLoadRect.idx j = Cert.Spec.flatIdx k.val j := by
    funext a
    apply Fin.ext
    obtain rfl : a = 0 := Subsingleton.elim _ _
    rw [LoadRect.idx_apply]
    show k1_off1 k 0 + 1 * (j 0).val = (16 * k.val + (j 0).val) % 16384
    rw [Gen.k1_off1_eq]
    show 16 * k.val + 1 * (j 0).val = (16 * k.val + (j 0).val) % 16384
    omega
  unfold k1_pay2
  rw [shapeCast_self]
  show partialSum flat k.val j + _ = partialSum flat k.val j + chunk flat k.val j
  congr 1
  simp only [View.readAt_apply, Memref.view_whole, View.read_whole]
  exact congrArg flat hidx

omit [FloatOps F] in
/-- After the last trip: `1024 - sums` is the lengths. -/
theorem lengths_of_sum (flat : IVec S16384 32) : k1_pay3 (partialSum flat 1024) = Cert.Spec.lengths flat := by
  funext j
  unfold k1_pay3 Cert.Spec.lengths
  rw [shapeCast_self]
  show 1024#32 - partialSum flat 1024 j = _
  rw [partialSum_eq_sum]

end Cert.Proof.KB

end
-- ==== Proof.Bits.Tile.lean ====
/-
  The SparseCore kernel as one vector subcore's task.

  Only subcore 0 of SparseCore 0 works: it copies the flat mask (16384 words, position-major) into its first scratch
  buffer, adds the 1024 chunks of 16 words lane by lane starting from zero, stores `1024 - sum` into its second scratch
  buffer and copies that out to the result. Lane `b` of the sum is `Σ_{s < 1024} flat (16 * s + b)`, so the result
  is `Spec.lengths flat`. Every other subcore takes the empty branch.
-/
import proofs.«212586_g28561532518402_cont_9to1_840_6_alg».proof.Proof.Bits.TileMath
import Idealize.ShloMosaic.Lib.Pipeline.FrameBody
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "v6W" => (Memref.whole Cert.Kernel.main_v6_scv : Memref Cert.Kernel.sig Kind.scVector Space.hbm Cert.Kernel.S16384 EltTy.i32)
local notation "v7W" => (Memref.whole Cert.Kernel.main_v7_scv : Memref Cert.Kernel.sig Kind.scVector Space.hbm Cert.Kernel.S16 EltTy.i32)
local notation "s0W" => (Memref.whole Cert.Kernel.cc1_scratch0 : Memref Cert.Kernel.sig Kind.scVector Space.vmem Cert.Kernel.S16384 EltTy.i32)
local notation "s1W" => (Memref.whole Cert.Kernel.cc1_scratch1 : Memref Cert.Kernel.sig Kind.scVector Space.vmem Cert.Kernel.S16 EltTy.i32)

/-- The flat mask and the result, as locations of device `d`. -/
abbrev v6Loc (d : Dev nD) : Loc nD τ sig := (SparseCore.T d).loc main_v6
abbrev v7Loc (d : Dev nD) : Loc nD τ sig := (SparseCore.T d).loc main_v7

/-- The flat mask whole at `f`, the result whole at `f` (the TensorCore's view of the arrays). -/
abbrev v6Pts (d : Dev nD) (f : Buf (Elt F) (v6Loc d)) : sProp 𝕄 := v6Loc d ↦{fullShare} f
abbrev v7Pts (d : Dev nD) (f : Buf (Elt F) (v7Loc d)) : sProp 𝕄 := v7Loc d ↦{fullShare} f

variable [FloatOps F]

section Tile

variable (d : Dev nD) (L : grid1.Coords)

abbrev cV (L : grid1.Coords) : Fin τ.nSC := (L 0).castLE hcore1
abbrev jV (L : grid1.Coords) : Fin τ.nSub := (L 1).castLE hsub1

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

omit [FloatOps F] in
theorem pts_v6 (f : Buf (Elt F) (v6Loc d)) :
    ((v6W).view.loc (V d (cV L) (jV L)) ↦{fullShare} f : sProp 𝕄) = v6Loc d ↦{fullShare} f := by
  simp only [Memref.view_whole, View.set_whole]
omit [FloatOps F] in
theorem pts_v7 (f : Buf (Elt F) (v7Loc d)) :
    ((v7W).view.loc (V d (cV L) (jV L)) ↦{fullShare} f : sProp 𝕄) = v7Loc d ↦{fullShare} f := by
  simp only [Memref.view_whole, View.set_whole]
omit [FloatOps F] in
theorem pts_s0 (f : Buf (Elt F) ((V d (cV L) (jV L)).loc cc1_scratch0)) :
    ((s0W).view.loc (V d (cV L) (jV L)) ↦{fullShare} f : sProp 𝕄) = (V d (cV L) (jV L)).loc cc1_scratch0 ↦{fullShare} f := rfl
omit [FloatOps F] in
theorem pts_s1 (f : Buf (Elt F) ((V d (cV L) (jV L)).loc cc1_scratch1)) :
    ((s1W).view.loc (V d (cV L) (jV L)) ↦{fullShare} f : sProp 𝕄) = (V d (cV L) (jV L)).loc cc1_scratch1 ↦{fullShare} f := rfl

omit [FloatOps F] in
/-- What the copy-out leaves in the result: the one whole-row store into the second scratch buffer. -/
theorem out_value [∀ e, Nonempty (Elt F e)] (fs1 : Buf (Elt F) ((V d (cV L) (jV L)).loc cc1_scratch1)) (f7 : Buf (Elt F) (v7Loc d)) (w : IVec S16 32) :
    View.write (Elt F) (v7W).view f7
        (ReadAs.same.apply (View.read (Elt F) (s1W).view ((s1W).view.writes (Elt F) fs1 [⟨Rect.unit (s := S16) ![0] S16.size inb_S16_S16_0, w⟩])))
        Finset.univ = w := by
  have hz : (![0] : Fin S16.rank → Nat) = fun _ => 0 := by funext a; fin_cases a; rfl
  have hcov : ∀ y : S16.Idx, ∃ p ∈ ([⟨Rect.unit (s := S16) ![0] S16.size inb_S16_S16_0, w⟩] : List (View.Piece (Elt F) S16 .i32)), y ∈ p.1.set :=
    fun y => ⟨_, List.mem_singleton_self _, View.mem_set_unit_zero (S := S16) hz inb_S16_S16_0 y⟩
  rw [ReadAs.apply_same, View.read_writes_eq_canon _ _ _ hcov, View.canon_unit_zero (Val := Elt F) (S := S16) (e := .i32) hz inb_S16_S16_0 w]
  simp only [Memref.view_whole, View.write_whole_univ]

/-- The loop's invariant: the first scratch buffer holds the flat mask, the carried vector the sums so far. -/
def inv (flat : IVec S16384 32) (k : Nat) (acc : IVec S16 32) : sProp 𝕄 :=
  iprop(⌜acc = partialSum flat k⌝ ∗ ((s0W).view.loc (V d (cV L) (jV L)) ↦{fullShare} flat))

/-- The working subcore's task. -/
theorem tile_work (hF : (K (F := F)).Facts) (hL : k1_cond1 L = 1#1) (flat : IVec S16384 32)
    (O : CellTallies nD τ sig (HIx 1)) (W : Waits sig (HIx 1)) (hO : ∀ g, O g none = 0) :
    iprop(levAts (K (F := F)).L (K (F := F)).lev ∗ (v6Pts d flat ∗ ∃ f, v7Pts d f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L v6W (Memref.isWhole_whole _) v7W (Memref.isWhole_whole _) s0W (Memref.isWhole_whole _) s1W (Memref.isWhole_whole _) cc1_scoped0 cc1_scoped1)
          fun _ => iprop((v6Pts d flat ∗ v7Pts d (Cert.Spec.lengths flat)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  iintro ⟨#Hlv, ⟨H6, %f7, H7⟩, ⟨⟨%fs0, Hs0⟩, ⟨%fs1, Hs1⟩, Hbufs⟩, ⟨HsemA, HsemB, Hsems⟩, HO⟩
  ihave Hmw := ((K (F := F)).mayWaits_none (thr := V d (cV L) (jV L)) hO) $$ Hlv
  ihave H6' := (Entails.of_eq (pts_v6 (F := F) d L _).symm) $$ H6
  ihave H7' := (Entails.of_eq (pts_v7 (F := F) d L _).symm) $$ H7
  ihave Hs0' := (Entails.of_eq (pts_s0 (F := F) d L _).symm) $$ Hs0
  ihave Hs1' := (Entails.of_eq (pts_s1 (F := F) d L _).symm) $$ Hs1
  sl_exec
  have hg : View.write (Elt F) (s0W).view fs0 (tile_work.sl.dma0 (F := F) flat) Finset.univ = flat := by
    rw [View.write_whole_univ]; unfold tile_work.sl.dma0; exact View.read_whole _ _
  rw [hg]
  sl_for (inv (F := F) d L flat) $$ [Hs0']
  case region =>
    intro k acc
    unfold inv
    iintro ⟨%hacc, Hs0⟩
    sl_exec
    sl_step
    isplitr
    · ipureintro; rw [hacc]; exact step_eq flat k _
    · iexact Hs0
  · unfold inv
    isplitr
    · ipureintro; rfl
    · iexact Hs0'
  iintro %acc HI
  unfold inv
  icases HI with ⟨%hacc, Hs0⟩
  sl_exec
  sl_step
  have h7 : View.write (Elt F) (v7W).view f7 (tile_work.sl.dma2 (F := F) d L fs1 acc) Finset.univ = Cert.Spec.lengths flat := by
    rw [hacc, trips_eq]
    unfold tile_work.sl.dma2 tile_work.sl.Hs1'_1
    exact (out_value (F := F) d L fs1 f7 _).trans (lengths_of_sum flat)
  rw [h7]
  isplitl [H6' H7']
  · isplitl [H6']
    · iapply (Entails.of_eq (pts_v6 (F := F) d L _)); iexact H6'
    · iapply (Entails.of_eq (pts_v7 (F := F) d L _)); iexact H7'
  isplitl [Hs0 Hs1' Hbufs]
  · isplitl [Hs0]; · iexists _; iexact Hs0
    isplitl [Hs1']; · iexists _; iexact Hs1'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with rfl | hp
  · exact .inr rfl
  rcases Finset.mem_insert.mp hp with rfl | hp
  · exact .inr rfl
  · exact .inl hp

end Tile

end Cert.Proof.KB

end
-- ==== Proof.Bits.Pay.lean ====
/-
  What the SparseCore call's handshakes carry, and the launch theorem's obligations for the kernel.

  The one call hands SparseCore 0 the flat mask (at the contents the host operations computed from the mask argument)
  and the result array, SparseCore 1 nothing; SparseCore 0's sequencer hands both to its subcore 0 and nothing to the
  others; they come back the same way, the result at `Spec.lengths` of the flat mask.
-/
import proofs.«212586_g28561532518402_cont_9to1_840_6_alg».proof.Proof.Bits.Tile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v6W" => (Memref.whole Cert.Kernel.main_v6_scv : Memref Cert.Kernel.sig Kind.scVector Space.hbm Cert.Kernel.S16384 EltTy.i32)
local notation "v7W" => (Memref.whole Cert.Kernel.main_v7_scv : Memref Cert.Kernel.sig Kind.scVector Space.hbm Cert.Kernel.S16 EltTy.i32)
local notation "s0W" => (Memref.whole Cert.Kernel.cc1_scratch0 : Memref Cert.Kernel.sig Kind.scVector Space.vmem Cert.Kernel.S16384 EltTy.i32)
local notation "s1W" => (Memref.whole Cert.Kernel.cc1_scratch1 : Memref Cert.Kernel.sig Kind.scVector Space.vmem Cert.Kernel.S16 EltTy.i32)

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1

/-- The flat position-major mask the host operations compute from the mask argument. -/
def flatOf (d : Dev nD) : IVec S16384 32 := Cert.Spec.maskFlat (m (a1Loc d))

/-- What the call hands SparseCore number `c`: the flat mask and the result array for SparseCore 0, nothing for 1. -/
def forCore (d : Dev nD) (c : ℕ) : sProp 𝕄 := if c = 0 then iprop(v6Pts d (flatOf m d) ∗ ∃ f, v7Pts d f) else iprop(emp)
/-- What it takes back: the result at the lengths. -/
def fromCore (d : Dev nD) (c : ℕ) : sProp 𝕄 :=
  if c = 0 then iprop(v6Pts d (flatOf m d) ∗ v7Pts d (Cert.Spec.lengths (flatOf m d))) else iprop(emp)
/-- The same for subcore `i` of SparseCore `c`: only subcore 0 of SparseCore 0 is handed anything. -/
def forTile (d : Dev nD) (c i : ℕ) : sProp 𝕄 := if c = 0 ∧ i = 0 then iprop(v6Pts d (flatOf m d) ∗ ∃ f, v7Pts d f) else iprop(emp)
def fromTile (d : Dev nD) (c i : ℕ) : sProp 𝕄 :=
  if c = 0 ∧ i = 0 then iprop(v6Pts d (flatOf m d) ∗ v7Pts d (Cert.Spec.lengths (flatOf m d))) else iprop(emp)

instance forCore_storable (d : Dev nD) (c : ℕ) : BI.Storable (upEmb : UEmb _ 𝕄) (forCore m d c) := by
  unfold forCore; split <;> infer_instance
instance fromCore_storable (d : Dev nD) (c : ℕ) : BI.Storable (upEmb : UEmb _ 𝕄) (fromCore m d c) := by
  unfold fromCore; split <;> infer_instance
instance forTile_storable (d : Dev nD) (c i : ℕ) : BI.Storable (upEmb : UEmb _ 𝕄) (forTile m d c i) := by
  unfold forTile; split <;> infer_instance
instance fromTile_storable (d : Dev nD) (c i : ℕ) : BI.Storable (upEmb : UEmb _ 𝕄) (fromTile m d c i) := by
  unfold fromTile; split <;> infer_instance

/-- The call's payloads; the kernel's proof consumes nothing of the launch's. -/
def P : (K (F := F)).Pay (nD := nD) (Val := Elt F) (Name := ℕ) (U := UU) where
  st := fun _ d c => forCore m d c.val
  dn := fun _ d c => fromCore m d c.val
  go := fun _ d c i => forTile m d c.val i.val
  td := fun _ d c i => fromTile m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

variable [FloatOps F]

/-! ## The task on every subcore -/

def coordsV (c : Fin (grid1.bound 0)) (s : Fin (grid1.bound 1)) : grid1.Coords :=
  fun | 0 => c | 1 => s | ⟨_ + 2, h⟩ => absurd h (Nat.not_lt.2 (Nat.le_add_left _ _))

omit [FloatOps F] in
/-- The kernel's branch is taken on subcore 0 of SparseCore 0 and nowhere else. -/
theorem cond_iff : ∀ (c : Fin (grid1.bound 0)) (s : Fin (grid1.bound 1)), k1_cond1 (coordsV c s) = 1#1 ↔ (c.val = 0 ∧ s.val = 0) := by
  decide

/-- An idle subcore's task: the empty branch. -/
theorem tile_idle (d : Dev nD) (L : grid1.Coords) (hL : ¬ k1_cond1 L = 1#1)
    (O : CellTallies nD τ sig (HIx 1)) (W : Waits sig (HIx 1)) :
    iprop(levAts (K (F := F)).L (K (F := F)).lev ∗ (emp : sProp 𝕄)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L v6W (Memref.isWhole_whole _) v7W (Memref.isWhole_whole _) s0W (Memref.isWhole_whole _) s1W (Memref.isWhole_whole _) cc1_scoped0 cc1_scoped1)
          fun _ => iprop((emp : sProp 𝕄) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  iintro ⟨-, -, Hsb, Hss, HO⟩
  sl_exec
  sl_step
  isplitr; · iempintro
  isplitl [Hsb]; · iexact Hsb
  isplitl [Hss]; · iexact Hss
  iexists W; isplitr
  · ipureintro; exact fun p hp => .inl hp
  · iexact HO

theorem defs₀_vector (c : Fin τ.nSC) (s : Fin τ.nSub) :
    defs₀ (F := F) (.scVector c s) 1 ()
      = SparseCore.onTile hcore1 hsub1 (fun c s => cc1_k (coordsV c s)
          v6W (Memref.isWhole_whole _) v7W (Memref.isWhole_whole _) s0W (Memref.isWhole_whole _) s1W (Memref.isWhole_whole _) cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] m in
theorem drop_second {A B C : sProp 𝕄} : iprop(A ∗ B ∗ C) ⊢ iprop(A ∗ C) := by
  iintro ⟨HA, -, HC⟩
  isplitl [HA]; · iexact HA
  iexact HC

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ _ ∗ forTile m d c.val i.val ∗ _) ⊢ wp _ _ _ _ (fun _ => iprop(fromTile m d c.val i.val ∗ _))
  by_cases h : c.val = 0 ∧ i.val = 0
  · have hL : k1_cond1 (coordsV ⟨_, hc.1⟩ ⟨_, hc.2⟩) = 1#1 := (cond_iff _ _).mpr h
    unfold forTile fromTile; rw [if_pos h, if_pos h]
    exact drop_second.trans ((tile_work d (coordsV ⟨_, hc.1⟩ ⟨_, hc.2⟩) hF hL (flatOf m d) O W hO).trans (wp_mono frame _ _ fun _ => obl_post))
  · have hL : ¬ k1_cond1 (coordsV ⟨_, hc.1⟩ ⟨_, hc.2⟩) = 1#1 := fun e => h ((cond_iff _ _).mp e)
    unfold forTile fromTile; rw [if_neg h, if_neg h]
    exact drop_second.trans ((tile_idle d (coordsV ⟨_, hc.1⟩ ⟨_, hc.2⟩) hL O W).trans (wp_mono frame _ _ fun _ => obl_post))

/-! ## How SparseCore 0's share goes to its subcore 0 and comes back -/

omit [FloatOps F] in
theorem nSub_zero : (K (F := F)).nSub 0 = 16 := rfl

omit [FloatOps F] in
/-- A family over the sixteen subcores that is `X` on subcore 0 of SparseCore 0 and `emp` elsewhere is, on SparseCore
    `c`, `X` if `c = 0` and `emp` otherwise. -/
theorem tiles_eq (c : ℕ) (X : sProp 𝕄) :
    (bigSep Finset.univ fun i : Fin ((K (F := F)).nSub 0) => if c = 0 ∧ i.val = 0 then X else iprop(emp))
      = iprop((if c = 0 then X else iprop(emp)) ∗ emp) := by
  rw [SparseCore.bigSep_erase' (Finset.mem_univ (Fin.cast (nSub_zero (F := F)).symm (0 : Fin 16)))]
  congr 1
  · by_cases hc : c = 0 <;> simp [hc]
  · rw [bigSep_congr (fun i hi => if_neg (fun h => (Finset.mem_erase.mp hi).1 (Fin.ext h.2)))]
    exact bigSep_emp_const _

theorem vecSplit : (K (F := F)).VecSplit' (P m) 0 := by
  intro d c
  show forCore m d c.val ⊢ |={Set.univ}=> iprop(
      (bigSep Finset.univ fun i : Fin ((K (F := F)).nSub 0) => forTile m d c.val i.val)
      ∗ ((bigSep Finset.univ fun i : Fin ((K (F := F)).nSub 0) => fromTile m d c.val i.val) -∗ fromCore m d c.val))
  unfold forTile fromTile
  rw [tiles_eq, tiles_eq]
  unfold forCore fromCore
  iintro H; imodintro
  isplitl [H]
  · isplitl [H]; · iexact H
    iempintro
  · iintro ⟨H, -⟩; iexact H

end Cert.Proof.KB

end
-- ==== Proof.Bits.RegionBody.lean ====
/-
  The kernel body of the TensorCore region, run once: on whole staging memrefs — the tokens' block, the mask column's
  block and the output's block at anything — it leaves the two inputs as they were and the output's buffer at the
  select of the zero constant and the tokens by the mask column (its one store, over the payload of the two loads).
-/
import proofs.«212586_g28561532518402_cont_9to1_840_6_alg».proof.Proof.Bits.Common
import Idealize.ShloMosaic.Lib.Pipeline.FrameBody
import Idealize.ShloMosaic.Lib.Tactic

set_option maxRecDepth 16384

noncomputable section

namespace Cert.Proof.KB.Rgn

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses -/

/-- The whole tokens block (and the whole output block: the same shape). -/
abbrev rTok : Rect S1x256x1024 := Rect.unit (s := S1x256x1024) ![0, 0, 0] S1x256x1024.size inb_S1x256x1024_S1x256x1024_0_0_0
/-- The whole mask-column block. -/
abbrev rCol : Rect S1x256x1 := Rect.unit (s := S1x256x1) ![0, 0, 0] S1x256x1.size inb_S1x256x1_S1x256x1_0_0_0

/-! ## What the body leaves in the output window's buffer -/

/-- The output's staging buffer after the body, from the tokens' block and the mask column's block: its one
    store, of the payload of the two loads. -/
def outBlk (x0 : Vec F S1x256x1024 .f32) (x1 : Vec F S1x256x1 .i32) : Vec F S1x256x1024 .f32 :=
  View.canon [⟨rTok, k0_pay1 (View.ld x1 rCol) (View.ld x0 rTok)⟩]

/-- The store fills the buffer. -/
theorem outCover (p0 : Vec F S1x256x1024 .f32) (y : S1x256x1024.Idx) :
    ∃ pc ∈ ([⟨rTok, p0⟩] : List (View.Piece (Elt F) S1x256x1024 .f32)), y ∈ pc.1.set :=
  View.cover_of_tiled [⟨rTok, p0⟩] S1x256x1024.size (by rfl) y

/-! ## The body's triple -/

set_option maxHeartbeats 1000000 in
/-- The kernel body on whole staging memrefs, the inputs' at read contents and the output's at anything, runs to the
    continuation holding the inputs' as they were and the output's at the block above of the inputs'. -/
theorem sound_kernel (c : Dev nD) (E : Set ℕ) (i : grid0.Coords)
    (arg2 : Memref sig .tc .vmem S1x256x1024 .f32) (harg2 : arg2.IsWhole) (arg3 : Memref sig .tc .vmem S1x256x1 .i32) (harg3 : arg3.IsWhole)
    (arg4 : Memref sig .tc .vmem S1x256x1024 .f32) (harg4 : arg4.IsWhole)
    (x0 : Vec F S1x256x1024 .f32) (x1 : Vec F S1x256x1 .i32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__fill_body i arg2 harg2 arg3 harg3 arg4 harg4) K := by
  simp only [cc0__fill_body_eq_skeleton]; unfold cc0__fill_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

end Cert.Proof.KB.Rgn

end
-- ==== Proof.Bits.RegionData.lean ====
/-
  The proof data of the TensorCore region's pipeline on each core, from the contents the region finds in the core's
  unscoped buffers and the tallies the core owes throughout (its start signals to the SparseCore call that follows):
  the windows' arrays as found; after the body at a point each input's buffer at its block and the output's at the
  select of the two blocks; no invariant of the body's own; the tallies constant, the recorded pairs at the kernel's own
  index. And the body obligation at every point.
-/
import proofs.«212586_g28561532518402_cont_9to1_840_6_alg».proof.Proof.Bits.RegionBody

set_option maxRecDepth 16384

noncomputable section

namespace Cert.Proof.KB.Rgn

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vs : (c : Dev nD) → (b : Ref sig .tc) → Buf (Elt F) ((c : Thread nD τ).loc b)) (O : CellTallies nD τ sig (HIx 1))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vs c (Pipeline.arrRef spec0 w))

/-- An input window's current staging buffer holds its block at every point, for any proof data whose array is the
    region-entry contents and whose body leaves the block in place. -/
theorem before0_0_of {c : Dev nD} (dat : Dat τ (Elt F) (HIx 1) ℕ UU ℕ cfg0 c) (hA : dat.A 0 = Vs c (Pipeline.arrRef spec0 0))
    (hafter : ∀ t, dat.after 0 t = iblk Vs c 0 t) (t : Fin cfg0.N) (d) : dat.before 0 t d = iblk Vs c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 1) ℕ UU ℕ cfg0 c) (hA : dat.A 1 = Vs c (Pipeline.arrRef spec0 1))
    (hafter : ∀ t, dat.after 1 t = iblk Vs c 1 t) (t : Fin cfg0.N) (d) : dat.before 1 t d = iblk Vs c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The pairs the core's waits may have recorded around the region: those at the kernel's own index. -/
abbrev recd : Set (SemLoc sig × HIx 1) := {p | p.2 = none}

/-- The proof data of the one pipeline on core c. -/
def dats (_ : Fin 1) (c : Dev nD) : Dat τ (Elt F) (HIx 1) ℕ UU ℕ cfg0 c where
  A w := Vs c (Pipeline.arrRef spec0 w)
  after w t := match w with
    | ⟨0, _⟩ => iblk Vs c 0 t
    | ⟨1, _⟩ => iblk Vs c 1 t
    | ⟨2, _⟩ => outBlk (iblk Vs c 0 t) (iblk Vs c 1 t)
  Φ _ := iprop(emp)
  q _ := fullShare
  owed _ := O
  recorded _ := recd

theorem A_eq (c : Dev nD) (w : Fin cfg0.W) : (dats Vs O 0 c).A w = Vs c (Pipeline.arrRef spec0 w) := by
  dsimp only [dats]

theorem after0_0 (c : Dev nD) (t : Fin cfg0.N) : (dats Vs O 0 c).after 0 t = iblk Vs c 0 t := by dsimp only [dats]
theorem after0_1 (c : Dev nD) (t : Fin cfg0.N) : (dats Vs O 0 c).after 1 t = iblk Vs c 1 t := by dsimp only [dats]
theorem after0_2 (c : Dev nD) (t : Fin cfg0.N) : (dats Vs O 0 c).after 2 t = outBlk (iblk Vs c 0 t) (iblk Vs c 1 t) := by dsimp only [dats]

theorem before0_0 (c : Dev nD) (t : Fin cfg0.N) (d) : (dats Vs O 0 c).before 0 t d = iblk Vs c 0 t :=
  before0_0_of Vs (dats Vs O 0 c) (A_eq Vs O c 0) (after0_0 Vs O c) t d
theorem before0_1 (c : Dev nD) (t : Fin cfg0.N) (d) : (dats Vs O 0 c).before 1 t d = iblk Vs c 1 t :=
  before0_1_of Vs (dats Vs O 0 c) (A_eq Vs O c 1) (after0_1 Vs O c) t d

/-! ## The body obligation, at a generic point -/

/-- What the body is called with at point t, the windows one by one, -/
def bodyPre (c : Dev nD) (t : Fin cfg0.N) : sProp 𝕄 :=
  iprop((dats Vs O 0 c).Φ t.castSucc ∗ (dats Vs O 0 c).owesAt none t.castSucc
    ∗ (∃ d, owns (c : Thread nD τ) (st0_0 t) fullShare ((dats Vs O 0 c).before 0 t d))
    ∗ (∃ d, owns (c : Thread nD τ) (st0_1 t) fullShare ((dats Vs O 0 c).before 1 t d))
    ∗ (∃ d, owns (c : Thread nD τ) (st0_2 t) fullShare ((dats Vs O 0 c).before 2 t d)))

/-- and what it returns. -/
def bodyPost (c : Dev nD) (t : Fin cfg0.N) : sProp 𝕄 :=
  iprop((dats Vs O 0 c).Φ t.succ ∗ (dats Vs O 0 c).owesAt none t.succ
    ∗ owns (c : Thread nD τ) (st0_0 t) fullShare ((dats Vs O 0 c).after 0 t)
    ∗ owns (c : Thread nD τ) (st0_1 t) fullShare ((dats Vs O 0 c).after 1 t)
    ∗ owns (c : Thread nD τ) (st0_2 t) fullShare ((dats Vs O 0 c).after 2 t))

/-- The body at any point: the inputs' memrefs hold their blocks, so the body's triple applies; what the core owes
    passes through unread. -/
theorem sound_body (c : Dev nD) (t : Fin cfg0.N) :
    bodyPre Vs O c t ⊢ wp frame (wpE (defs₀ (F := F)) Variants.none c none) Set.univ (bodyAt0 t) (fun _ => bodyPost Vs O c t) := by
  unfold bodyPre bodyPost bodyAt0
  simp only [before0_0, before0_1]
  rw [show (dats Vs O 0 c).Φ t.succ = (dats Vs O 0 c).Φ t.castSucc from rfl,
    show (dats Vs O 0 c).owesAt none t.succ = (dats Vs O 0 c).owesAt none t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk Vs c 0 t) (iblk Vs c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) Vs O 0 c) (defs₀ (F := F)) Variants.none none Set.univ := fun t => by
  rw [bigSep_W0, bigSep_W0]
  exact sound_body Vs O c t

end Cert.Proof.KB.Rgn

end
-- ==== Proof.Bits.RegionSeg.lean ====
/-
  The TensorCore region as a segment of the main program: the pipeline's decided layout, no semaphore of the kernel's
  own, the body obligation, the evidence that the staging cells' waits sit below the start signals the core owes the
  SparseCore call that follows, and the region's protocol — entered from the core's unscoped buffers at the contents
  found and the core owing those signals, left with the output array at its final contents and the rest untouched.
  Then the region's rule under the SparseCore program's body table.
-/
import proofs.«212586_g28561532518402_cont_9to1_840_6_alg».proof.Proof.Bits.RegionData
import Idealize.ShloMosaic.Lib.Pipeline.RegionsLoop

set_option maxRecDepth 16384

noncomputable section

namespace Cert.Proof.KB.Rgn

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vs : (c : Dev nD) → (b : Ref sig .tc) → Buf (Elt F) ((c : Thread nD τ).loc b)) (O : CellTallies nD τ sig (HIx 1))
variable (Vout : (c : Dev nD) → Buf (Elt F) ((c : Thread nD τ).loc main_v3))

/-- What the core owes around the region: the constant tallies, its recorded pairs at the kernel's own index. -/
abbrev owesR (c : Dev nD) : sProp 𝕄 := iprop(∃ W, ⌜∀ p ∈ W, p.2 = (none : HIx 1)⌝ ∗ owes (c : Thread nD τ) O W)

/-- The core's unscoped buffers after the region: the output array at its final contents. -/
abbrev VsOut (c : Dev nD) : (b : Ref sig .tc) → Buf (Elt F) ((c : Thread nD τ).loc b) := Function.update (Vs c) main_v3 (Vout c)

/-- The arrays at the end of the region are the updated contents at the windows' arrays. -/
theorem arrAt_final (hfin : ∀ c, (dats Vs O 0 c).arrAt 2 cfg0.N = Vout c) (c : Dev nD) :
    ∀ w : Fin cfg0.W, (dats Vs O 0 c).arrAt w cfg0.N = VsOut Vs Vout c (Pipeline.arrRef spec0 w)
  | ⟨0, _⟩ => ((dats Vs O 0 c).arrAt_in 0 rfl _).trans ((A_eq Vs O c 0).trans (Function.update_of_ne (by decide) _ _).symm)
  | ⟨1, _⟩ => ((dats Vs O 0 c).arrAt_in 1 rfl _).trans ((A_eq Vs O c 1).trans (Function.update_of_ne (by decide) _ _).symm)
  | ⟨2, _⟩ => (hfin c).trans (by show Vout c = Function.update (Vs c) main_v3 (Vout c) main_v3; rw [Function.update_self])

/-- The staging cells' waits, at the kernel's own index, sit below everything the core owes. -/
theorem hwaits (hO : ∀ g, O g none = 0) (c : Dev nD) :
    (levAts (K (F := F)).L (K (F := F)).lev : sProp 𝕄) ⊢ Pipeline.cellsWaits (Pipeline.pin (pcfgs (F := F)) adm) (dats Vs O) (none : HIx 1) 0 c :=
  Pipeline.cellsWaits_intro (Pipeline.pin (pcfgs (F := F)) adm) (dats Vs O) (none : HIx 1) 0 c fun w s t =>
    SparseCore.Cfg.mayWait_none (K := K (F := F)) _ hO

set_option backward.isDefEq.respectTransparency.types false in
/-- THE REGION. -/
def reg (hO : ∀ g, O g none = 0) (hfin : ∀ c, (dats Vs O 0 c).arrAt 2 cfg0.N = Vout c) :
    Pipeline.RegionSeg (pcfgs (F := F)) adm (dats Vs O) (none : HIx 1) defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation Vs O c).loose
  hwaits c := hwaits Vs O hO c
  pre c := iprop(unscopedBufs c (Vs c) ∗ owesR O c)
  post c := iprop(unscopedBufs c (VsOut Vs Vout c) ∗ owesR O c)
  X _ := iprop(emp)
  Y _ := iprop(emp)
  Z c := Pipeline.unscopedRest spec0 c (Vs c)
  hentry c := by
    have hsplit := Pipeline.arrays_of_unscopedBufs (pcfgs (F := F)) adm (dats Vs O) launch0.win launch0.arr_whole c
      ((dats Vs O 0 c).share_full fun _ => rfl) (Vs c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr; · iempintro
    iexact Hr
  hin c := by
    rw [show (dats Vs O 0 c).Φ 0 = iprop(emp) from rfl]
    iintro -; iempintro
  hout c := by
    rw [Pipeline.ownSems0_none, scopedRest0_eq]
    iintro -
    isplitr; · iempintro
    isplitr <;> iempintro
  hexit c := by
    have hback := Pipeline.unscopedBufs_of_arrays (pcfgs (F := F)) adm launch0.win launch0.arr_whole c (dats Vs O)
      ((dats Vs O 0 c).share_full fun _ => rfl) (Vs c) (VsOut Vs Vout c) (fun w => (dats Vs O 0 c).arrAt w cfg0.N)
      (arrAt_final Vs O Vout hfin c)
      (fun b hb => Function.update_of_ne (fun e => hb (Finset.mem_image.mpr ⟨2, Finset.mem_univ _, e.symm⟩)) _ _)
    iintro ⟨Ha, HO, -, HZ⟩
    imodintro
    isplitl [Ha HZ]
    · iapply hback; isplitl [Ha] <;> iassumption
    · unfold Pipeline.Dat.owesAt Pipeline.owesWithin
      icases HO with ⟨%W, %hW, HO⟩; iexists W; isplitr
      · ipureintro
        intro p hp
        rcases hW (Finset.mem_coe.mpr hp) with h | ⟨w, s, rfl⟩
        · exact h
        · rfl
      iexact HO

end Cert.Proof.KB.Rgn

end
-- ==== Proof.Bits.RegionRule.lean ====
/-
  The TensorCore region's rule inside the SparseCore program's body table: the region's launch is the pipeline's
  entry label lifted to the extended labels, and a proof about the entry under the pipeline's own table is a proof
  about the lifted launch.
-/
import proofs.«212586_g28561532518402_cont_9to1_840_6_alg».proof.Proof.Bits.RegionSeg

set_option maxRecDepth 16384

noncomputable section

namespace Cert.Proof.KB.Rgn

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vs : (c : Dev nD) → (b : Ref sig .tc) → Buf (Elt F) ((c : Thread nD τ).loc b)) (O : CellTallies nD τ sig (HIx 1))
variable (Vout : (c : Dev nD) → Buf (Elt F) ((c : Thread nD τ).loc main_v3))

set_option backward.isDefEq.respectTransparency.types false in
/-- The region on core c, for contents found on every core: from the boundary, the unscoped buffers as found, the
    core owing its constant tallies, the level facts and the pipeline's ghost state, the region's launch runs to the
    continuation from the boundary, the unscoped buffers with the output array at its final contents, and the core
    owing the same. -/
theorem region_wp_fam (hO : ∀ g, O g none = 0) (hfin : ∀ c, (dats Vs O 0 c).arrAt 2 cfg0.N = Vout c) (c : Dev nD)
    {α : Type} (k : PUnit → Prog (TpuEff nD τ sig (Elt F) (SparseCore.Sig (ΛP (F := F)) 1) .tc) α) (Q : α → sProp 𝕄) :
    iprop(boundary (c : Thread nD τ) ∗ unscopedBufs c (Vs c) ∗ owesR O c
          ∗ levAts (K (F := F)).L (K (F := F)).lev
          ∗ Pipeline.cellsGhost (Pipeline.pin (pcfgs (F := F)) adm) EP 0 c ∗ Pipeline.toksInit (Pipeline.pin (pcfgs (F := F)) adm) EP 0 c
          ∗ (iprop(boundary (c : Thread nD τ) ∗ unscopedBufs c (VsOut Vs Vout c) ∗ owesR O c)
              -∗ wp frame (wpE ((K (F := F)).defs (D (F := F))) 𝒱 (c : Thread nD τ) none) Set.univ (k ⟨⟩) Q))
        ⊢ wp frame (wpE ((K (F := F)).defs (D (F := F))) 𝒱 (c : Thread nD τ) none) Set.univ
            (.op (.customCall (SparseCore.inner (Pipeline.entry 0)) ()) k) Q := by
  have hwp := (reg Vs O Vout hO hfin).wp (pcfgs (F := F)) adm (dats Vs O) (none : HIx 1) cellOf_inj EP defs₀ 𝒱₀ (K (F := F)).L (K (F := F)).lev c none
    (fun _ h => (Option.not_mem_none _ h).elim) (fun u => .ret u)
    (fun x => wp frame (wpE ((K (F := F)).defs (D (F := F))) 𝒱 (c : Thread nD τ) none) Set.univ (k x) Q)
  have hlift := (K (F := F)).wp_liftProg (D (F := F)) 𝒱 (c : Thread nD τ) Set.univ none
    (.op (.customCall (Pipeline.entry 0) ()) Prog.ret) (fun x => wp frame (wpE ((K (F := F)).defs (D (F := F))) 𝒱 (c : Thread nD τ) none) Set.univ (k x) Q)
  rw [show (Prog.op (.customCall (SparseCore.inner (Pipeline.entry 0)) ()) k : Prog (TpuEff nD τ sig (Elt F) (SparseCore.Sig (ΛP (F := F)) 1) .tc) α)
      = (SparseCore.liftProg (.op (.customCall (Pipeline.entry 0) ()) Prog.ret)) >>= k from rfl, wp_bind]
  rw [show (reg Vs O Vout hO hfin).post c = iprop(unscopedBufs c (VsOut Vs Vout c) ∗ owesR O c) from rfl,
    show (reg Vs O Vout hO hfin).pre c = iprop(unscopedBufs c (Vs c) ∗ owesR O c) from rfl] at hwp
  refine BIBase.Entails.trans ?_ hlift
  refine BIBase.Entails.trans ?_ hwp
  iintro ⟨Hbd, Hub, HO, Hla, Hg, Ht, Hk⟩
  isplitl [Hk]
  · iintro ⟨Hb, Hu, Ho⟩; rw [wp_ret]; imodintro; iapply Hk
    isplitl [Hb]; · iexact Hb
    isplitl [Hu] <;> iassumption
  isplitl [Hbd]; · iexact Hbd
  isplitl [Hub HO]; · isplitl [Hub] <;> iassumption
  isplitl [Hla]; · iexact Hla
  isplitl [Hg] <;> iassumption

end Cert.Proof.KB.Rgn

end
-- ==== Proof.Bits.RegionValue.lean ====
/-
  The value the TensorCore region leaves in its output array: the tokens cut to the first 1024 positions, an entry
  zeroed where the mask column is non-zero at its (batch, position). The body's payload at an index is that select of
  its two blocks; the block point t writes back is block t of the whole-array function (the three windows move
  together: block (b, s) of each sits at batch b and positions 256 s … 256 s + 255); the output's blocks tile its
  array (the point of batch b and position p is the one at (b, p / 256)); so the array ends as the whole-array function.
-/
import proofs.«212586_g28561532518402_cont_9to1_840_6_alg».proof.Proof.Bits.RegionData
import Idealize.ShloMosaic.Lib.Pipeline.Value
import Idealize.ShloMosaic.Lib.ValueIdx

set_option maxRecDepth 16384

noncomputable section

namespace Cert.Proof.KB.Rgn

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

variable (Vs : (c : Dev nD) → (b : Ref sig .tc) → Buf (Elt F) ((c : Thread nD τ).loc b)) (O : CellTallies nD τ sig (HIx 1))

/-! ## The body's payload at an index -/

/-- At (0, r, q) the payload is the tokens' block there if the mask column's block is zero at (0, r, 0), else zero. -/
theorem pay_ix (x1 : Vec F S1x256x1 .i32) (x0 : Vec F S1x256x1024 .f32) (r : Fin 256) (q : Fin 1024) :
    k0_pay1 x1 x0 (ix3 (0 : Fin 1) r q)
      = if x1 (ix3 (0 : Fin 1) r (0 : Fin 1)) = 0#32 then x0 (ix3 (0 : Fin 1) r q) else Scalar.ofBits .f32 0x00000000#32 := by
  unfold k0_pay1
  refine (shapeCast_apply _ _ (ix3 (0 : Fin 1) r q) (ix2 r q) ?_).trans ?_
  · rw [Shape.rowMajor_val_two, Shape.rowMajor_val_three]
    show r.val * 1024 + q.val = ((0 : Fin 1).val * 256 + r.val) * 1024 + q.val
    simp
  rw [select_apply, broadcast_apply]
  rw [broadcastTo_apply _ _ (ix2 r q) (ix2 r (0 : Fin 1)) (fun a => by match a with | ⟨0, _⟩ => rfl | ⟨1, _⟩ => rfl)]
  rw [shapeCast_self]
  have e1 : shapeCast S256x1 x1 shapeCasts_S1x256x1_S256x1 (ix2 r (0 : Fin 1)) = x1 (ix3 (0 : Fin 1) r (0 : Fin 1)) :=
    shapeCast_apply x1 _ (ix2 r (0 : Fin 1)) (ix3 (0 : Fin 1) r (0 : Fin 1)) (by
      rw [Shape.rowMajor_val_two, Shape.rowMajor_val_three]
      show ((0 : Fin 1).val * 256 + r.val) * 1 + (0 : Fin 1).val = r.val * 1 + (0 : Fin 1).val
      simp)
  have e0 : shapeCast S256x1024 x0 shapeCasts_S1x256x1024_S256x1024 (ix2 r q) = x0 (ix3 (0 : Fin 1) r q) :=
    shapeCast_apply x0 _ (ix2 r q) (ix3 (0 : Fin 1) r q) (by
      rw [Shape.rowMajor_val_two, Shape.rowMajor_val_three]
      show ((0 : Fin 1).val * 256 + r.val) * 1024 + q.val = r.val * 1024 + q.val
      simp)
  show Scalar.select (IntOp.cmpi .ne (shapeCast S256x1 x1 shapeCasts_S1x256x1_S256x1 (ix2 r (0 : Fin 1))) 0#32) _ _ = _
  rw [e1, e0]
  unfold Scalar.select IntOp.cmpi
  by_cases h : x1 (ix3 (0 : Fin 1) r (0 : Fin 1)) = 0#32
  · rw [if_pos h]; simp [h]
  · have hb : (x1 (ix3 (0 : Fin 1) r (0 : Fin 1)) != 0#32) = true := bne_iff_ne.mpr h
    rw [if_neg h]; simp [hb]

/-- The same at any index of the block. -/
theorem pay_apply (x1 : Vec F S1x256x1 .i32) (x0 : Vec F S1x256x1024 .f32) (j : S1x256x1024.Idx) :
    k0_pay1 x1 x0 j
      = if x1 (ix3 (0 : Fin 1) (j 1 : Fin 256) (0 : Fin 1)) = 0#32 then x0 j else Scalar.ofBits .f32 0x00000000#32 := by
  obtain ⟨p, r, q, rfl⟩ : ∃ (p : Fin 1) (r : Fin 256) (q : Fin 1024), j = ix3 p r q := ⟨j 0, j 1, j 2, eq_ix3 j⟩
  obtain rfl : p = 0 := Subsingleton.elim _ _
  exact pay_ix x1 x0 r q

/-! ## From blocks to the array -/

theorem hz3 : (![0, 0, 0] : Fin 3 → Nat) = fun _ => 0 := funext fun a => by fin_cases a <;> rfl

/-- The output array after the region, as one function of the arrays the region finds. -/
def Vtrim (c : Dev nD) : Buf (Elt F) ((c : Thread nD τ).loc main_v3) := Cert.Spec.trimmed (Vs c main_arg0) (Vs c main_v2)

/-- The printed index maps, decided over the grid: the three windows move together on the batch and position axes, the
    mask column's last block index is zero, and the output's block indices stay in their ranges. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = win0_2.index t (2 : Fin 3)
    ∧ win0_1.index t (0 : Fin 3) = win0_2.index t (0 : Fin 3) ∧ win0_1.index t (1 : Fin 3) = win0_2.index t (1 : Fin 3)
    ∧ win0_1.index t (2 : Fin 3) = 0
    ∧ win0_2.index t (0 : Fin 3) ≤ 15 ∧ win0_2.index t (1 : Fin 3) ≤ 3 ∧ win0_2.index t (2 : Fin 3) = 0 :=
  (by decide +kernel : ∀ t : Fin grid0.N, _)

/-- Every block of the output array is some point's. -/
theorem idx_onto : ∀ (q0 : Fin 16) (q1 : Fin 4), ∃ t : Fin cfg0.N, win0_2.index t = ![q0.val, q1.val, 0] :=
  (by decide +kernel : ∀ (q0 : Fin 16) (q1 : Fin 4), ∃ t : Fin grid0.N, win0_2.index t = ![q0.val, q1.val, 0])

/-- What point t writes back is block t of the whole-array function. -/
theorem flushed_eq (c : Dev nD) (t : Fin cfg0.N) :
    (dats Vs O 0 c).flushed 2 t = ((cfg0.win 2).blk t).view.read (Elt F) (Vtrim Vs c) := by
  show (cfg0.win 2).cut (grid0.coords t) ((dats Vs O 0 c).after 2 t) = _
  rw [after0_2]
  unfold outBlk
  rw [View.canon_unit_zero hz3]
  simp only [View.ld_unit_zero (S := S1x256x1024) hz3, View.ld_unit_zero (S := S1x256x1) hz3]
  obtain ⟨e0, e1, e2, e3, e4, e5, b0, b1, b2⟩ := idx_facts t
  funext j
  show k0_pay1 (iblk Vs c 1 t) (iblk Vs c 0 t) j = Cert.Spec.trimmed (Vs c main_arg0) (Vs c main_v2) (((cfg0.win 2).blk t).view.emb j)
  refine (pay_apply _ _ _).trans ?_
  unfold Cert.Spec.trimmed
  have hj0 : (j 0).val < 1 := (j 0).isLt
  have hj1 : (j 1).val < 256 := (j 1).isLt
  have hj2 : (j 2).val < 1024 := (j 2).isLt
  have h1 : ((cfg0.win 1).blk t).view.emb (ix3 (0 : Fin 1) (j 1 : Fin 256) (0 : Fin 1)) = Cert.Spec.colIdx (((cfg0.win 2).blk t).view.emb j) := by
    funext a; apply Fin.ext
    match a with
    | ⟨0, _⟩ => show win0_1.index t (0 : Fin 3) * 1 + 1 * (0 : Fin 1).val = win0_2.index t (0 : Fin 3) * 1 + 1 * (j 0).val; simp only [Fin.val_zero]; omega
    | ⟨1, _⟩ => show win0_1.index t (1 : Fin 3) * 256 + 1 * (j 1).val = win0_2.index t (1 : Fin 3) * 256 + 1 * (j 1).val; omega
    | ⟨2, _⟩ => show win0_1.index t (2 : Fin 3) * 1 + 1 * (0 : Fin 1).val = (0 : Fin 1).val; simp only [Fin.val_zero]; omega
  have h0 : ((cfg0.win 0).blk t).view.emb j = Cert.Spec.tokIdx (((cfg0.win 2).blk t).view.emb j) := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 1024 + 1 * (j 2).val = win0_2.index t (2 : Fin 3) * 1024 + 1 * (j 2).val; omega
  have hcol : iblk Vs c 1 t (ix3 (0 : Fin 1) (j 1 : Fin 256) (0 : Fin 1)) = Vs c main_v2 (Cert.Spec.colIdx (((cfg0.win 2).blk t).view.emb j)) := by
    show Vs c main_v2 (((cfg0.win 1).blk t).view.emb (ix3 (0 : Fin 1) (j 1 : Fin 256) (0 : Fin 1))) = _
    rw [h1]
  have htok : iblk Vs c 0 t j = Vs c main_arg0 (Cert.Spec.tokIdx (((cfg0.win 2).blk t).view.emb j)) := by
    show Vs c main_arg0 (((cfg0.win 0).blk t).view.emb j) = _
    rw [h0]
  exact if_congr (Eq.congr hcol rfl) htok rfl

/-- An index of the array is in point t's block iff each coordinate is in the block's range on its axis. -/
theorem mem_blk (t : Fin cfg0.N) (i : S16x1024x1024.Idx) :
    i ∈ ((cfg0.win 2).blk t).view.set ↔ ∀ a : Fin 3, win0_2.index t a * S1x256x1024.size a ≤ (i a).val ∧ (i a).val < win0_2.index t a * S1x256x1024.size a + S1x256x1024.size a := by
  show i ∈ ((View.whole main_v3).slice (win0_2.rect t)).set ↔ _
  rw [View.set_slice_whole, Rect.mem_set_unit]
  exact Iff.rfl

/-- The output's blocks cover its array. -/
theorem cover (i : S16x1024x1024.Idx) : ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- THE ARRAY after the region: the trimmed tokens of the arrays the region finds. -/
theorem final2 (c : Dev nD) : (dats Vs O 0 c).arrAt 2 cfg0.N = Vtrim Vs c :=
  (dats Vs O 0 c).arrAt_eq_of_cover 2 (Vtrim Vs c) (fun t _ => flushed_eq Vs O c t) cover

end Cert.Proof.KB.Rgn

end
-- ==== Proof.Bits.Region.lean ====
/-
  The TensorCore region's rule, with the output's value named: on the device's TensorCore, from the boundary, the
  unscoped buffers at the contents found, the core owing its constant tallies (none at the kernel's own index), the
  level facts and the pipeline's ghost state, the region's launch runs to the continuation from the boundary, the
  unscoped buffers with the output array at the trimmed tokens — an entry zeroed where the mask column is non-zero at
  its (batch, position) —, and the core owing the same.
-/
import proofs.«212586_g28561532518402_cont_9to1_840_6_alg».proof.Proof.Bits.RegionRule
import proofs.«212586_g28561532518402_cont_9to1_840_6_alg».proof.Proof.Bits.RegionValue

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Rgn

/-- The contents found on the one device, as a family over the devices (there is one). -/
abbrev famOf (d : Dev nD) (V : (b : Ref sig .tc) → Buf (Elt F) ((SparseCore.T d : Thread nD τ).loc b)) :
    (c : Dev nD) → (b : Ref sig .tc) → Buf (Elt F) ((c : Thread nD τ).loc b) :=
  fun c => (Subsingleton.elim d c) ▸ V

theorem region_wp (d : Dev nD) (V : (b : Ref sig .tc) → Buf (Elt F) ((SparseCore.T d : Thread nD τ).loc b))
    (O : CellTallies nD τ sig (HIx 1)) (hO : ∀ g, O g none = 0)
    {α : Type} (k : PUnit → Prog (TpuEff nD τ sig (Elt F) (SparseCore.Sig (ΛP (F := F)) 1) .tc) α) (Q : α → sProp 𝕄) :
    iprop(boundary (SparseCore.T d : Thread nD τ) ∗ unscopedBufs d V
          ∗ (∃ W, ⌜∀ p ∈ W, p.2 = none⌝ ∗ owes (SparseCore.T d) O W)
          ∗ levAts (K (F := F)).L (K (F := F)).lev
          ∗ Pipeline.cellsGhost (Pipeline.pin (pcfgs (F := F)) adm) EP 0 d ∗ Pipeline.toksInit (Pipeline.pin (pcfgs (F := F)) adm) EP 0 d
          ∗ (iprop(boundary (SparseCore.T d : Thread nD τ)
                ∗ unscopedBufs d (Function.update V main_v3 (Cert.Spec.trimmed (V main_arg0) (V main_v2)))
                ∗ (∃ W, ⌜∀ p ∈ W, p.2 = none⌝ ∗ owes (SparseCore.T d) O W))
              -∗ wp frame (wpE ((K (F := F)).defs (D (F := F))) 𝒱 (SparseCore.T d) none) Set.univ (k ⟨⟩) Q))
        ⊢ wp frame (wpE ((K (F := F)).defs (D (F := F))) 𝒱 (SparseCore.T d) none) Set.univ
            (.op (.customCall (SparseCore.inner (Pipeline.entry 0)) ()) k) Q :=
  region_wp_fam (famOf d V) O (Vtrim (famOf d V)) hO (fun c => final2 (famOf d V) O c) d k Q

/-- info: 'Cert.Proof.KB.region_wp' depends on axioms: [propext, Classical.choice, Quot.sound] -/
#guard_msgs in #print axioms region_wp

end Cert.Proof.KB

end
-- ==== Proof.Bits.HostOps.lean ====
/-
  @main's host operations as two lists — the three before the pallas_call region (cut the mask, make it a column,
  widen it to words) and the three after it (drop the unit axis, transpose to position-major, flatten) — and @main as
  the first list, the region, the second list, the SparseCore call.
-/
import proofs.«212586_g28561532518402_cont_9to1_840_6_alg».proof.Proof.Bits.Common

noncomputable section

namespace Cert.Proof.KB

open Cert.Kernel Cert.Kernel.Gen
open Idealize.ShloMosaic Idealize.SL.Sem

variable {F : FTy → Type} [FloatOps F]

abbrev opA1 : HloOp τ sig (Elt F) :=
  StableHlo.unary main_arg1 main_v0 ((extractStridedSlice S16x1024 ![0, 0] · Facts₀.slices_S16x2048_S16x1024_0_0) : (⟨S16x2048, .i1⟩ : BufTy).Contents (Elt F) → (⟨S16x1024, .i1⟩ : BufTy).Contents (Elt F))
abbrev opA2 : HloOp τ sig (Elt F) :=
  StableHlo.unary main_v0 main_v1 (broadcastInDim S16x1024x1 ![0, 1] Facts₀.bcast_S16x1024_S16x1024x1_0_1 : (⟨S16x1024, .i1⟩ : BufTy).Contents (Elt F) → (⟨S16x1024x1, .i1⟩ : BufTy).Contents (Elt F))
abbrev opA3 : HloOp τ sig (Elt F) :=
  StableHlo.unary main_v1 main_v2 ((extui 32 · Facts₀.natLt_1_32) : (⟨S16x1024x1, .i1⟩ : BufTy).Contents (Elt F) → (⟨S16x1024x1, .i32⟩ : BufTy).Contents (Elt F))
abbrev opB1 : HloOp τ sig (Elt F) :=
  StableHlo.reshape main_v2 main_v4 rfl Facts₀.shapeCasts_S16x1024x1_S16x1024
abbrev opB2 : HloOp τ sig (Elt F) :=
  StableHlo.unary main_v4 main_v5 ((transpose S1024x16 [1, 0] · Facts₀.transposes_S16x1024_S1024x16_1_0) : (⟨S16x1024, .i32⟩ : BufTy).Contents (Elt F) → (⟨S1024x16, .i32⟩ : BufTy).Contents (Elt F))
abbrev opB3 : HloOp τ sig (Elt F) :=
  StableHlo.reshape main_v5 main_v6 rfl Facts₀.shapeCasts_S1024x16_S16384

/-- The host operations before the region, and after it. -/
abbrev opsA : List (HloOp τ sig (Elt F)) := [opA1, opA2, opA3]
abbrev opsB : List (HloOp τ sig (Elt F)) := [opB1, opB2, opB3]

/-- @main, cut at the region and at the SparseCore call. -/
theorem main_eq (d : Dev nD) :
    main (F := F) d
      = (StableHlo.seq opsA >>= fun _ =>
          (Prog.op (.customCall (SparseCore.inner (Pipeline.entry 0)) ()) fun _ =>
            (StableHlo.seq opsB >>= fun _ => (sc.run d 0 >>= fun _ => pure ⟨⟩)))) := by
  simp only [main, StableHlo.seq, bind_assoc, pure_bind]
  rfl

end Cert.Proof.KB

end
-- ==== Proof.Bits.HostVals.lean ====
/-
  What @main's arrays hold along the way, as valuations of the device's buffers: at launch, before the pallas_call
  region (after the first three host operations), after the region (the trimmed tokens written), and before the
  SparseCore call (after the last three host operations); and each array the proof reads, at those moments, as a
  function of the two arguments.
-/
import proofs.«212586_g28561532518402_cont_9to1_840_6_alg».proof.Proof.Bits.HostOps
import Idealize.ShloMosaic.Lib.Pipeline.Frame

noncomputable section

namespace Cert.Proof.KB

open Cert.Kernel Cert.Kernel.Gen
open Idealize.ShloMosaic Idealize.SL.Sem

variable {F : FTy → Type} [FloatOps F]
variable (m : (ℓ : Loc nD τ sig) → Buf (Elt F) ℓ) (d : Dev nD)

/-- The device's buffers at launch. -/
abbrev V0 : Valuation τ sig (Elt F) := fun b => m (d, b)
/-- Before the region. -/
abbrev VA : Valuation τ sig (Elt F) := StableHlo.after opsA (V0 m d)
/-- After the region, which leaves `X` in the trimmed-tokens array. -/
def VR (X : (⟨S16x1024x1024, .f32⟩ : BufTy).Contents (Elt F)) : Valuation τ sig (Elt F) :=
  Function.update (VA m d) (Proc.devRef .tc (main_v3 : Ref sig .tc)) X
/-- Before the SparseCore call. -/
abbrev VB (X : (⟨S16x1024x1024, .f32⟩ : BufTy).Contents (Elt F)) : Valuation τ sig (Elt F) := StableHlo.after opsB (VR m d X)

/-- The two arguments, as the specification's functions take them. -/
abbrev tokOf : FVec F S16x2048x1024 .f32 := m (d, Proc.devRef .tc (main_arg0 : Ref sig .tc))
abbrev mskOf : IVec S16x2048 1 := m (d, Proc.devRef .tc (main_arg1 : Ref sig .tc))

theorem VA_arg0 : VA m d (Proc.devRef .tc (main_arg0 : Ref sig .tc)) = tokOf m d := by
  show StableHlo.after opsA (V0 m d) (Proc.devRef .tc (main_arg0 : Ref sig .tc)) = _
  after_results
theorem VA_arg1 : VA m d (Proc.devRef .tc (main_arg1 : Ref sig .tc)) = mskOf m d := by
  show StableHlo.after opsA (V0 m d) (Proc.devRef .tc (main_arg1 : Ref sig .tc)) = _
  after_results
theorem VA_v0 : VA m d (Proc.devRef .tc (main_v0 : Ref sig .tc)) = Cert.Spec.maskCut (mskOf m d) := by
  show StableHlo.after opsA (V0 m d) (Proc.devRef .tc (main_v0 : Ref sig .tc)) = _
  after_results
  rfl
theorem VA_v2 : VA m d (Proc.devRef .tc (main_v2 : Ref sig .tc)) = Cert.Spec.maskCol (mskOf m d) := by
  show StableHlo.after opsA (V0 m d) (Proc.devRef .tc (main_v2 : Ref sig .tc)) = _
  after_results
  rfl

variable (X : (⟨S16x1024x1024, .f32⟩ : BufTy).Contents (Elt F))

/-- The region writes the trimmed-tokens array only: every other array is as before it. -/
theorem VR_of_ne {r : Ref sig .tc} (h : r ≠ main_v3) : VR m d X (Proc.devRef .tc r) = VA m d (Proc.devRef .tc r) := by
  unfold VR
  exact Function.update_of_ne (StableHlo.devRef_ne_of_ne h) _ _

/-- The trimmed-tokens array after the region. -/
theorem VR_v3 : VR m d X (Proc.devRef .tc (main_v3 : Ref sig .tc)) = X := by
  unfold VR
  exact Function.update_self _ _ _

theorem VB_arg0 : VB m d X (Proc.devRef .tc (main_arg0 : Ref sig .tc)) = tokOf m d := by
  show StableHlo.after opsB (VR m d X) (Proc.devRef .tc (main_arg0 : Ref sig .tc)) = _
  after_results
  rw [VR_of_ne m d X (by decide), VA_arg0]
theorem VB_arg1 : VB m d X (Proc.devRef .tc (main_arg1 : Ref sig .tc)) = mskOf m d := by
  show StableHlo.after opsB (VR m d X) (Proc.devRef .tc (main_arg1 : Ref sig .tc)) = _
  after_results
  rw [VR_of_ne m d X (by decide), VA_arg1]
theorem VB_v0 : VB m d X (Proc.devRef .tc (main_v0 : Ref sig .tc)) = Cert.Spec.maskCut (mskOf m d) := by
  show StableHlo.after opsB (VR m d X) (Proc.devRef .tc (main_v0 : Ref sig .tc)) = _
  after_results
  rw [VR_of_ne m d X (by decide), VA_v0]
theorem VB_v3 : VB m d X (Proc.devRef .tc (main_v3 : Ref sig .tc)) = X := by
  show StableHlo.after opsB (VR m d X) (Proc.devRef .tc (main_v3 : Ref sig .tc)) = _
  after_results
  rw [VR_v3]
theorem VB_v6 : VB m d X (Proc.devRef .tc (main_v6 : Ref sig .tc)) = Cert.Spec.maskFlat (mskOf m d) := by
  show StableHlo.after opsB (VR m d X) (Proc.devRef .tc (main_v6 : Ref sig .tc)) = _
  after_results
  rw [VR_of_ne m d X (by decide), VA_v2]
  rfl

/-- Every operation of the two lists names TensorCore buffers only, and allocates nothing. -/
theorem opsA_sub : ∀ op ∈ (opsA : List (HloOp τ sig (Elt F))), op.bufs ⊆ Pipeline.ucRefs τ sig := by
  have hs : (opsA : List (HloOp τ sig (Elt F))).Forall fun op => op.bufs ⊆ StableHlo.tcRefs τ sig :=
    ⟨StableHlo.unary_bufs_sub .., StableHlo.unary_bufs_sub .., StableHlo.unary_bufs_sub ..⟩
  exact fun op h => Pipeline.sub_ucRefs op ((List.forall_iff_forall_mem.mp hs) op h)
theorem opsB_sub : ∀ op ∈ (opsB : List (HloOp τ sig (Elt F))), op.bufs ⊆ Pipeline.ucRefs τ sig := by
  have hs : (opsB : List (HloOp τ sig (Elt F))).Forall fun op => op.bufs ⊆ StableHlo.tcRefs τ sig :=
    ⟨StableHlo.reshape_bufs_sub .., StableHlo.unary_bufs_sub .., StableHlo.reshape_bufs_sub ..⟩
  exact fun op h => Pipeline.sub_ucRefs op ((List.forall_iff_forall_mem.mp hs) op h)
theorem opsA_fresh : ∀ op ∈ (opsA : List (HloOp τ sig (Elt F))), op.fresh = ∅ := by
  intro _ h
  (repeat (cases h with | head => rfl | tail _ h => ?_))
  exact nomatch h
theorem opsB_fresh : ∀ op ∈ (opsB : List (HloOp τ sig (Elt F))), op.fresh = ∅ := by
  intro _ h
  (repeat (cases h with | head => rfl | tail _ h => ?_))
  exact nomatch h

end Cert.Proof.KB

end
-- ==== Proof.Bits.Final.lean ====
/-
  What the five arrays the claim speaks of hold at the end, read off the final physical state: a full points-to for
  each of the two arguments, the trimmed tokens, the cut mask and the lengths, beside the state interpretation, pins the
  memory's contents at each of the five locations.
-/
import proofs.«212586_g28561532518402_cont_9to1_840_6_alg».proof.Proof.Bits.Common

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Each full points-to agrees with the state interpretation on every element, so the five arrays are the memory's. -/
theorem read_five (d : Dev nD) (s' : Phys nD τ sig (Elt F))
    (f0 : Buf (Elt F) ((SparseCore.T d).loc main_arg0)) (f1 : Buf (Elt F) ((SparseCore.T d).loc main_arg1))
    (g3 : Buf (Elt F) ((SparseCore.T d).loc main_v3)) (g0 : Buf (Elt F) ((SparseCore.T d).loc main_v0))
    (g7 : Buf (Elt F) ((SparseCore.T d).loc main_v7)) :
    iprop((((SparseCore.T d).loc main_arg0) ↦{fullShare} f0) ∗ (((SparseCore.T d).loc main_arg1) ↦{fullShare} f1)
        ∗ (((SparseCore.T d).loc main_v3) ↦{fullShare} g3) ∗ (((SparseCore.T d).loc main_v0) ↦{fullShare} g0)
        ∗ (((SparseCore.T d).loc main_v7) ↦{fullShare} g7) ∗ SI s')
      ⊢ (⌜s'.mem.mem ((SparseCore.T d).loc main_arg0) = f0 ∧ s'.mem.mem ((SparseCore.T d).loc main_arg1) = f1
          ∧ s'.mem.mem ((SparseCore.T d).loc main_v3) = g3 ∧ s'.mem.mem ((SparseCore.T d).loc main_v0) = g0
          ∧ s'.mem.mem ((SparseCore.T d).loc main_v7) = g7⌝ : sProp 𝕄) := by
  iintro ⟨H0, H1, H3, Hv0, H7, HSI⟩
  ihave H := (persistent_entails_right (SI_pointsTo_agree (st := s') (ℓ := (SparseCore.T d).loc main_arg0) (I := Finset.univ) (q := fullShare) (f := f0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := f1))) $$ [HSI H1]
  · isplitl [HSI] <;> iassumption
  icases H with ⟨%h1, HSI, -⟩
  ihave H := (persistent_entails_right (SI_pointsTo_agree (st := s') (ℓ := (SparseCore.T d).loc main_v3) (I := Finset.univ) (q := fullShare) (f := g3))) $$ [HSI H3]
  · isplitl [HSI] <;> iassumption
  icases H with ⟨%h3, HSI, -⟩
  ihave H := (persistent_entails_right (SI_pointsTo_agree (st := s') (ℓ := (SparseCore.T d).loc main_v0) (I := Finset.univ) (q := fullShare) (f := g0))) $$ [HSI Hv0]
  · isplitl [HSI] <;> iassumption
  icases H with ⟨%h4, HSI, -⟩
  ihave H := (SI_pointsTo_agree (st := s') (ℓ := (SparseCore.T d).loc main_v7) (I := Finset.univ) (q := fullShare) (f := g7)) $$ [HSI H7]
  · isplitl [HSI] <;> iassumption
  icases H with %h7
  ipureintro
  exact ⟨funext fun i => h0 i (Finset.mem_univ i), funext fun i => h1 i (Finset.mem_univ i),
    funext fun i => h3 i (Finset.mem_univ i), funext fun i => h4 i (Finset.mem_univ i),
    funext fun i => h7 i (Finset.mem_univ i)⟩

end Cert.Proof.KB

end
-- ==== Proof.Bits.Launch.lean ====
/-
  The launch: the element of the ghost state the program starts from, @main on the TensorCore, how the final
  assertions read the results, and the program's run with every result named.

  @main: the mask argument is cut, made a column and widened (three host operations); the pallas_call region zeroes
  the masked token positions; the column is re-laid position-major and flat (three host operations); the SparseCore call
  counts the unmasked positions of each batch row.
-/
import proofs.«212586_g28561532518402_cont_9to1_840_6_alg».proof.Proof.Bits.Pay
import proofs.«212586_g28561532518402_cont_9to1_840_6_alg».proof.Proof.Bits.Region
import proofs.«212586_g28561532518402_cont_9to1_840_6_alg».proof.Proof.Bits.HostVals
import proofs.«212586_g28561532518402_cont_9to1_840_6_alg».proof.Proof.Bits.Final

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element -/

/-- The handshakes' rounds at their cells and tokens, the pipeline's at its staging cells and transfers, no counter yet. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What @main's proof starts from beside the launch's deal: the pipeline's ghost state. -/
def G (d : Dev nD) : sProp 𝕄 :=
  iprop(Pipeline.cellsGhost (Pipeline.pin (pcfgs (F := F)) adm) EP 0 d ∗ Pipeline.toksInit (Pipeline.pin (pcfgs (F := F)) adm) EP 0 d)

omit m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HP⟩
  ihave HP' := (Entails.of_eq (show (BI.own ((embR : Emb (UP × Counters) (MT nD τ sig (HIx 1) (Elt F) ℕ UU ℕ))
      (initOf (Pipeline.cells (Pipeline.pin (pcfgs (F := F)) adm) cellOf_inj) (Pipeline.launchToks (Pipeline.pin (pcfgs (F := F)) adm) cellOf_inj), 1)) : sProp 𝕄)
      = BI.own ((EP (F := F)) (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) (EP (F := F)) cellOf_inj) $$ HP' with ⟨Hg, Ht⟩
  imodintro
  isplitl [HH]; · iexact HH
  isplitl [Hg Ht]
  · unfold G
    rw [bigSep_sep']
    have e1 : (bigSep Finset.univ fun c : Dev nD => bigSep Finset.univ fun p : Fin 1 => Pipeline.cellsGhost (Pipeline.pin (pcfgs (F := F)) adm) (EP (F := F)) p c : sProp 𝕄)
        = bigSep Finset.univ fun c : Dev nD => Pipeline.cellsGhost (Pipeline.pin (pcfgs (F := F)) adm) (EP (F := F)) 0 c :=
      bigSep_congr fun c _ => bigSep_univ_of_subsingleton (0 : Fin 1)
    have e2 : (bigSep Finset.univ fun c : Dev nD => bigSep Finset.univ fun p : Fin 1 => Pipeline.toksInit (Pipeline.pin (pcfgs (F := F)) adm) (EP (F := F)) p c : sProp 𝕄)
        = bigSep Finset.univ fun c : Dev nD => Pipeline.toksInit (Pipeline.pin (pcfgs (F := F)) adm) (EP (F := F)) 0 c :=
      bigSep_congr fun c _ => bigSep_univ_of_subsingleton (0 : Fin 1)
    ihave Hg' := (Entails.of_eq e1) $$ Hg
    ihave Ht' := (Entails.of_eq e2) $$ Ht
    isplitl [Hg']
    · iexact Hg'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r3' : DevRef τ sig := Proc.devRef .tc (main_v3 : Ref sig .tc)
abbrev r6' : DevRef τ sig := Proc.devRef .tc (main_v6 : Ref sig .tc)
abbrev r7' : DevRef τ sig := Proc.devRef .tc (main_v7 : Ref sig .tc)

/-- The arrays the end of @main speaks of. -/
abbrev S6 : Finset (DevRef τ sig) := {a0', a1', r0', r3', r6', r7'}

omit m ρ in
theorem S6_sub : S6 ⊆ Pipeline.ucRefs τ sig := by decide

omit m ρ in
theorem held_S6 (d : Dev nD) (W : Valuation τ sig (Elt F)) :
    (held (T d) S6 W : sProp 𝕄)
      = iprop((a0Loc d ↦{fullShare} W a0') ∗ (a1Loc d ↦{fullShare} W a1') ∗ (((SparseCore.T d).loc main_v0) ↦{fullShare} W r0')
          ∗ (((SparseCore.T d).loc main_v3) ↦{fullShare} W r3') ∗ (v6Loc d ↦{fullShare} W r6') ∗ (v7Loc d ↦{fullShare} W r7')) := by
  unfold held S6
  rw [SparseCore.bigSep_insert' (by decide), SparseCore.bigSep_insert' (by decide), SparseCore.bigSep_insert' (by decide),
    SparseCore.bigSep_insert' (by decide), SparseCore.bigSep_insert' (by decide), bigSep_singleton]

variable [FloatOps F]

/-- The trimmed tokens, as the region leaves them. -/
abbrev trimOf (d : Dev nD) : FVec F S16x1024x1024 .f32 := Cert.Spec.trimmed (tokOf m d) (Cert.Spec.maskCol (mskOf m d))

/-- The region writes the trimmed-tokens array and nothing else. -/
theorem update_val (d : Dev nD) (X : (⟨S16x1024x1024, .f32⟩ : BufTy).Contents (Elt F)) :
    (Function.update (fun b : Ref sig .tc => VA m d (Proc.devRef .tc b)) main_v3 X) = fun b : Ref sig .tc => VR m d X (Proc.devRef .tc b) := by
  funext b; unfold VR
  by_cases h : b = main_v3
  · subst h; rw [Function.update_self, Function.update_self]
  · rw [Function.update_of_ne h, Function.update_of_ne (StableHlo.devRef_ne_of_ne h)]

/-- What the call takes for the two SparseCores, and what it hands back. -/
theorem st0_eq (d : Dev nD) : (bigSep Finset.univ fun c : Fin ((K (F := F)).nCore 0) => (P m).st 0 d c)
    = iprop((v6Pts d (flatOf m d) ∗ ∃ f, v7Pts d f) ∗ emp) := by
  show (bigSep (Finset.univ : Finset (Fin 2)) fun c => forCore m d c.val) = _
  rw [show (Finset.univ : Finset (Fin 2)) = {0, 1} by decide, SparseCore.bigSep_insert' (by decide), bigSep_singleton]
  show iprop(forCore m d 0 ∗ forCore m d 1) = _
  unfold forCore; rw [if_pos rfl, if_neg Nat.one_ne_zero]
theorem dn0_eq (d : Dev nD) : (bigSep Finset.univ fun c : Fin ((K (F := F)).nCore 0) => (P m).dn 0 d c)
    = iprop((v6Pts d (flatOf m d) ∗ v7Pts d (Cert.Spec.lengths (flatOf m d))) ∗ emp) := by
  show (bigSep (Finset.univ : Finset (Fin 2)) fun c => fromCore m d c.val) = _
  rw [show (Finset.univ : Finset (Fin 2)) = {0, 1} by decide, SparseCore.bigSep_insert' (by decide), bigSep_singleton]
  show iprop(fromCore m d 0 ∗ fromCore m d 1) = _
  unfold fromCore; rw [if_pos rfl, if_neg Nat.one_ne_zero]

/-- What @main leaves the claim: the two arguments as launched and the three results at their values. -/
abbrev FIN (d : Dev nD) : sProp 𝕄 :=
  iprop((a0Loc d ↦{fullShare} tokOf m d) ∗ (a1Loc d ↦{fullShare} mskOf m d) ∗ (((SparseCore.T d).loc main_v3) ↦{fullShare} trimOf m d)
    ∗ (((SparseCore.T d).loc main_v0) ↦{fullShare} Cert.Spec.maskCut (mskOf m d)) ∗ (v7Loc d ↦{fullShare} Cert.Spec.lengths (flatOf m d)))

omit m ρ [FloatOps F] in
/-- The TensorCore owes nothing at the kernels' own index. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [main_eq, show (unscopedBufs d fun b => m ((SparseCore.T d).loc b)) = held (T d) (Pipeline.ucRefs τ sig) (V0 m d) from Pipeline.unscopedBufs_held d (V0 m d)]
  iintro ⟨#Hctx, Hst, ⟨Hb, Hheld, -, -⟩, ⟨Hcg, Hti⟩⟩
  -- the three host operations before the region
  iapply (StableHlo.wp_seq 𝒱 none Set.univ d (Pipeline.ucRefs τ sig) _ opsA opsA_sub opsA_fresh (V0 m d)) $$ [Hb Hheld]
  · isplitl [Hb] <;> iassumption
  iintro ⟨Hb, Hheld⟩
  -- the region: the TensorCore's debt and ghost state handed in, the trimmed tokens written
  unfold SparseCore.Cfg.tcSt
  icases Hst with ⟨⟨%W, %hW, HO⟩, Hat, Hrd, Hrs, Htoks⟩
  ihave Hlv := (SparseCore.Cfg.ctx_levAts κ) $$ Hctx
  have hWn : ∀ p ∈ W, p.2 = none := fun p hp => by
    have h := hW p hp
    rcases hq : p.2 with _ | q
    · rfl
    · rw [hq] at h; have := (K (F := F)).lev_some_pos ((SparseCore.T d : Thread nD τ), p.1) q; omega
  ihave Hub := (Entails.of_eq (Pipeline.unscopedBufs_held d (VA m d)).symm) $$ Hheld
  iapply (region_wp (F := F) d (fun b => VA m d (Proc.devRef .tc b)) ((K (F := F)).Otc d 0) (Otc_none (F := F) d) _ _) $$ [Hb Hub HO Hlv Hcg Hti Hat Hrd Hrs Htoks]
  isplitl [Hb]; · iexact Hb
  isplitl [Hub]; · iexact Hub
  isplitl [HO]
  · iexists W; isplitr; · ipureintro; exact hWn
    iexact HO
  isplitl [Hlv]; · iexact Hlv
  isplitl [Hcg]; · iexact Hcg
  isplitl [Hti]; · iexact Hti
  iintro ⟨Hb, Hub, ⟨%W1, %hW1, HO⟩⟩
  have hval : (Function.update (fun b : Ref sig .tc => VA m d (Proc.devRef .tc b)) main_v3
        (Cert.Spec.trimmed (VA m d a0') (VA m d (Proc.devRef .tc (main_v2 : Ref sig .tc)))))
      = fun b : Ref sig .tc => VR m d (trimOf m d) (Proc.devRef .tc b) := by
    rw [show VA m d a0' = tokOf m d from VA_arg0 m d,
      show VA m d (Proc.devRef .tc (main_v2 : Ref sig .tc)) = Cert.Spec.maskCol (mskOf m d) from VA_v2 m d]
    exact update_val m d (trimOf m d)
  ihave Hheld := (Entails.of_eq ((congrArg (unscopedBufs d) hval).trans (Pipeline.unscopedBufs_held d (VR m d (trimOf m d))))) $$ Hub
  -- the three host operations after the region
  iapply (StableHlo.wp_seq 𝒱 none Set.univ d (Pipeline.ucRefs τ sig) _ opsB opsB_sub opsB_fresh (VR m d (trimOf m d))) $$ [Hb Hheld]
  · isplitl [Hb] <;> iassumption
  iintro ⟨Hb, Hheld⟩
  -- the arrays the rest of @main speaks of, out of all the unscoped ones
  ihave Hh := (Entails.of_eq ((StableHlo.held_sub_split (T d) S6_sub (VB m d (trimOf m d))).trans
    (congrArg (fun X => iprop(X ∗ held (T d) (Pipeline.ucRefs τ sig \ S6) (VB m d (trimOf m d)))) (held_S6 (F := F) d (VB m d (trimOf m d)))))) $$ Hheld
  icases Hh with ⟨⟨Ha0, Ha1, Hr0, Hr3, Hr6, Hr7⟩, -⟩
  ihave Ha0 := (Entails.of_eq (congrArg (fun f => (a0Loc d ↦{fullShare} f : sProp 𝕄)) (VB_arg0 m d (trimOf m d)))) $$ Ha0
  ihave Ha1 := (Entails.of_eq (congrArg (fun f => (a1Loc d ↦{fullShare} f : sProp 𝕄)) (VB_arg1 m d (trimOf m d)))) $$ Ha1
  ihave Hr0 := (Entails.of_eq (congrArg (fun f => (((SparseCore.T d).loc main_v0) ↦{fullShare} f : sProp 𝕄)) (VB_v0 m d (trimOf m d)))) $$ Hr0
  ihave Hr3 := (Entails.of_eq (congrArg (fun f => (((SparseCore.T d).loc main_v3) ↦{fullShare} f : sProp 𝕄)) (VB_v3 m d (trimOf m d)))) $$ Hr3
  ihave Hr6 := (Entails.of_eq (congrArg (fun f => (v6Loc d ↦{fullShare} f : sProp 𝕄)) (VB_v6 m d (trimOf m d)))) $$ Hr6
  -- the SparseCore call: the flat mask and the result array to SparseCore 0 and back
  rw [wp_bind]
  iapply ((K (F := F)).wp_run (D (F := F)) 𝒱 (EH := EH) (P := P m) κ d 0) $$ [HO Hat Hrd Hrs Htoks Hr6 Hr7 Ha0 Ha1 Hr0 Hr3]
  isplitr; · iexact Hctx
  isplitl [HO Hat Hrd Hrs Htoks]
  · unfold SparseCore.Cfg.tcSt
    isplitl [HO]
    · iexists W1; isplitr
      · ipureintro; intro p hp; show (K (F := F)).lev (SparseCore.T d, p.1) p.2 ≤ 8 * 0
        rw [hW1 p hp]; exact Nat.zero_le _
      · iexact HO
    isplitl [Hat]; · iexact Hat
    isplitl [Hrd]; · iexact Hrd
    isplitl [Hrs]; · iexact Hrs
    iexact Htoks
  isplitl [Hr6 Hr7]
  · rw [st0_eq]
    isplitl [Hr6 Hr7]
    · isplitl [Hr6]; · iexact Hr6
      iexists _; iexact Hr7
    · iempintro
  iintro ⟨Hst, Hdn⟩
  unfold SparseCore.Cfg.tcSt
  ihave Hdn' := (Entails.of_eq (dn0_eq m d)) $$ Hdn
  icases Hdn' with ⟨⟨-, H7⟩, -⟩
  rw [wp_pure]; imodintro
  isplitl [Hst]; · iexact Hst
  isplitl [Ha0]; · iexact Ha0
  isplitl [Ha1]; · iexact Ha1
  isplitl [Hr3]; · iexact Hr3
  isplitl [Hr0]; · iexact Hr0
  iexact H7

/-! ## The final assertions read the claim -/

def fq (d : Dev nD) (s' : Phys nD τ sig (Elt F)) : Prop :=
  s'.mem.mem ((SparseCore.T d).loc main_arg0) = tokOf m d ∧ s'.mem.mem ((SparseCore.T d).loc main_arg1) = mskOf m d
    ∧ s'.mem.mem ((SparseCore.T d).loc main_v3) = trimOf m d ∧ s'.mem.mem ((SparseCore.T d).loc main_v0) = Cert.Spec.maskCut (mskOf m d)
    ∧ s'.mem.mem ((SparseCore.T d).loc main_v7) = Cert.Spec.lengths (flatOf m d)

theorem hfin (d : Dev nD) (s' : Phys nD τ sig (Elt F)) : iprop(FIN m d ∗ SI s') ⊢ (⌜fq m d s'⌝ : sProp 𝕄) := by
  iintro ⟨⟨H0, H1, H3, Hv0, H7⟩, HSI⟩
  iapply (read_five (F := F) d s' (tokOf m d) (mskOf m d) (trimOf m d) (Cert.Spec.maskCut (mskOf m d)) (Cert.Spec.lengths (flatOf m d)))
  isplitl [H0]; · iexact H0
  isplitl [H1]; · iexact H1
  isplitl [H3]; · iexact H3
  isplitl [Hv0]; · iexact Hv0
  isplitl [H7]; · iexact H7
  iexact HSI

/-! ## The program's run -/

/-- Every result at its value, the arguments as launched. -/
def QC : PUnit × MemSt nD τ sig (Elt F) → Prop := fun r => ∀ c : Dev nD,
    r.2.mem ((SparseCore.T c).loc main_v3) = trimOf m c ∧ r.2.mem ((SparseCore.T c).loc main_v0) = Cert.Spec.maskCut (mskOf m c)
    ∧ r.2.mem ((SparseCore.T c).loc main_v7) = Cert.Spec.lengths (flatOf m c)
    ∧ r.2.mem ((SparseCore.T c).loc main_arg0) = m ((SparseCore.T c).loc main_arg0) ∧ r.2.mem ((SparseCore.T c).loc main_arg1) = m ((SparseCore.T c).loc main_arg1)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun _ h c => ⟨(h c).2.2.1, (h c).2.2.2.1, (h c).2.2.2.2, (h c).1, (h c).2.1⟩)

end Cert.Proof.KB

end
-- ==== Proof.lean ====
/-
  The five claims about the kernel program, its reading at the ideal instance, and the reference.

  The program trims a token array f32[16, 2048, 1024] to its first 1024 positions and zeroes the masked ones, cuts the
  boolean mask i1[16, 2048] to the same positions, and counts each batch row's unmasked positions among them. Its three
  results, as functions of its two arguments (the specification): the trimmed tokens — entry (b, s, d) is the token at
  (b, s, d) if the mask bit at (b, s), widened to a 32-bit word, is zero, and zero otherwise —; the cut mask; and the
  lengths — entry b is 1024 minus the sum over the 1024 positions s of the widened mask bit at (b, s), in 32-bit words.

  * The frames (the printed program at the bit-exact instance, at the ideal instance, and the reference): each run
    terminates and leaves the two argument arrays as they were. For the kernel program this is the program's run with
    every result named, its last two equations kept; for the reference, its run likewise.
  * The idealization rewrote nothing, so there is nothing to preserve.
  * The algebraic claim: at the ideal instance, from memories that agree on the two arguments, both programs end with
    the same three results. The kernel program's run names them as the specification's functions of the arguments. The
    reference computes the trimmed tokens by a select on the mask bit itself, where the specification (and the kernel)
    select on the bit widened to a word being zero: the two choices agree on each value of the bit. It cuts the mask
    by the same slice. And it adds up, over the positions of a batch row, the complement of the mask bit widened to a
    word, where the kernel subtracts the sum of the widened bits from 1024: the complement of a bit, widened, is one
    minus the bit widened, and the sum of 1 - x over 1024 positions is 1024 minus the sum of the x, in the ring of
    32-bit words.
-/
import proofs.«212586_g28561532518402_cont_9to1_840_6_alg».proof.Defs
import proofs.«212586_g28561532518402_cont_9to1_840_6_alg».proof.Proof.Gen.Kernel
import proofs.«212586_g28561532518402_cont_9to1_840_6_alg».proof.Proof.Gen.Kernel.Skeleton
import proofs.«212586_g28561532518402_cont_9to1_840_6_alg».proof.Proof.Gen.Kernel.Launch
import proofs.«212586_g28561532518402_cont_9to1_840_6_alg».proof.Proof.Gen.Kernel.Points
import proofs.«212586_g28561532518402_cont_9to1_840_6_alg».proof.Proof.Gen.KernelIdeal
import proofs.«212586_g28561532518402_cont_9to1_840_6_alg».proof.Proof.Gen.KernelIdeal.Skeleton
import proofs.«212586_g28561532518402_cont_9to1_840_6_alg».proof.Proof.Gen.KernelIdeal.Launch
import proofs.«212586_g28561532518402_cont_9to1_840_6_alg».proof.Proof.Gen.KernelIdeal.Points
import proofs.«212586_g28561532518402_cont_9to1_840_6_alg».proof.Proof.Gen.ReferenceIdeal
import proofs.«212586_g28561532518402_cont_9to1_840_6_alg».proof.Proof.Gen.Pre_finite_inputs
import proofs.«212586_g28561532518402_cont_9to1_840_6_alg».proof.Proof.Gen.ReferenceIdeal.Run
import proofs.«212586_g28561532518402_cont_9to1_840_6_alg».proof.Proof.Gen.ReferenceIdeal.Read
import proofs.«212586_g28561532518402_cont_9to1_840_6_alg».proof.Proof.RefBridge
import proofs.«212586_g28561532518402_cont_9to1_840_6_alg».proof.Proof.Ideal.Launch
import proofs.«212586_g28561532518402_cont_9to1_840_6_alg».proof.Proof.Bits.Launch
import Idealize.ShloMosaic.Adequacy
import Idealize.ShloMosaic.Init

noncomputable section

namespace Cert.Proof

open Idealize.ShloMosaic Idealize.SL.Sem

/-- The printed program at the bit-exact instance runs and leaves its arguments as they were: the last two equations
    of its run with every result named. -/
theorem frame_kernel : Cert.frame_Kernel := fun m ρ _ =>
  (θ_run _ _ _).mono (fun _ h c => ⟨(h c).2.2.2.1, (h c).2.2.2.2⟩) (Cert.Proof.KB.run_main (F := Bits) m ρ)

/-- The same program read at the ideal instance, likewise. -/
theorem frame_kernelIdeal : Cert.frame_KernelIdeal := fun m ρ _ =>
  (θ_run _ _ _).mono (fun _ h c => ⟨(h c).2.2.2.1, (h c).2.2.2.2⟩) (Cert.Proof.KI.run_main (F := Ideal) m ρ)

/-- The reference runs and leaves its arguments as they were: the last two equations of its run. -/
theorem frame_referenceIdeal : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- The idealization rewrote no operation. -/
theorem preserves : Cert.preserves_Kernel_KernelIdeal := trivial

/-- At the ideal instance, from memories agreeing on the two arguments, the kernel program and the reference end with
    the same trimmed tokens, cut mask and lengths: the kernel program's run names them as the specification's functions
    of the arguments, and each of the reference's three terms is the same function of the same arguments. -/
theorem algebraic : Cert.algebraic_KernelIdeal_ReferenceIdeal := by
  intro m ρ m' ρ' _ hagree
  refine ⟨fun c => Cert.Proof.KI.trimOf m c, fun c => Cert.Spec.maskCut (Cert.Proof.KI.mskOf m c),
    fun c => Cert.Spec.lengths (Cert.Proof.KI.flatOf m c), Cert.Proof.KI.run_main (F := Ideal) m ρ, ?_⟩
  refine (θ_run Cert.ReferenceIdeal.defs _ _).mono
    (fun _ h c => ⟨(h c).1.trans ?_, (h c).2.1.trans ?_, (h c).2.2.1.trans ?_, (h c).2.2.2.1, (h c).2.2.2.2⟩)
    (Cert.ReferenceIdeal.Value.run (F := Ideal) m' ρ')
  · rw [(hagree c).1, (hagree c).2]
    exact (Cert.ReferenceIdeal.Read.val_main_v3_eq (F := Ideal) _ _).trans (Cert.RefBridge.trimmed_eq (F := Ideal) _ _)
  · rw [(hagree c).2]
    exact (Cert.ReferenceIdeal.Read.val_main_v1_eq (F := Ideal) _).trans (Cert.RefBridge.mask_eq (F := Ideal) _)
  · rw [(hagree c).2]
    exact (Cert.ReferenceIdeal.Read.val_main_v6_eq (F := Ideal) _).trans (Cert.RefBridge.lengths_eq (F := Ideal) _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
